-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S3200000 : Shape := ⟨1, ![3200000]⟩
abbrev S100000 : Shape := ⟨1, ![100000]⟩
abbrev S13x64 : Shape := ⟨2, ![13, 64]⟩
abbrev S64 : Shape := ⟨1, ![64]⟩
abbrev S64x64 : Shape := ⟨2, ![64, 64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x2 : S_.BroadcastsInDim S192x2 (![] : Fin 0 → Fin S192x2.rank)
  reducesTo_S192x2_S_d0_1 : S192x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg31 : FVec F S2 .f32) (main_v133 : IVec S_ 1) (main_v136 : IVec S192x2 1) : IVec S_ 1 :=
  let main_c_53 : IVec S_ 1 := constantI S_ 1 1#1
  let main_v137 : IVec S_ 1 := (fun x v => Host.reduce IntOp.andi x v reducesTo_S192x2_S_d0_1 h_S_) main_v136 main_c_53
  let main_v138 : IVec S_ 1 := andi main_v133 main_v137
  let main_v139 : FVec F S2 .f32 := Host.absf main_arg31
  let main_cst_54 : FVec F S_ .f32 := constant S_ .f32 0x7F800000#32
  let main_v140 : FVec F S2 .f32 := broadcastInDim S2 ![] bcast_S_S2 main_cst_54
  let main_v141 : IVec S2 1 := cmpf .olt main_v139 main_v140
  let main_c_55 : IVec S_ 1 := constantI S_ 1 1#1
  let main_v142 : IVec S_ 1 := (fun x v => Host.reduce IntOp.andi x v reducesTo_S2_S_d0 h_S_) main_v141 main_c_55
  let main_v143 : IVec S_ 1 := andi main_v138 main_v142
  main_v143

def fn_part7 {F : FTy → Type} [FloatOps F] (main_arg28 : FVec F S192x192 .f32) (main_arg29 : FVec F S192 .f32) (main_arg30 : FVec F S192x2 .f32) (main_arg31 : FVec F S2 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S192x192 .f32 := Host.absf main_arg28
  let main_cst_48 : FVec F S_ .f32 := constant S_ .f32 0x7F800000#32
  let main_v125 : FVec F S192x192 .f32 := broadcastInDim S192x192 ![] bcast_S_S192x192 main_cst_48
  let main_v126 : IVec S192x192 1 := cmpf .olt main_v124 main_v125
  let main_c_49 : IVec S_ 1 := constantI S_ 1 1#1
  let main_v127 : IVec S_ 1 := (fun x v => Host.reduce IntOp.andi x v reducesTo_S192x192_S_d0_1 h_S_) main_v126 main_c_49
  let main_v128 : IVec S_ 1 := andi main_v123 main_v127
  let main_v129 : FVec F S192 .f32 := Host.absf main_arg29
  let main_cst_50 : FVec F S_ .f32 := constant S_ .f32 0x7F800000#32
  let main_v130 : FVec F S192 .f32 := broadcastInDim S192 ![] bcast_S_S192 main_cst_50
  let main_v131 : IVec S192 1 := cmpf .olt main_v129 main_v130
  let main_c_51 : IVec S_ 1 := constantI S_ 1 1#1
  let main_v132 : IVec S_ 1 := (fun x v => Host.reduce IntOp.andi x v reducesTo_S192_S_d0 h_S_) main_v131 main_c_51
  let main_v133 : IVec S_ 1 := andi main_v128 main_v132
  let main_v134 : FVec F S192x2 .f32 := Host.absf main_arg30
  let main_cst_52 : FVec F S_ .f32 := constant S_ .f32 0x7F800000#32
  let main_v135 : FVec F S192x2 .f32 := broadcastInDim S192x2 ![] bcast_S_S192x2 main_cst_52
  let main_v136 : IVec S192x2 1 := cmpf .olt main_v134 main_v135
  fn_part8 (F := F) main_arg31 main_v133 main_v136

def fn_part6 {F : FTy → Type} [FloatOps F] (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg24
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg25
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg26
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg27
  fn_part7 (F := F) main_arg28 main_arg29 main_arg30 main_arg31 main_v118 main_v119

def fn_part5 {F : FTy → Type} [FloatOps F] (main_arg21 : FVec F S64 .f32) (main_arg22 : FVec F S64 .f32) (main_arg23 : FVec F S64 .f32) (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg23
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg24 main_arg25 main_arg26 main_arg27 main_arg28 main_arg29 main_arg30 main_arg31 main_v98 main_v101 main_c_39

def fn_part4 {F : FTy → Type} [FloatOps F] (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg18
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_arg31 main_v83 main_v84 main_cst_32

def fn_part3 {F : FTy → Type} [FloatOps F] (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S100000x13 .f32) (main_arg1 : IVec S3200000 32) (main_arg2 : IVec S3200000 32) (main_arg3 : IVec S100000 32) (main_arg4 : FVec F S13x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x64 .f32) (main_arg19 : FVec F S64 .f32) (main_arg20 : FVec F S64x64 .f32) (main_arg21 : FVec F S64 .f32) (main_arg22 : FVec F S64 .f32) (main_arg23 : FVec F S64 .f32) (main_arg24 : FVec F S64 .f32) (main_arg25 : FVec F S64 .f32) (main_arg26 : FVec F S64x64 .f32) (main_arg27 : FVec F S64 .f32) (main_arg28 : FVec F S192x192 .f32) (main_arg29 : FVec F S192 .f32) (main_arg30 : FVec F S192x2 .f32) (main_arg31 : FVec F S2 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x64 .f32 := Host.absf main_arg4
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S100000x13 : Shape := ⟨2, ![100000, 13]⟩
abbrev S3200000 : Shape := ⟨1, ![3200000]⟩
abbrev S100000 : Shape := ⟨1, ![100000]⟩
abbrev S13x64 : Shape := ⟨2, ![13, 64]⟩
abbrev S64 : Shape := ⟨1, ![64]⟩
abbrev S64x64 : Shape := ⟨2, ![64, 64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S_ : Shape := ⟨0, ![]⟩
abbrev S3200000x1 : Shape := ⟨2, ![3200000, 1]⟩
abbrev S3200000x13 : Shape := ⟨2, ![3200000, 13]⟩
abbrev S100000x64 : Shape := ⟨2, ![100000, 64]⟩
abbrev S10000x13 : Shape := ⟨2, ![10000, 13]⟩
abbrev S10000x64 : Shape := ⟨2, ![10000, 64]⟩
abbrev S1x64 : Shape := ⟨2, ![1, 64]⟩
abbrev S3200000x64 : Shape := ⟨2, ![3200000, 64]⟩
abbrev S512x64 : Shape := ⟨2, ![512, 64]⟩
abbrev S100000x1 : Shape := ⟨2, ![100000, 1]⟩
abbrev S512x192 : Shape := ⟨2, ![512, 192]⟩
abbrev S512x2 : Shape := ⟨2, ![512, 2]⟩
abbrev S1x192 : Shape := ⟨2, ![1, 192]⟩
abbrev S1x2 : Shape := ⟨2, ![1, 2]⟩
abbrev S512 : Shape := ⟨1, ![512]⟩
abbrev S512x1 : Shape := ⟨2, ![512, 1]⟩

abbrev nBuf : Space → Nat
  | .hbm => 88
  | .vmem => 48
  | .smem => 0
  | _ => 0

abbrev bufTy : (tb : Table) → Fin (tcTables nBuf tb) → BufTy
  | .hbm, ⟨0, _⟩ => ⟨S100000x13, .f32⟩
  | .hbm, ⟨1, _⟩ => ⟨S3200000, .i32⟩
  | .hbm, ⟨2, _⟩ => ⟨S3200000, .i32⟩
  | .hbm, ⟨3, _⟩ => ⟨S100000, .i32⟩
  | .hbm, ⟨4, _⟩ => ⟨S13x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64x64, .f32⟩
  | .hbm, ⟨27, _⟩ => ⟨S64, .f32⟩
  | .hbm, ⟨28, _⟩ => ⟨S192x192, .f32⟩
  | .hbm, ⟨29, _⟩ => ⟨S192, .f32⟩
  | .hbm, ⟨30, _⟩ => ⟨S192x2, .f32⟩
  | .hbm, ⟨31, _⟩ => ⟨S2, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x13, .f32⟩
  | .hbm, ⟨41, _⟩ => ⟨S_, .f32⟩
  | .hbm, ⟨42, _⟩ => ⟨S100000x13, .f32⟩
  | .hbm, ⟨43, _⟩ => ⟨S3200000x1, .i32⟩
  | .hbm, ⟨44, _⟩ => ⟨S100000x13, .f32⟩
  | .hbm, ⟨45, _⟩ => ⟨S100000x64, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S100000x64, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x64, .f32⟩
  | .hbm, ⟨69, _⟩ => ⟨S_, .f32⟩
  | .hbm, ⟨70, _⟩ => ⟨S100000x64, .f32⟩
  | .hbm, ⟨71, _⟩ => ⟨S3200000x1, .i32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S512x64, .f32⟩
  | .hbm, ⟨76, _⟩ => ⟨S100000x1, .i32⟩
  | .hbm, ⟨77, _⟩ => ⟨S512x64, .f32⟩
  | .hbm, ⟨78, _⟩ => ⟨S_, .f32⟩
  | .hbm, ⟨79, _⟩ => ⟨S512x64, .f32⟩
  | .hbm, ⟨80, _⟩ => ⟨S100000x1, .i32⟩
  | .hbm, ⟨81, _⟩ => ⟨S512x64, .f32⟩
  | .hbm, ⟨82, _⟩ => ⟨S_, .f32⟩
  | .hbm, ⟨83, _⟩ => ⟨S512x64, .f32⟩
  | .hbm, ⟨84, _⟩ => ⟨S100000x1, .i32⟩
  | .hbm, ⟨85, _⟩ => ⟨S512x64, .f32⟩
  | .hbm, ⟨86, _⟩ => ⟨S512x192, .f32⟩
  | .hbm, ⟨87, _⟩ => ⟨S512x2, .f32⟩
  | .local _ .vmem, ⟨0, _⟩ => ⟨S10000x13, .f32⟩
  | .local _ .vmem, ⟨1, _⟩ => ⟨S10000x13, .f32⟩
  | .local _ .vmem, ⟨2, _⟩ => ⟨S10000x13, .f32⟩
  | .local _ .vmem, ⟨3, _⟩ => ⟨S10000x13, .f32⟩
  | .local _ .vmem, ⟨4, _⟩ => ⟨S13x64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S64x64, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S64, .f32⟩
  | .local _ .vmem, ⟨37, _⟩ => ⟨S64, .f32⟩
  | .local _ .vmem, ⟨38, _⟩ => ⟨S64x64, .f32⟩
  | .local _ .vmem, ⟨39, _⟩ => ⟨S64, .f32⟩
  | .local _ .vmem, ⟨40, _⟩ => ⟨S10000x64, .f32⟩
  | .local _ .vmem, ⟨41, _⟩ => ⟨S10000x64, .f32⟩
  | .local _ .vmem, ⟨42, _⟩ => ⟨S512x192, .f32⟩
  | .local _ .vmem, ⟨43, _⟩ => ⟨S192x192, .f32⟩
  | .local _ .vmem, ⟨44, _⟩ => ⟨S192, .f32⟩
  | .local _ .vmem, ⟨45, _⟩ => ⟨S192x2, .f32⟩
  | .local _ .vmem, ⟨46, _⟩ => ⟨S2, .f32⟩
  | .local _ .vmem, ⟨47, _⟩ => ⟨S512x2, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_1 : Ref sig .tc := ⟨.hbm, 46, rfl⟩
abbrev main_v11 : Ref sig .tc := ⟨.hbm, 47, rfl⟩
abbrev main_v12 : Ref sig .tc := ⟨.hbm, 48, rfl⟩
abbrev main_c_2 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_3 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_4 : Ref sig .tc := ⟨.hbm, 60, rfl⟩
abbrev main_v22 : Ref sig .tc := ⟨.hbm, 61, rfl⟩
abbrev main_v23 : Ref sig .tc := ⟨.hbm, 62, rfl⟩
abbrev main_c_5 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_7 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_8 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_9 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x13 : S_.BroadcastsInDim S100000x13 (![] : Fin 0 → Fin S100000x13.rank)
  inb_S10000x13_S10000x13_0_0 : ∀ a, (![0, 0] : Fin 2 → Nat) a + S10000x13.size a ≤ S10000x13.size a
  h_S10000x13 : 0 < S10000x13.numel
  shapeCasts_S10000x13_S10000x13 : S10000x13.ShapeCasts S10000x13
  bitsLt_bf16_f32 : FTy.bits .bf16 < FTy.bits .f32
  inb_S13x64_S13x64_0_0 : ∀ a, (![0, 0] : Fin 2 → Nat) a + S13x64.size a ≤ S13x64.size a
  h_S13x64 : 0 < S13x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S10000x64_S10000x64 : S10000x64.ShapeCasts S10000x64
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x64_S512x192_d1 : Shape.Concatenates [S512x64, S512x64, S512x64] S512x192 1
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S192x192_S192x192_0_0 : ∀ a, (![0, 0] : Fin 2 → Nat) a + S192x192.size a ≤ S192x192.size a
  h_S192x192 : 0 < S192x192.numel
  inb_S192_S192_0 : ∀ a, (![0] : Fin 1 → Nat) a + S192.size a ≤ S192.size a
  h_S192 : 0 < S192.numel
  shapeCasts_S192_S1x192 : S192.ShapeCasts S1x192
  broadcasts_S1x192_S512x192 : S1x192.Broadcasts S512x192
  inb_S192x2_S192x2_0_0 : ∀ a, (![0, 0] : Fin 2 → Nat) a + S192x2.size a ≤ S192x2.size a
  h_S192x2 : 0 < S192x2.numel
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  reduces_S512x2_S512 : S512x2.Reduces [1] S512
  shapeCasts_S512_S512x1 : S512.ShapeCasts S512x1
  broadcasts_S512x1_S512x2 : S512x1.Broadcasts S512x2
  inb_S512x2_S512x2_0_0 : ∀ a, (![0, 0] : Fin 2 → Nat) a + S512x2.size a ≤ S512x2.size a
  h_S512x2 : 0 < S512x2.numel
  gather_S100000x13_S3200000x1_S3200000x13_1_0_n_n_0_1_113_wf : GatherDims.WF S100000x13 S3200000x1 S3200000x13 [1] [0] [] [0] [] 1 ![1, 13]
  scatter_S100000x13_S3200000x1_S3200000x13_1_0_0_1_wf : ScatterDims.WF S100000x13 S3200000x1 S3200000x13 [1] [0] [0] 1
  dot_S10000x13_S13x64_S10000x64_1_0_0_1_n_n_wf : DotDims.WF S10000x13 S13x64 S10000x64 [1] [0] [0] [1] [] []
  dot_S10000x64_S64x64_S10000x64_1_0_0_1_n_n_wf : DotDims.WF S10000x64 S64x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S512x64_S100000x1_S100000x64_1_0_0_1_wf : ScatterDims.WF S512x64 S100000x1 S100000x64 [1] [0] [0] 1
  dot_S512x192_S192x192_S512x192_1_0_0_1_n_n_wf : DotDims.WF S512x192 S192x192 S512x192 [1] [0] [0] [1] [] []
  dot_S512x192_S192x2_S512x2_1_0_0_1_n_n_wf : DotDims.WF S512x192 S192x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S100000x13.size a
  hwx0_0 : ∀ i : grid0.Coords, EltTy.bits .f32 = 32 ∨ (Rect.block (s := S100000x13) S10000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x13.size a ≤ S100000x13.size a
  hwx0_1 : ∀ i : grid0.Coords, EltTy.bits .f32 = 32 ∨ (Rect.block (s := S100000x13) S10000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x64.size a ≤ S13x64.size a
  hwx0_2 : ∀ i : grid0.Coords, EltTy.bits .f32 = 32 ∨ (Rect.block (s := S13x64) S13x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x64.size a ≤ S100000x64.size a
  hwx0_10 : ∀ i : grid0.Coords, EltTy.bits .f32 = 32 ∨ (Rect.block (s := S100000x64) S10000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x64.size a ≤ S100000x64.size a
  hwx1_10 : ∀ i : grid1.Coords, EltTy.bits .f32 = 32 ∨ (Rect.block (s := S100000x64) S10000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x64.size a ≤ S100000x64.size a
  hwx2_10 : ∀ i : grid2.Coords, EltTy.bits .f32 = 32 ∨ (Rect.block (s := S100000x64) S10000x64.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x192.size a ≤ S512x192.size a
  hwx3_0 : ∀ i : grid3.Coords, EltTy.bits .f32 = 32 ∨ (Rect.block (s := S512x192) S512x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x192.size a ≤ S192x192.size a
  hwx3_1 : ∀ i : grid3.Coords, EltTy.bits .f32 = 32 ∨ (Rect.block (s := S192x192) S192x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192.size a ≤ S192.size a
  hwx3_2 : ∀ i : grid3.Coords, EltTy.bits .f32 = 32 ∨ (Rect.block (s := S192) S192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x2.size a ≤ S192x2.size a
  hwx3_3 : ∀ i : grid3.Coords, EltTy.bits .f32 = 32 ∨ (Rect.block (s := S192x2) S192x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x2.size a ≤ S512x2.size a
  hwx3_5 : ∀ i : grid3.Coords, EltTy.bits .f32 = 32 ∨ (Rect.block (s := S512x2) S512x2.size (cc3_transform_5 i) (hinb3_5 i)).WholeWords (EltTy.packing .f32)

variable [Facts₀]

def gather_S100000x13_S3200000x1_S3200000x13_1_0_n_n_0_1_113 : GatherDims S100000x13 S3200000x1 S3200000x13 where
  offsetDims := [1]
  collapsedSliceDims := [0]
  operandBatchingDims := []
  startIndicesBatchingDims := []
  startIndexMap := [0]
  indexVectorDim := 1
  sliceSizes := ![1, 13]
  wf := gather_S100000x13_S3200000x1_S3200000x13_1_0_n_n_0_1_113_wf
def scatter_S100000x13_S3200000x1_S3200000x13_1_0_0_1 : ScatterDims S100000x13 S3200000x1 S3200000x13 where
  updateWindowDims := [1]
  insertedWindowDims := [0]
  scatterDimsToOperandDims := [0]
  indexVectorDim := 1
  wf := scatter_S100000x13_S3200000x1_S3200000x13_1_0_0_1_wf
def dot_S10000x13_S13x64_S10000x64_1_0_0_1_n_n : DotDims S10000x13 S13x64 S10000x64 where
  lhsContracting := [1]
  rhsContracting := [0]
  lhsNonContracting := [0]
  rhsNonContracting := [1]
  lhsBatch := []
  rhsBatch := []
  wf := dot_S10000x13_S13x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x2_S512x2_1_0_0_1_n_n : DotDims S512x192 S192x2 S512x2 where
  lhsContracting := [1]
  rhsContracting := [0]
  lhsNonContracting := [0]
  rhsNonContracting := [1]
  lhsBatch := []
  rhsBatch := []
  wf := dot_S512x192_S192x2_S512x2_1_0_0_1_n_n_wf

abbrev win0_0 : Pipeline.Window sig grid0 :=
  Pipeline.Window.ofSpec (Memref.whole main_arg0) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S13x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S10000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21) S10000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v21) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg21) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg25) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg27) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v32) S10000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v42) S512x192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg28) S192x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg29) S192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg30) S192x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg31) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S512x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x13 : Shape := ⟨2, ![100000, 13]⟩
abbrev S3200000 : Shape := ⟨1, ![3200000]⟩
abbrev S100000 : Shape := ⟨1, ![100000]⟩
abbrev S13x64 : Shape := ⟨2, ![13, 64]⟩
abbrev S64 : Shape := ⟨1, ![64]⟩
abbrev S64x64 : Shape := ⟨2, ![64, 64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S_ : Shape := ⟨0, ![]⟩
abbrev S3200000x1 : Shape := ⟨2, ![3200000, 1]⟩
abbrev S3200000x13 : Shape := ⟨2, ![3200000, 13]⟩
abbrev S100000x64 : Shape := ⟨2, ![100000, 64]⟩
abbrev S1x64 : Shape := ⟨2, ![1, 64]⟩
abbrev S3200000x64 : Shape := ⟨2, ![3200000, 64]⟩
abbrev S512x64 : Shape := ⟨2, ![512, 64]⟩
abbrev S100000x1 : Shape := ⟨2, ![100000, 1]⟩
abbrev S512x192 : Shape := ⟨2, ![512, 192]⟩
abbrev S1x192 : Shape := ⟨2, ![1, 192]⟩
abbrev S512x2 : Shape := ⟨2, ![512, 2]⟩
abbrev S1x2 : Shape := ⟨2, ![1, 2]⟩
abbrev S512 : Shape := ⟨1, ![512]⟩
abbrev S512x1 : Shape := ⟨2, ![512, 1]⟩

abbrev nBuf : Space → Nat
  | .hbm => 212
  | .vmem => 0
  | .smem => 0
  | _ => 0

abbrev hbmTy0_0 (i : Nat) : BufTy := match i % 128 with
  | 0 => ⟨S100000x13, .f32⟩
  | 1 => ⟨S3200000, .i32⟩
  | 2 => ⟨S3200000, .i32⟩
  | 3 => ⟨S100000, .i32⟩
  | 4 => ⟨S13x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S64x64, .f32⟩
  | 19 => ⟨S64, .f32⟩
  | 20 => ⟨S64x64, .f32⟩
  | 21 => ⟨S64, .f32⟩
  | 22 => ⟨S64, .f32⟩
  | 23 => ⟨S64, .f32⟩
  | 24 => ⟨S64, .f32⟩
  | 25 => ⟨S64, .f32⟩
  | 26 => ⟨S64x64, .f32⟩
  | 27 => ⟨S64, .f32⟩
  | 28 => ⟨S192x192, .f32⟩
  | 29 => ⟨S192, .f32⟩
  | 30 => ⟨S192x2, .f32⟩
  | 31 => ⟨S2, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x13, .f32⟩
  | 41 => ⟨S_, .f32⟩
  | 42 => ⟨S100000x13, .f32⟩
  | 43 => ⟨S3200000x1, .i32⟩
  | 44 => ⟨S100000x13, .f32⟩
  | 45 => ⟨S100000x13, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S64, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x64, .f32⟩
  | 88 => ⟨S_, .f32⟩
  | 89 => ⟨S100000x64, .f32⟩
  | 90 => ⟨S3200000x1, .i32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .i32⟩
  | 127 => ⟨S3200000, .i32⟩
  | _ => ⟨S100000x13, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000x64, .f32⟩
  | 7 => ⟨S_, .f32⟩
  | 8 => ⟨S100000x64, .f32⟩
  | 9 => ⟨S3200000x1, .i32⟩
  | 10 => ⟨S100000x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S_, .f32⟩
  | 46 => ⟨S512x64, .f32⟩
  | 47 => ⟨S100000x1, .i32⟩
  | 48 => ⟨S512x64, .f32⟩
  | 49 => ⟨S_, .f32⟩
  | 50 => ⟨S512x64, .f32⟩
  | 51 => ⟨S100000x1, .i32⟩
  | 52 => ⟨S512x64, .f32⟩
  | 53 => ⟨S_, .f32⟩
  | 54 => ⟨S512x64, .f32⟩
  | 55 => ⟨S100000x1, .i32⟩
  | 56 => ⟨S512x64, .f32⟩
  | 57 => ⟨S512x192, .f32⟩
  | 58 => ⟨S512x192, .f32⟩
  | 59 => ⟨S1x192, .f32⟩
  | 60 => ⟨S512x192, .f32⟩
  | 61 => ⟨S512x192, .f32⟩
  | 62 => ⟨S_, .f32⟩
  | 63 => ⟨S512x192, .f32⟩
  | 64 => ⟨S512x192, .f32⟩
  | 65 => ⟨S512x2, .f32⟩
  | 66 => ⟨S1x2, .f32⟩
  | 67 => ⟨S512x2, .f32⟩
  | 68 => ⟨S512x2, .f32⟩
  | 69 => ⟨S_, .f32⟩
  | 70 => ⟨S512, .f32⟩
  | 71 => ⟨S_, .f32⟩
  | 72 => ⟨S512, .f32⟩
  | 73 => ⟨S512, .f32⟩
  | 74 => ⟨S512x1, .f32⟩
  | 75 => ⟨S512x2, .f32⟩
  | 76 => ⟨S512x2, .f32⟩
  | 77 => ⟨S512x2, .f32⟩
  | 78 => ⟨S_, .f32⟩
  | 79 => ⟨S512, .f32⟩
  | 80 => ⟨S512x1, .f32⟩
  | 81 => ⟨S512x1, .f32⟩
  | 82 => ⟨S512x2, .f32⟩
  | 83 => ⟨S512x2, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_call0_cst : Ref sig .tc := ⟨.hbm, 66, rfl⟩
abbrev main_call0_v0 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_call1_cst : Ref sig .tc := ⟨.hbm, 73, rfl⟩
abbrev main_call1_v0 : Ref sig .tc := ⟨.hbm, 74, rfl⟩
abbrev main_v35 : Ref sig .tc := ⟨.hbm, 75, rfl⟩
abbrev main_call2_cst : Ref sig .tc := ⟨.hbm, 76, rfl⟩
abbrev main_call2_v0 : Ref sig .tc := ⟨.hbm, 77, rfl⟩
abbrev main_v36 : Ref sig .tc := ⟨.hbm, 78, rfl⟩
abbrev main_c_2 : Ref sig .tc := ⟨.hbm, 79, rfl⟩
abbrev main_v37 : Ref sig .tc := ⟨.hbm, 80, rfl⟩
abbrev main_v38 : Ref sig .tc := ⟨.hbm, 81, rfl⟩
abbrev main_c_3 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_4 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_5 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call3_cst : Ref sig .tc := ⟨.hbm, 113, rfl⟩
abbrev main_call3_v0 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_cst : Ref sig .tc := ⟨.hbm, 120, rfl⟩
abbrev main_call4_v0 : Ref sig .tc := ⟨.hbm, 121, rfl⟩
abbrev main_v72 : Ref sig .tc := ⟨.hbm, 122, rfl⟩
abbrev main_call5_cst : Ref sig .tc := ⟨.hbm, 123, rfl⟩
abbrev main_call5_v0 : Ref sig .tc := ⟨.hbm, 124, rfl⟩
abbrev main_v73 : Ref sig .tc := ⟨.hbm, 125, rfl⟩
abbrev main_c_6 : Ref sig .tc := ⟨.hbm, 126, rfl⟩
abbrev main_v74 : Ref sig .tc := ⟨.hbm, 127, rfl⟩
abbrev main_v75 : Ref sig .tc := ⟨.hbm, 128, rfl⟩
abbrev main_c_7 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_8 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_9 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_call6_cst : Ref sig .tc := ⟨.hbm, 160, rfl⟩
abbrev main_call6_v0 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_call7_cst : Ref sig .tc := ⟨.hbm, 167, rfl⟩
abbrev main_call7_v0 : Ref sig .tc := ⟨.hbm, 168, rfl⟩
abbrev main_v109 : Ref sig .tc := ⟨.hbm, 169, rfl⟩
abbrev main_call8_cst : Ref sig .tc := ⟨.hbm, 170, rfl⟩
abbrev main_call8_v0 : Ref sig .tc := ⟨.hbm, 171, rfl⟩
abbrev main_v110 : Ref sig .tc := ⟨.hbm, 172, rfl⟩
abbrev main_cst_10 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_11 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_12 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_call9_cst : Ref sig .tc := ⟨.hbm, 190, rfl⟩
abbrev main_call9_v0 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_call10_cst : Ref sig .tc := ⟨.hbm, 197, rfl⟩
abbrev main_call10_v0 : Ref sig .tc := ⟨.hbm, 198, rfl⟩
abbrev main_call10_cst_0 : Ref sig .tc := ⟨.hbm, 199, rfl⟩
abbrev main_call10_v1 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_call10_v5 : Ref sig .tc := ⟨.hbm, 204, rfl⟩
abbrev main_call10_v6 : Ref sig .tc := ⟨.hbm, 205, rfl⟩
abbrev main_call10_cst_1 : Ref sig .tc := ⟨.hbm, 206, rfl⟩
abbrev main_call10_v7 : Ref sig .tc := ⟨.hbm, 207, rfl⟩
abbrev main_call10_v8 : Ref sig .tc := ⟨.hbm, 208, rfl⟩
abbrev main_call10_v9 : Ref sig .tc := ⟨.hbm, 209, rfl⟩
abbrev main_call10_v10 : Ref sig .tc := ⟨.hbm, 210, rfl⟩
abbrev main_v130 : Ref sig .tc := ⟨.hbm, 211, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x13 : S_.BroadcastsInDim S100000x13 (![] : Fin 0 → Fin S100000x13.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x64_S512x192_d1 : Shape.Concatenates [S512x64, S512x64, S512x64] S512x192 1
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  bcast_S_S512x192 : S_.BroadcastsInDim S512x192 (![] : Fin 0 → Fin S512x192.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  reducesTo_S512x2_S512_d1 : S512x2.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  gather_S100000x13_S3200000x1_S3200000x13_1_0_n_n_0_1_113_wf : GatherDims.WF S100000x13 S3200000x1 S3200000x13 [1] [0] [] [0] [] 1 ![1, 13]
  scatter_S100000x13_S3200000x1_S3200000x13_1_0_0_1_wf : ScatterDims.WF S100000x13 S3200000x1 S3200000x13 [1] [0] [0] 1
  dot_S100000x13_S13x64_S100000x64_1_0_0_1_n_n_wf : DotDims.WF S100000x13 S13x64 S100000x64 [1] [0] [0] [1] [] []
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S512x64_S100000x1_S100000x64_1_0_0_1_wf : ScatterDims.WF S512x64 S100000x1 S100000x64 [1] [0] [0] 1
  dot_S512x192_S192x192_S512x192_1_0_0_1_n_n_wf : DotDims.WF S512x192 S192x192 S512x192 [1] [0] [0] [1] [] []
  dot_S512x192_S192x2_S512x2_1_0_0_1_n_n_wf : DotDims.WF S512x192 S192x2 S512x2 [1] [0] [0] [1] [] []

variable [Facts₀]

def gather_S100000x13_S3200000x1_S3200000x13_1_0_n_n_0_1_113 : GatherDims S100000x13 S3200000x1 S3200000x13 where
  offsetDims := [1]
  collapsedSliceDims := [0]
  operandBatchingDims := []
  startIndicesBatchingDims := []
  startIndexMap := [0]
  indexVectorDim := 1
  sliceSizes := ![1, 13]
  wf := gather_S100000x13_S3200000x1_S3200000x13_1_0_n_n_0_1_113_wf
def scatter_S100000x13_S3200000x1_S3200000x13_1_0_0_1 : ScatterDims S100000x13 S3200000x1 S3200000x13 where
  updateWindowDims := [1]
  insertedWindowDims := [0]
  scatterDimsToOperandDims := [0]
  indexVectorDim := 1
  wf := scatter_S100000x13_S3200000x1_S3200000x13_1_0_0_1_wf
def dot_S100000x13_S13x64_S100000x64_1_0_0_1_n_n : DotDims S100000x13 S13x64 S100000x64 where
  lhsContracting := [1]
  rhsContracting := [0]
  lhsNonContracting := [0]
  rhsNonContracting := [1]
  lhsBatch := []
  rhsBatch := []
  wf := dot_S100000x13_S13x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x2_S512x2_1_0_0_1_n_n : DotDims S512x192 S192x2 S512x2 where
  lhsContracting := [1]
  rhsContracting := [0]
  lhsNonContracting := [0]
  rhsNonContracting := [1]
  lhsBatch := []
  rhsBatch := []
  wf := dot_S512x192_S192x2_S512x2_1_0_0_1_n_n_wf

class Facts : Prop extends Facts₀ where

variable [Facts]
-- ==== Proof.K.Data.lean ====
import proofs.«143938_j66159676227906_1_alg».proof.Proof.Gen.Kernel.Launch
import proofs.«143938_j66159676227906_1_alg».proof.Proof.Gen.Kernel.Skeleton
import proofs.«143938_j66159676227906_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# What each of the four kernel launches holds, block by block

For each launch: the block of every operand that a grid point sees (the operand's array, as the launch finds it, read
through the point's rectangle); what the body leaves in the output's staging buffer at that point as a function of the
input blocks (its one whole-block store, over the whole-block loads); and the record of these facts the launch
theorems take. Then the contents of the device's buffers between the items of the program: after each stretch of
host operations, and after each launch, where the launch's arrays hold what its write-backs leave and every other
buffer is as it was.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

/- The device's buffer contents when a launch is entered: every launch's facts are stated at this parameter. -/
variable (V : (c : Dev nD) → (b : Ref sig .tc) → Buf (Elt F) ((c : Thread nD τ).loc b))

/-! ## Launch 0: the first layer -/

/-- Operand `w`'s block at grid point `t`: the operand's array, as the launch finds it, read through the point's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangle of operand 0's block. -/
abbrev r0_0 : Rect S10000x13 := Rect.unit (s := S10000x13) ![0, 0] S10000x13.size inb_S10000x13_S10000x13_0_0
/-- The whole rectangle of operand 1's block. -/
abbrev r0_1 : Rect S10000x13 := Rect.unit (s := S10000x13) ![0, 0] S10000x13.size inb_S10000x13_S10000x13_0_0
/-- The whole rectangle of operand 2's block. -/
abbrev r0_2 : Rect S13x64 := Rect.unit (s := S13x64) ![0, 0] S13x64.size inb_S13x64_S13x64_0_0
/-- The whole rectangle of operand 3's block. -/
abbrev r0_3 : Rect S64 := Rect.unit (s := S64) ![0] S64.size inb_S64_S64_0
/-- The whole rectangle of operand 4's block. -/
abbrev r0_4 : Rect S64 := Rect.unit (s := S64) ![0] S64.size inb_S64_S64_0
/-- The whole rectangle of operand 5's block. -/
abbrev r0_5 : Rect S64 := Rect.unit (s := S64) ![0] S64.size inb_S64_S64_0
/-- The whole rectangle of operand 6's block. -/
abbrev r0_6 : Rect S64 := Rect.unit (s := S64) ![0] S64.size inb_S64_S64_0
/-- The whole rectangle of operand 7's block. -/
abbrev r0_7 : Rect S64 := Rect.unit (s := S64) ![0] S64.size inb_S64_S64_0
/-- The whole rectangle of operand 8's block. -/
abbrev r0_8 : Rect S64x64 := Rect.unit (s := S64x64) ![0, 0] S64x64.size inb_S64x64_S64x64_0_0
/-- The whole rectangle of operand 9's block. -/
abbrev r0_9 : Rect S64 := Rect.unit (s := S64) ![0] S64.size inb_S64_S64_0
/-- The whole rectangle of operand 10's block. -/
abbrev r0_10 : Rect S10000x64 := Rect.unit (s := S10000x64) ![0, 0] S10000x64.size inb_S10000x64_S10000x64_0_0

/-- What the body leaves in the output's staging buffer, from the input blocks: its one store, of the body's arithmetic
    on the whole-block loads, as the single piece that covers the buffer. -/
def out0_10 (x0 : Vec F S10000x13 .f32) (x1 : Vec F S10000x13 .f32) (x2 : Vec F S13x64 .f32) (x3 : Vec F S64 .f32) (x4 : Vec F S64 .f32) (x5 : Vec F S64 .f32) (x6 : Vec F S64 .f32) (x7 : Vec F S64 .f32) (x8 : Vec F S64x64 .f32) (x9 : Vec F S64 .f32) : Vec F S10000x64 .f32 :=
  View.canon [⟨r0_10, k0_pay1 (k0_pay2 (View.ld x0 r0_0) (View.ld x1 r0_1) (View.ld x2 r0_2) (View.ld x3 r0_3) (View.ld x6 r0_6) (View.ld x7 r0_7) (View.ld x4 r0_4) (View.ld x5 r0_5) (View.ld x8 r0_8) (View.ld x9 r0_9))⟩]

/-- The one store covers the whole buffer. -/
theorem cover0_10 (p0 : Vec F S10000x64 .f32) (y : S10000x64.Idx) :
    ∃ pc ∈ ([⟨r0_10, p0⟩] : List (View.Piece (Elt F) S10000x64 .f32)), y ∈ pc.1.set :=
  View.cover_of_tiled [⟨r0_10, p0⟩] S10000x64.size (by rfl) y

/-- The launch's record: the arrays as the launch finds them; after the body at point `t` every input's buffer still holds
    its block and the output's buffer holds the body's store; nothing else is kept between points, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-! ## Launch 1: the second layer -/

/-- Operand `w`'s block at grid point `t`: the operand's array, as the launch finds it, read through the point's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole rectangle of operand 0's block. -/
abbrev r1_0 : Rect S10000x64 := Rect.unit (s := S10000x64) ![0, 0] S10000x64.size inb_S10000x64_S10000x64_0_0
/-- The whole rectangle of operand 1's block. -/
abbrev r1_1 : Rect S10000x64 := Rect.unit (s := S10000x64) ![0, 0] S10000x64.size inb_S10000x64_S10000x64_0_0
/-- The whole rectangle of operand 2's block. -/
abbrev r1_2 : Rect S64x64 := Rect.unit (s := S64x64) ![0, 0] S64x64.size inb_S64x64_S64x64_0_0
/-- The whole rectangle of operand 3's block. -/
abbrev r1_3 : Rect S64 := Rect.unit (s := S64) ![0] S64.size inb_S64_S64_0
/-- The whole rectangle of operand 4's block. -/
abbrev r1_4 : Rect S64 := Rect.unit (s := S64) ![0] S64.size inb_S64_S64_0
/-- The whole rectangle of operand 5's block. -/
abbrev r1_5 : Rect S64 := Rect.unit (s := S64) ![0] S64.size inb_S64_S64_0
/-- The whole rectangle of operand 6's block. -/
abbrev r1_6 : Rect S64 := Rect.unit (s := S64) ![0] S64.size inb_S64_S64_0
/-- The whole rectangle of operand 7's block. -/
abbrev r1_7 : Rect S64 := Rect.unit (s := S64) ![0] S64.size inb_S64_S64_0
/-- The whole rectangle of operand 8's block. -/
abbrev r1_8 : Rect S64x64 := Rect.unit (s := S64x64) ![0, 0] S64x64.size inb_S64x64_S64x64_0_0
/-- The whole rectangle of operand 9's block. -/
abbrev r1_9 : Rect S64 := Rect.unit (s := S64) ![0] S64.size inb_S64_S64_0
/-- The whole rectangle of operand 10's block. -/
abbrev r1_10 : Rect S10000x64 := Rect.unit (s := S10000x64) ![0, 0] S10000x64.size inb_S10000x64_S10000x64_0_0

/-- What the body leaves in the output's staging buffer, from the input blocks: its one store, of the body's arithmetic
    on the whole-block loads, as the single piece that covers the buffer. -/
def out1_10 (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) : Vec F S10000x64 .f32 :=
  View.canon [⟨r1_10, k1_pay1 (k1_pay2 (View.ld x0 r1_0) (View.ld x1 r1_1) (View.ld x2 r1_2) (View.ld x3 r1_3) (View.ld x6 r1_6) (View.ld x7 r1_7) (View.ld x4 r1_4) (View.ld x5 r1_5) (View.ld x8 r1_8)) (k1_pay3 (View.ld x9 r1_9))⟩]

/-- The one store covers the whole buffer. -/
theorem cover1_10 (p0 : Vec F S10000x64 .f32) (y : S10000x64.Idx) :
    ∃ pc ∈ ([⟨r1_10, p0⟩] : List (View.Piece (Elt F) S10000x64 .f32)), y ∈ pc.1.set :=
  View.cover_of_tiled [⟨r1_10, p0⟩] S10000x64.size (by rfl) y

/-- The launch's record: the arrays as the launch finds them; after the body at point `t` every input's buffer still holds
    its block and the output's buffer holds the body's store; nothing else is kept between points, nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! ## Launch 2: the third layer -/

/-- Operand `w`'s block at grid point `t`: the operand's array, as the launch finds it, read through the point's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole rectangle of operand 0's block. -/
abbrev r2_0 : Rect S10000x64 := Rect.unit (s := S10000x64) ![0, 0] S10000x64.size inb_S10000x64_S10000x64_0_0
/-- The whole rectangle of operand 1's block. -/
abbrev r2_1 : Rect S10000x64 := Rect.unit (s := S10000x64) ![0, 0] S10000x64.size inb_S10000x64_S10000x64_0_0
/-- The whole rectangle of operand 2's block. -/
abbrev r2_2 : Rect S64x64 := Rect.unit (s := S64x64) ![0, 0] S64x64.size inb_S64x64_S64x64_0_0
/-- The whole rectangle of operand 3's block. -/
abbrev r2_3 : Rect S64 := Rect.unit (s := S64) ![0] S64.size inb_S64_S64_0
/-- The whole rectangle of operand 4's block. -/
abbrev r2_4 : Rect S64 := Rect.unit (s := S64) ![0] S64.size inb_S64_S64_0
/-- The whole rectangle of operand 5's block. -/
abbrev r2_5 : Rect S64 := Rect.unit (s := S64) ![0] S64.size inb_S64_S64_0
/-- The whole rectangle of operand 6's block. -/
abbrev r2_6 : Rect S64 := Rect.unit (s := S64) ![0] S64.size inb_S64_S64_0
/-- The whole rectangle of operand 7's block. -/
abbrev r2_7 : Rect S64 := Rect.unit (s := S64) ![0] S64.size inb_S64_S64_0
/-- The whole rectangle of operand 8's block. -/
abbrev r2_8 : Rect S64x64 := Rect.unit (s := S64x64) ![0, 0] S64x64.size inb_S64x64_S64x64_0_0
/-- The whole rectangle of operand 9's block. -/
abbrev r2_9 : Rect S64 := Rect.unit (s := S64) ![0] S64.size inb_S64_S64_0
/-- The whole rectangle of operand 10's block. -/
abbrev r2_10 : Rect S10000x64 := Rect.unit (s := S10000x64) ![0, 0] S10000x64.size inb_S10000x64_S10000x64_0_0

/-- What the body leaves in the output's staging buffer, from the input blocks: its one store, of the body's arithmetic
    on the whole-block loads, as the single piece that covers the buffer. -/
def out2_10 (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) : Vec F S10000x64 .f32 :=
  View.canon [⟨r2_10, k2_pay1 (k2_pay2 (View.ld x0 r2_0) (View.ld x1 r2_1) (View.ld x2 r2_2) (View.ld x3 r2_3) (View.ld x6 r2_6) (View.ld x7 r2_7) (View.ld x4 r2_4) (View.ld x5 r2_5) (View.ld x8 r2_8)) (k2_pay3 (View.ld x9 r2_9))⟩]

/-- The one store covers the whole buffer. -/
theorem cover2_10 (p0 : Vec F S10000x64 .f32) (y : S10000x64.Idx) :
    ∃ pc ∈ ([⟨r2_10, p0⟩] : List (View.Piece (Elt F) S10000x64 .f32)), y ∈ pc.1.set :=
  View.cover_of_tiled [⟨r2_10, p0⟩] S10000x64.size (by rfl) y

/-- The launch's record: the arrays as the launch finds them; after the body at point `t` every input's buffer still holds
    its block and the output's buffer holds the body's store; nothing else is kept between points, nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-! ## Launch 3: the classifier -/

/-- Operand `w`'s block at grid point `t`: the operand's array, as the launch finds it, read through the point's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole rectangle of operand 0's block. -/
abbrev r3_0 : Rect S512x192 := Rect.unit (s := S512x192) ![0, 0] S512x192.size inb_S512x192_S512x192_0_0
/-- The whole rectangle of operand 1's block. -/
abbrev r3_1 : Rect S192x192 := Rect.unit (s := S192x192) ![0, 0] S192x192.size inb_S192x192_S192x192_0_0
/-- The whole rectangle of operand 2's block. -/
abbrev r3_2 : Rect S192 := Rect.unit (s := S192) ![0] S192.size inb_S192_S192_0
/-- The whole rectangle of operand 3's block. -/
abbrev r3_3 : Rect S192x2 := Rect.unit (s := S192x2) ![0, 0] S192x2.size inb_S192x2_S192x2_0_0
/-- The whole rectangle of operand 4's block. -/
abbrev r3_4 : Rect S2 := Rect.unit (s := S2) ![0] S2.size inb_S2_S2_0
/-- The whole rectangle of operand 5's block. -/
abbrev r3_5 : Rect S512x2 := Rect.unit (s := S512x2) ![0, 0] S512x2.size inb_S512x2_S512x2_0_0

/-- What the body leaves in the output's staging buffer, from the input blocks: its one store, of the body's arithmetic
    on the whole-block loads, as the single piece that covers the buffer. -/
def out3_5 (x0 : Vec F S512x192 .f32) (x1 : Vec F S192x192 .f32) (x2 : Vec F S192 .f32) (x3 : Vec F S192x2 .f32) (x4 : Vec F S2 .f32) : Vec F S512x2 .f32 :=
  View.canon [⟨r3_5, k3_pay1 (View.ld x0 r3_0) (View.ld x1 r3_1) (View.ld x2 r3_2) (View.ld x3 r3_3) (View.ld x4 r3_4)⟩]

/-- The one store covers the whole buffer. -/
theorem cover3_5 (p0 : Vec F S512x2 .f32) (y : S512x2.Idx) :
    ∃ pc ∈ ([⟨r3_5, p0⟩] : List (View.Piece (Elt F) S512x2 .f32)), y ∈ pc.1.set :=
  View.cover_of_tiled [⟨r3_5, p0⟩] S512x2.size (by rfl) y

/-- The launch's record: the arrays as the launch finds them; after the body at point `t` every input's buffer still holds
    its block and the output's buffer holds the body's store; nothing else is kept between points, nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

end Regions

/-! ## The buffers between the items of the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
/-- The same, read at the core's own references: what launch 0 finds. -/
abbrev V1 : (c : Dev nD) → (b : Ref sig .tc) → Buf (Elt F) ((c : Thread nD τ).loc b) := fun c b => W1 m ρ c b
/-- After launch 0: its arrays hold what its write-backs leave, every other buffer is as it was. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references: what launch 0 leaves. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations before launch 1. -/
abbrev W3 : Dev nD → Valuation τ sig (Elt F) := fun c => StableHlo.after hostOps1 (W2 m ρ c)
/-- The same, read at the core's own references: what launch 1 finds. -/
abbrev V3 : (c : Dev nD) → (b : Ref sig .tc) → Buf (Elt F) ((c : Thread nD τ).loc b) := fun c b => W3 m ρ c b
/-- After launch 1: its arrays hold what its write-backs leave, every other buffer is as it was. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's own references: what launch 1 leaves. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations before launch 2. -/
abbrev W5 : Dev nD → Valuation τ sig (Elt F) := fun c => StableHlo.after hostOps2 (W4 m ρ c)
/-- The same, read at the core's own references: what launch 2 finds. -/
abbrev V5 : (c : Dev nD) → (b : Ref sig .tc) → Buf (Elt F) ((c : Thread nD τ).loc b) := fun c b => W5 m ρ c b
/-- After launch 2: its arrays hold what its write-backs leave, every other buffer is as it was. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the core's own references: what launch 2 leaves. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations before launch 3. -/
abbrev W7 : Dev nD → Valuation τ sig (Elt F) := fun c => StableHlo.after hostOps3 (W6 m ρ c)
/-- The same, read at the core's own references: what launch 3 finds. -/
abbrev V7 : (c : Dev nD) → (b : Ref sig .tc) → Buf (Elt F) ((c : Thread nD τ).loc b) := fun c b => W7 m ρ c b
/-- After launch 3: its arrays hold what its write-backs leave, every other buffer is as it was. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the core's own references: what launch 3 leaves. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.Kernel.Hand

end
-- ==== Proof.K.Keep.lean ====
import proofs.«143938_j66159676227906_1_alg».proof.Proof.Gen.Kernel.Regions
import proofs.«143938_j66159676227906_1_alg».proof.Proof.K.Data

/-!
# What each item of the program leaves unchanged

A stretch of host operations changes only the buffers its operations write. A launch changes only its result's
buffer: an input's array is left as entered, and no other buffer is touched. So a buffer that no host operation
writes and that is no launch's result holds at the end what it held at launch; every argument is such a buffer.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A stretch of host operations -/

/-- The host operations before launch 0 change no buffer they do not write. -/
theorem W1_host (c : Dev nD) (b : Ref sig .tc) (h : b ∉ hostOps0_W) :
    W1 m ρ c (Proc.devRef .tc b) = W0 m ρ c (Proc.devRef .tc b) :=
  StableHlo.after_of_writes_sub hostOps0 _ hostOps0_writes h
/-- The host operations before launch 1 change no buffer they do not write. -/
theorem W3_host (c : Dev nD) (b : Ref sig .tc) (h : b ∉ hostOps1_W) :
    W3 m ρ c (Proc.devRef .tc b) = W2 m ρ c (Proc.devRef .tc b) :=
  StableHlo.after_of_writes_sub hostOps1 _ hostOps1_writes h
/-- The host operations before launch 2 change no buffer they do not write. -/
theorem W5_host (c : Dev nD) (b : Ref sig .tc) (h : b ∉ hostOps2_W) :
    W5 m ρ c (Proc.devRef .tc b) = W4 m ρ c (Proc.devRef .tc b) :=
  StableHlo.after_of_writes_sub hostOps2 _ hostOps2_writes h
/-- The host operations before launch 3 change no buffer they do not write. -/
theorem W7_host (c : Dev nD) (b : Ref sig .tc) (h : b ∉ hostOps3_W) :
    W7 m ρ c (Proc.devRef .tc b) = W6 m ρ c (Proc.devRef .tc b) :=
  StableHlo.after_of_writes_sub hostOps3 _ hostOps3_writes h

/-! ## A launch -/

/-- Every array of launch 0 other than its result is an input's. -/
theorem in_of_ne0 : ∀ w : Fin cfg0.W, Pipeline.arrRef spec0 w ≠ main_v10 → (cfg0.win w).isOut = false := by decide
/-- Launch 0 changes no buffer but its result's: an input's array is left as entered, any other buffer is not touched. -/
theorem W2_keep (c : Dev nD) (b : Ref sig .tc) (hb : b ≠ main_v10) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in_of_ne0 w hb) _).trans (A_eq0 (V1 m ρ) c w))
  · exact W2_of_ne m ρ c b fun w e => h ⟨w, e⟩

/-- Every array of launch 1 other than its result is an input's. -/
theorem in_of_ne1 : ∀ w : Fin cfg1.W, Pipeline.arrRef spec1 w ≠ main_v21 → (cfg1.win w).isOut = false := by decide
/-- Launch 1 changes no buffer but its result's: an input's array is left as entered, any other buffer is not touched. -/
theorem W4_keep (c : Dev nD) (b : Ref sig .tc) (hb : b ≠ main_v21) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in_of_ne1 w hb) _).trans (A_eq1 (V3 m ρ) c w))
  · exact W4_of_ne m ρ c b fun w e => h ⟨w, e⟩

/-- Every array of launch 2 other than its result is an input's. -/
theorem in_of_ne2 : ∀ w : Fin cfg2.W, Pipeline.arrRef spec2 w ≠ main_v32 → (cfg2.win w).isOut = false := by decide
/-- Launch 2 changes no buffer but its result's: an input's array is left as entered, any other buffer is not touched. -/
theorem W6_keep (c : Dev nD) (b : Ref sig .tc) (hb : b ≠ main_v32) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (in_of_ne2 w hb) _).trans (A_eq2 (V5 m ρ) c w))
  · exact W6_of_ne m ρ c b fun w e => h ⟨w, e⟩

/-- Every array of launch 3 other than its result is an input's. -/
theorem in_of_ne3 : ∀ w : Fin cfg3.W, Pipeline.arrRef spec3 w ≠ main_v43 → (cfg3.win w).isOut = false := by decide
/-- Launch 3 changes no buffer but its result's: an input's array is left as entered, any other buffer is not touched. -/
theorem W8_keep (c : Dev nD) (b : Ref sig .tc) (hb : b ≠ main_v43) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (in_of_ne3 w hb) _).trans (A_eq3 (V7 m ρ) c w))
  · exact W8_of_ne m ρ c b fun w e => h ⟨w, e⟩

/-! ## From launch to the end -/

/-- A buffer that no host operation writes and that is no launch's result holds at the end what it held at launch. -/
theorem W8_of_untouched (c : Dev nD) (b : Ref sig .tc)
    (h0 : b ∉ hostOps0_W) (h1 : b ∉ hostOps1_W) (h2 : b ∉ hostOps2_W) (h3 : b ∉ hostOps3_W)
    (o0 : b ≠ main_v10) (o1 : b ≠ main_v21) (o2 : b ≠ main_v32) (o3 : b ≠ main_v43) :
    W8 m ρ c (Proc.devRef .tc b) = m ((c : Thread nD τ).loc b) :=
  calc W8 m ρ c (Proc.devRef .tc b)
    _ = W7 m ρ c (Proc.devRef .tc b) := W8_keep m ρ c b o3
    _ = W6 m ρ c (Proc.devRef .tc b) := W7_host m ρ c b h3
    _ = W5 m ρ c (Proc.devRef .tc b) := W6_keep m ρ c b o2
    _ = W4 m ρ c (Proc.devRef .tc b) := W5_host m ρ c b h2
    _ = W3 m ρ c (Proc.devRef .tc b) := W4_keep m ρ c b o1
    _ = W2 m ρ c (Proc.devRef .tc b) := W3_host m ρ c b h1
    _ = W1 m ρ c (Proc.devRef .tc b) := W2_keep m ρ c b o0
    _ = W0 m ρ c (Proc.devRef .tc b) := W1_host m ρ c b h0
    _ = m ((c : Thread nD τ).loc b) := rfl

/-! ## Every argument ends as launched -/

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_untouched m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_untouched m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_untouched m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_untouched m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_untouched m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_untouched m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_untouched m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_untouched m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of_untouched m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_of_untouched m ρ c main_arg15 (by decide) (by decide) (by decide) (by decide) (by decide) (by decide) (by decide) (by decide)
theorem W8_main_arg16 (c : Dev nD) : W8 m ρ c (Proc.devRef .tc main_arg16) = m ((c : Thread nD τ).loc main_arg16) :=
  W8_of_untouched m ρ c main_arg16 (by decide) (by decide) (by decide) (by decide) (by decide) (by decide) (by decide) (by decide)
theorem W8_main_arg17 (c : Dev nD) : W8 m ρ c (Proc.devRef .tc main_arg17) = m ((c : Thread nD τ).loc main_arg17) :=
  W8_of_untouched m ρ c main_arg17 (by decide) (by decide) (by decide) (by decide) (by decide) (by decide) (by decide) (by decide)
theorem W8_main_arg18 (c : Dev nD) : W8 m ρ c (Proc.devRef .tc main_arg18) = m ((c : Thread nD τ).loc main_arg18) :=
  W8_of_untouched m ρ c main_arg18 (by decide) (by decide) (by decide) (by decide) (by decide) (by decide) (by decide) (by decide)
theorem W8_main_arg19 (c : Dev nD) : W8 m ρ c (Proc.devRef .tc main_arg19) = m ((c : Thread nD τ).loc main_arg19) :=
  W8_of_untouched m ρ c main_arg19 (by decide) (by decide) (by decide) (by decide) (by decide) (by decide) (by decide) (by decide)
theorem W8_main_arg20 (c : Dev nD) : W8 m ρ c (Proc.devRef .tc main_arg20) = m ((c : Thread nD τ).loc main_arg20) :=
  W8_of_untouched m ρ c main_arg20 (by decide) (by decide) (by decide) (by decide) (by decide) (by decide) (by decide) (by decide)
theorem W8_main_arg21 (c : Dev nD) : W8 m ρ c (Proc.devRef .tc main_arg21) = m ((c : Thread nD τ).loc main_arg21) :=
  W8_of_untouched m ρ c main_arg21 (by decide) (by decide) (by decide) (by decide) (by decide) (by decide) (by decide) (by decide)
theorem W8_main_arg22 (c : Dev nD) : W8 m ρ c (Proc.devRef .tc main_arg22) = m ((c : Thread nD τ).loc main_arg22) :=
  W8_of_untouched m ρ c main_arg22 (by decide) (by decide) (by decide) (by decide) (by decide) (by decide) (by decide) (by decide)
theorem W8_main_arg23 (c : Dev nD) : W8 m ρ c (Proc.devRef .tc main_arg23) = m ((c : Thread nD τ).loc main_arg23) :=
  W8_of_untouched m ρ c main_arg23 (by decide) (by decide) (by decide) (by decide) (by decide) (by decide) (by decide) (by decide)
theorem W8_main_arg24 (c : Dev nD) : W8 m ρ c (Proc.devRef .tc main_arg24) = m ((c : Thread nD τ).loc main_arg24) :=
  W8_of_untouched m ρ c main_arg24 (by decide) (by decide) (by decide) (by decide) (by decide) (by decide) (by decide) (by decide)
theorem W8_main_arg25 (c : Dev nD) : W8 m ρ c (Proc.devRef .tc main_arg25) = m ((c : Thread nD τ).loc main_arg25) :=
  W8_of_untouched m ρ c main_arg25 (by decide) (by decide) (by decide) (by decide) (by decide) (by decide) (by decide) (by decide)
theorem W8_main_arg26 (c : Dev nD) : W8 m ρ c (Proc.devRef .tc main_arg26) = m ((c : Thread nD τ).loc main_arg26) :=
  W8_of_untouched m ρ c main_arg26 (by decide) (by decide) (by decide) (by decide) (by decide) (by decide) (by decide) (by decide)
theorem W8_main_arg27 (c : Dev nD) : W8 m ρ c (Proc.devRef .tc main_arg27) = m ((c : Thread nD τ).loc main_arg27) :=
  W8_of_untouched m ρ c main_arg27 (by decide) (by decide) (by decide) (by decide) (by decide) (by decide) (by decide) (by decide)
theorem W8_main_arg28 (c : Dev nD) : W8 m ρ c (Proc.devRef .tc main_arg28) = m ((c : Thread nD τ).loc main_arg28) :=
  W8_of_untouched m ρ c main_arg28 (by decide) (by decide) (by decide) (by decide) (by decide) (by decide) (by decide) (by decide)
theorem W8_main_arg29 (c : Dev nD) : W8 m ρ c (Proc.devRef .tc main_arg29) = m ((c : Thread nD τ).loc main_arg29) :=
  W8_of_untouched m ρ c main_arg29 (by decide) (by decide) (by decide) (by decide) (by decide) (by decide) (by decide) (by decide)
theorem W8_main_arg30 (c : Dev nD) : W8 m ρ c (Proc.devRef .tc main_arg30) = m ((c : Thread nD τ).loc main_arg30) :=
  W8_of_untouched m ρ c main_arg30 (by decide) (by decide) (by decide) (by decide) (by decide) (by decide) (by decide) (by decide)
theorem W8_main_arg31 (c : Dev nD) : W8 m ρ c (Proc.devRef .tc main_arg31) = m ((c : Thread nD τ).loc main_arg31) :=
  W8_of_untouched m ρ c main_arg31 (by decide) (by decide) (by decide) (by decide) (by decide) (by decide) (by decide) (by decide)

end Cert.Kernel.Hand

end
-- ==== Proof.K.Region0.lean ====
import proofs.«143938_j66159676227906_1_alg».proof.Proof.K.Data

/-!
# Launch 0: the body's effect on its staging buffers, and the body obligation

The body of launch 0 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body `cc0__mlp_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x9` and the output's anything; it ends with the inputs'
    unchanged and the output's at `out0_10` of the inputs. -/
theorem sound_kernel0 (c : Dev nD) (E : Set ℕ) (i : grid0.Coords)
    (a0 : Memref sig .tc .vmem S10000x13 .f32) (h0 : a0.IsWhole)
    (a1 : Memref sig .tc .vmem S10000x13 .f32) (h1 : a1.IsWhole)
    (a2 : Memref sig .tc .vmem S13x64 .f32) (h2 : a2.IsWhole)
    (a3 : Memref sig .tc .vmem S64 .f32) (h3 : a3.IsWhole)
    (a4 : Memref sig .tc .vmem S64 .f32) (h4 : a4.IsWhole)
    (a5 : Memref sig .tc .vmem S64 .f32) (h5 : a5.IsWhole)
    (a6 : Memref sig .tc .vmem S64 .f32) (h6 : a6.IsWhole)
    (a7 : Memref sig .tc .vmem S64 .f32) (h7 : a7.IsWhole)
    (a8 : Memref sig .tc .vmem S64x64 .f32) (h8 : a8.IsWhole)
    (a9 : Memref sig .tc .vmem S64 .f32) (h9 : a9.IsWhole)
    (a10 : Memref sig .tc .vmem S10000x64 .f32) (h10 : a10.IsWhole)
    (x0 : Vec F S10000x13 .f32) (x1 : Vec F S10000x13 .f32) (x2 : Vec F S13x64 .f32) (x3 : Vec F S64 .f32) (x4 : Vec F S64 .f32) (x5 : Vec F S64 .f32) (x6 : Vec F S64 .f32) (x7 : Vec F S64 .f32) (x8 : Vec F S64x64 .f32) (x9 : Vec F S64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5 x6 x7 x8 x9)) -∗ K ⟨⟩))
      ⊢ wp frame (wpE (defs₀ (F := F)) Variants.none c none) E (cc0__mlp_kernel i a0 h0 a1 h1 a2 h2 a3 h3 a4 h4 a5 h5 a6 h6 a7 h7 a8 h8 a9 h9 a10 h10) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation at a generic point -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region1.lean ====
import proofs.«143938_j66159676227906_1_alg».proof.Proof.K.Data

/-!
# Launch 1: the body's effect on its staging buffers, and the body obligation

The body of launch 1 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the body `cc1__mlp_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x9` and the output's anything; it ends with the inputs'
    unchanged and the output's at `out1_10` of the inputs. -/
theorem sound_kernel1 (c : Dev nD) (E : Set ℕ) (i : grid1.Coords)
    (a0 : Memref sig .tc .vmem S10000x64 .f32) (h0 : a0.IsWhole)
    (a1 : Memref sig .tc .vmem S10000x64 .f32) (h1 : a1.IsWhole)
    (a2 : Memref sig .tc .vmem S64x64 .f32) (h2 : a2.IsWhole)
    (a3 : Memref sig .tc .vmem S64 .f32) (h3 : a3.IsWhole)
    (a4 : Memref sig .tc .vmem S64 .f32) (h4 : a4.IsWhole)
    (a5 : Memref sig .tc .vmem S64 .f32) (h5 : a5.IsWhole)
    (a6 : Memref sig .tc .vmem S64 .f32) (h6 : a6.IsWhole)
    (a7 : Memref sig .tc .vmem S64 .f32) (h7 : a7.IsWhole)
    (a8 : Memref sig .tc .vmem S64x64 .f32) (h8 : a8.IsWhole)
    (a9 : Memref sig .tc .vmem S64 .f32) (h9 : a9.IsWhole)
    (a10 : Memref sig .tc .vmem S10000x64 .f32) (h10 : a10.IsWhole)
    (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out1_10 x0 x1 x2 x3 x4 x5 x6 x7 x8 x9)) -∗ K ⟨⟩))
      ⊢ wp frame (wpE (defs₀ (F := F)) Variants.none c none) E (cc1__mlp_kernel i a0 h0 a1 h1 a2 h2 a3 h3 a4 h4 a5 h5 a6 h6 a7 h7 a8 h8 a9 h9 a10 h10) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation at a generic point -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Region2.lean ====
import proofs.«143938_j66159676227906_1_alg».proof.Proof.K.Data

/-!
# Launch 2: the body's effect on its staging buffers, and the body obligation

The body of launch 2 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body `cc2__mlp_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x9` and the output's anything; it ends with the inputs'
    unchanged and the output's at `out2_10` of the inputs. -/
theorem sound_kernel2 (c : Dev nD) (E : Set ℕ) (i : grid2.Coords)
    (a0 : Memref sig .tc .vmem S10000x64 .f32) (h0 : a0.IsWhole)
    (a1 : Memref sig .tc .vmem S10000x64 .f32) (h1 : a1.IsWhole)
    (a2 : Memref sig .tc .vmem S64x64 .f32) (h2 : a2.IsWhole)
    (a3 : Memref sig .tc .vmem S64 .f32) (h3 : a3.IsWhole)
    (a4 : Memref sig .tc .vmem S64 .f32) (h4 : a4.IsWhole)
    (a5 : Memref sig .tc .vmem S64 .f32) (h5 : a5.IsWhole)
    (a6 : Memref sig .tc .vmem S64 .f32) (h6 : a6.IsWhole)
    (a7 : Memref sig .tc .vmem S64 .f32) (h7 : a7.IsWhole)
    (a8 : Memref sig .tc .vmem S64x64 .f32) (h8 : a8.IsWhole)
    (a9 : Memref sig .tc .vmem S64 .f32) (h9 : a9.IsWhole)
    (a10 : Memref sig .tc .vmem S10000x64 .f32) (h10 : a10.IsWhole)
    (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out2_10 x0 x1 x2 x3 x4 x5 x6 x7 x8 x9)) -∗ K ⟨⟩))
      ⊢ wp frame (wpE (defs₀ (F := F)) Variants.none c none) E (cc2__mlp_kernel i a0 h0 a1 h1 a2 h2 a3 h3 a4 h4 a5 h5 a6 h6 a7 h7 a8 h8 a9 h9 a10 h10) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation at a generic point -/

/-- What the body is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.Region3.lean ====
import proofs.«143938_j66159676227906_1_alg».proof.Proof.K.Data

/-!
# Launch 3: the body's effect on its staging buffers, and the body obligation

The body of launch 3 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the body `cc3__classifier_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x4` and the output's anything; it ends with the inputs'
    unchanged and the output's at `out3_5` of the inputs. -/
theorem sound_kernel3 (c : Dev nD) (E : Set ℕ) (i : grid3.Coords)
    (a0 : Memref sig .tc .vmem S512x192 .f32) (h0 : a0.IsWhole)
    (a1 : Memref sig .tc .vmem S192x192 .f32) (h1 : a1.IsWhole)
    (a2 : Memref sig .tc .vmem S192 .f32) (h2 : a2.IsWhole)
    (a3 : Memref sig .tc .vmem S192x2 .f32) (h3 : a3.IsWhole)
    (a4 : Memref sig .tc .vmem S2 .f32) (h4 : a4.IsWhole)
    (a5 : Memref sig .tc .vmem S512x2 .f32) (h5 : a5.IsWhole)
    (x0 : Vec F S512x192 .f32) (x1 : Vec F S192x192 .f32) (x2 : Vec F S192 .f32) (x3 : Vec F S192x2 .f32) (x4 : Vec F S2 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3_5 x0 x1 x2 x3 x4)) -∗ K ⟨⟩))
      ⊢ wp frame (wpE (defs₀ (F := F)) Variants.none c none) E (cc3__classifier_kernel i a0 h0 a1 h1 a2 h2 a3 h3 a4 h4 a5 h5) K := by
  simp only [cc3__classifier_kernel_eq_skeleton]; unfold cc3__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is called with at point `t`, window by window. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in
/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.K.Run.lean ====
import proofs.«143938_j66159676227906_1_alg».proof.Proof.K.Keep
import proofs.«143938_j66159676227906_1_alg».proof.Proof.K.Region0
import proofs.«143938_j66159676227906_1_alg».proof.Proof.K.Region1
import proofs.«143938_j66159676227906_1_alg».proof.Proof.K.Region2
import proofs.«143938_j66159676227906_1_alg».proof.Proof.K.Region3

/-!
# The run of the whole program

The program is four launches, each after a stretch of host operations. This module follows the device's buffers
through all eight items: a host stretch takes every unscoped buffer from one valuation to the next, a launch takes
them from its entry valuation to the one in which its arrays hold what its write-backs leave. At the end every
unscoped buffer is read at the last valuation `W8`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launches' records, and what rides beside the buffers -/

/-- Every launch's record, each at its own entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last state without what is owed: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 as a segment: entered with every unscoped buffer at `W1`, left with them at `W2`. Its arrays are
    split out of the unscoped buffers on entry and put back at the exit contents; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `W3`, left with them at `W4`. Its arrays are
    split out of the unscoped buffers on entry and put back at the exit contents; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `W5`, left with them at `W6`. Its arrays are
    split out of the unscoped buffers on entry and put back at the exit contents; the generator register goes into the
    launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered with every unscoped buffer at `W7`, left with them at `W8`. Its arrays are
    split out of the unscoped buffers on entry and put back at the exit contents; the generator register goes into the
    launch's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its eight items, and the run -/

abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program is the run of its items. -/
theorem main_run (c : Dev nD) : main (F := F) c = Pipeline.Seg.run (items m ρ) :=
  main_segs adm (pdats m ρ) () 𝒱₀ L lv _ _ _ _ _ _ _ _ rfl rfl rfl rfl c

set_option backward.isDefEq.respectTransparency.types false in
/-- From any memory with zero counters, every weakly fair run of the program on the cores terminates without a fault,
    and in every final state each core's unscoped buffers hold the last valuation `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- An unscoped reference of the core is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KI.Data.lean ====
import proofs.«143938_j66159676227906_1_alg».proof.Proof.Gen.KernelIdeal.Launch
import proofs.«143938_j66159676227906_1_alg».proof.Proof.Gen.KernelIdeal.Skeleton
import proofs.«143938_j66159676227906_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# What each of the four kernel launches holds, block by block

For each launch: the block of every operand that a grid point sees (the operand's array, as the launch finds it, read
through the point's rectangle); what the body leaves in the output's staging buffer at that point as a function of the
input blocks (its one whole-block store, over the whole-block loads); and the record of these facts the launch
theorems take. Then the contents of the device's buffers between the items of the program: after each stretch of
host operations, and after each launch, where the launch's arrays hold what its write-backs leave and every other
buffer is as it was.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

/- The device's buffer contents when a launch is entered: every launch's facts are stated at this parameter. -/
variable (V : (c : Dev nD) → (b : Ref sig .tc) → Buf (Elt F) ((c : Thread nD τ).loc b))

/-! ## Launch 0: the first layer -/

/-- Operand `w`'s block at grid point `t`: the operand's array, as the launch finds it, read through the point's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangle of operand 0's block. -/
abbrev r0_0 : Rect S10000x13 := Rect.unit (s := S10000x13) ![0, 0] S10000x13.size inb_S10000x13_S10000x13_0_0
/-- The whole rectangle of operand 1's block. -/
abbrev r0_1 : Rect S10000x13 := Rect.unit (s := S10000x13) ![0, 0] S10000x13.size inb_S10000x13_S10000x13_0_0
/-- The whole rectangle of operand 2's block. -/
abbrev r0_2 : Rect S13x64 := Rect.unit (s := S13x64) ![0, 0] S13x64.size inb_S13x64_S13x64_0_0
/-- The whole rectangle of operand 3's block. -/
abbrev r0_3 : Rect S64 := Rect.unit (s := S64) ![0] S64.size inb_S64_S64_0
/-- The whole rectangle of operand 4's block. -/
abbrev r0_4 : Rect S64 := Rect.unit (s := S64) ![0] S64.size inb_S64_S64_0
/-- The whole rectangle of operand 5's block. -/
abbrev r0_5 : Rect S64 := Rect.unit (s := S64) ![0] S64.size inb_S64_S64_0
/-- The whole rectangle of operand 6's block. -/
abbrev r0_6 : Rect S64 := Rect.unit (s := S64) ![0] S64.size inb_S64_S64_0
/-- The whole rectangle of operand 7's block. -/
abbrev r0_7 : Rect S64 := Rect.unit (s := S64) ![0] S64.size inb_S64_S64_0
/-- The whole rectangle of operand 8's block. -/
abbrev r0_8 : Rect S64x64 := Rect.unit (s := S64x64) ![0, 0] S64x64.size inb_S64x64_S64x64_0_0
/-- The whole rectangle of operand 9's block. -/
abbrev r0_9 : Rect S64 := Rect.unit (s := S64) ![0] S64.size inb_S64_S64_0
/-- The whole rectangle of operand 10's block. -/
abbrev r0_10 : Rect S10000x64 := Rect.unit (s := S10000x64) ![0, 0] S10000x64.size inb_S10000x64_S10000x64_0_0

/-- What the body leaves in the output's staging buffer, from the input blocks: its one store, of the body's arithmetic
    on the whole-block loads, as the single piece that covers the buffer. -/
def out0_10 (x0 : Vec F S10000x13 .f32) (x1 : Vec F S10000x13 .f32) (x2 : Vec F S13x64 .f32) (x3 : Vec F S64 .f32) (x4 : Vec F S64 .f32) (x5 : Vec F S64 .f32) (x6 : Vec F S64 .f32) (x7 : Vec F S64 .f32) (x8 : Vec F S64x64 .f32) (x9 : Vec F S64 .f32) : Vec F S10000x64 .f32 :=
  View.canon [⟨r0_10, k0_pay1 (k0_pay2 (View.ld x0 r0_0) (View.ld x1 r0_1) (View.ld x2 r0_2) (View.ld x3 r0_3) (View.ld x6 r0_6) (View.ld x7 r0_7) (View.ld x4 r0_4) (View.ld x5 r0_5) (View.ld x8 r0_8) (View.ld x9 r0_9))⟩]

/-- The one store covers the whole buffer. -/
theorem cover0_10 (p0 : Vec F S10000x64 .f32) (y : S10000x64.Idx) :
    ∃ pc ∈ ([⟨r0_10, p0⟩] : List (View.Piece (Elt F) S10000x64 .f32)), y ∈ pc.1.set :=
  View.cover_of_tiled [⟨r0_10, p0⟩] S10000x64.size (by rfl) y

/-- The launch's record: the arrays as the launch finds them; after the body at point `t` every input's buffer still holds
    its block and the output's buffer holds the body's store; nothing else is kept between points, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-! ## Launch 1: the second layer -/

/-- Operand `w`'s block at grid point `t`: the operand's array, as the launch finds it, read through the point's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole rectangle of operand 0's block. -/
abbrev r1_0 : Rect S10000x64 := Rect.unit (s := S10000x64) ![0, 0] S10000x64.size inb_S10000x64_S10000x64_0_0
/-- The whole rectangle of operand 1's block. -/
abbrev r1_1 : Rect S10000x64 := Rect.unit (s := S10000x64) ![0, 0] S10000x64.size inb_S10000x64_S10000x64_0_0
/-- The whole rectangle of operand 2's block. -/
abbrev r1_2 : Rect S64x64 := Rect.unit (s := S64x64) ![0, 0] S64x64.size inb_S64x64_S64x64_0_0
/-- The whole rectangle of operand 3's block. -/
abbrev r1_3 : Rect S64 := Rect.unit (s := S64) ![0] S64.size inb_S64_S64_0
/-- The whole rectangle of operand 4's block. -/
abbrev r1_4 : Rect S64 := Rect.unit (s := S64) ![0] S64.size inb_S64_S64_0
/-- The whole rectangle of operand 5's block. -/
abbrev r1_5 : Rect S64 := Rect.unit (s := S64) ![0] S64.size inb_S64_S64_0
/-- The whole rectangle of operand 6's block. -/
abbrev r1_6 : Rect S64 := Rect.unit (s := S64) ![0] S64.size inb_S64_S64_0
/-- The whole rectangle of operand 7's block. -/
abbrev r1_7 : Rect S64 := Rect.unit (s := S64) ![0] S64.size inb_S64_S64_0
/-- The whole rectangle of operand 8's block. -/
abbrev r1_8 : Rect S64x64 := Rect.unit (s := S64x64) ![0, 0] S64x64.size inb_S64x64_S64x64_0_0
/-- The whole rectangle of operand 9's block. -/
abbrev r1_9 : Rect S64 := Rect.unit (s := S64) ![0] S64.size inb_S64_S64_0
/-- The whole rectangle of operand 10's block. -/
abbrev r1_10 : Rect S10000x64 := Rect.unit (s := S10000x64) ![0, 0] S10000x64.size inb_S10000x64_S10000x64_0_0

/-- What the body leaves in the output's staging buffer, from the input blocks: its one store, of the body's arithmetic
    on the whole-block loads, as the single piece that covers the buffer. -/
def out1_10 (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) : Vec F S10000x64 .f32 :=
  View.canon [⟨r1_10, k1_pay1 (k1_pay2 (View.ld x0 r1_0) (View.ld x1 r1_1) (View.ld x2 r1_2) (View.ld x3 r1_3) (View.ld x6 r1_6) (View.ld x7 r1_7) (View.ld x4 r1_4) (View.ld x5 r1_5) (View.ld x8 r1_8)) (k1_pay3 (View.ld x9 r1_9))⟩]

/-- The one store covers the whole buffer. -/
theorem cover1_10 (p0 : Vec F S10000x64 .f32) (y : S10000x64.Idx) :
    ∃ pc ∈ ([⟨r1_10, p0⟩] : List (View.Piece (Elt F) S10000x64 .f32)), y ∈ pc.1.set :=
  View.cover_of_tiled [⟨r1_10, p0⟩] S10000x64.size (by rfl) y

/-- The launch's record: the arrays as the launch finds them; after the body at point `t` every input's buffer still holds
    its block and the output's buffer holds the body's store; nothing else is kept between points, nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! ## Launch 2: the third layer -/

/-- Operand `w`'s block at grid point `t`: the operand's array, as the launch finds it, read through the point's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole rectangle of operand 0's block. -/
abbrev r2_0 : Rect S10000x64 := Rect.unit (s := S10000x64) ![0, 0] S10000x64.size inb_S10000x64_S10000x64_0_0
/-- The whole rectangle of operand 1's block. -/
abbrev r2_1 : Rect S10000x64 := Rect.unit (s := S10000x64) ![0, 0] S10000x64.size inb_S10000x64_S10000x64_0_0
/-- The whole rectangle of operand 2's block. -/
abbrev r2_2 : Rect S64x64 := Rect.unit (s := S64x64) ![0, 0] S64x64.size inb_S64x64_S64x64_0_0
/-- The whole rectangle of operand 3's block. -/
abbrev r2_3 : Rect S64 := Rect.unit (s := S64) ![0] S64.size inb_S64_S64_0
/-- The whole rectangle of operand 4's block. -/
abbrev r2_4 : Rect S64 := Rect.unit (s := S64) ![0] S64.size inb_S64_S64_0
/-- The whole rectangle of operand 5's block. -/
abbrev r2_5 : Rect S64 := Rect.unit (s := S64) ![0] S64.size inb_S64_S64_0
/-- The whole rectangle of operand 6's block. -/
abbrev r2_6 : Rect S64 := Rect.unit (s := S64) ![0] S64.size inb_S64_S64_0
/-- The whole rectangle of operand 7's block. -/
abbrev r2_7 : Rect S64 := Rect.unit (s := S64) ![0] S64.size inb_S64_S64_0
/-- The whole rectangle of operand 8's block. -/
abbrev r2_8 : Rect S64x64 := Rect.unit (s := S64x64) ![0, 0] S64x64.size inb_S64x64_S64x64_0_0
/-- The whole rectangle of operand 9's block. -/
abbrev r2_9 : Rect S64 := Rect.unit (s := S64) ![0] S64.size inb_S64_S64_0
/-- The whole rectangle of operand 10's block. -/
abbrev r2_10 : Rect S10000x64 := Rect.unit (s := S10000x64) ![0, 0] S10000x64.size inb_S10000x64_S10000x64_0_0

/-- What the body leaves in the output's staging buffer, from the input blocks: its one store, of the body's arithmetic
    on the whole-block loads, as the single piece that covers the buffer. -/
def out2_10 (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) : Vec F S10000x64 .f32 :=
  View.canon [⟨r2_10, k2_pay1 (k2_pay2 (View.ld x0 r2_0) (View.ld x1 r2_1) (View.ld x2 r2_2) (View.ld x3 r2_3) (View.ld x6 r2_6) (View.ld x7 r2_7) (View.ld x4 r2_4) (View.ld x5 r2_5) (View.ld x8 r2_8)) (k2_pay3 (View.ld x9 r2_9))⟩]

/-- The one store covers the whole buffer. -/
theorem cover2_10 (p0 : Vec F S10000x64 .f32) (y : S10000x64.Idx) :
    ∃ pc ∈ ([⟨r2_10, p0⟩] : List (View.Piece (Elt F) S10000x64 .f32)), y ∈ pc.1.set :=
  View.cover_of_tiled [⟨r2_10, p0⟩] S10000x64.size (by rfl) y

/-- The launch's record: the arrays as the launch finds them; after the body at point `t` every input's buffer still holds
    its block and the output's buffer holds the body's store; nothing else is kept between points, nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-! ## Launch 3: the classifier -/

/-- Operand `w`'s block at grid point `t`: the operand's array, as the launch finds it, read through the point's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole rectangle of operand 0's block. -/
abbrev r3_0 : Rect S512x192 := Rect.unit (s := S512x192) ![0, 0] S512x192.size inb_S512x192_S512x192_0_0
/-- The whole rectangle of operand 1's block. -/
abbrev r3_1 : Rect S192x192 := Rect.unit (s := S192x192) ![0, 0] S192x192.size inb_S192x192_S192x192_0_0
/-- The whole rectangle of operand 2's block. -/
abbrev r3_2 : Rect S192 := Rect.unit (s := S192) ![0] S192.size inb_S192_S192_0
/-- The whole rectangle of operand 3's block. -/
abbrev r3_3 : Rect S192x2 := Rect.unit (s := S192x2) ![0, 0] S192x2.size inb_S192x2_S192x2_0_0
/-- The whole rectangle of operand 4's block. -/
abbrev r3_4 : Rect S2 := Rect.unit (s := S2) ![0] S2.size inb_S2_S2_0
/-- The whole rectangle of operand 5's block. -/
abbrev r3_5 : Rect S512x2 := Rect.unit (s := S512x2) ![0, 0] S512x2.size inb_S512x2_S512x2_0_0

/-- What the body leaves in the output's staging buffer, from the input blocks: its one store, of the body's arithmetic
    on the whole-block loads, as the single piece that covers the buffer. -/
def out3_5 (x0 : Vec F S512x192 .f32) (x1 : Vec F S192x192 .f32) (x2 : Vec F S192 .f32) (x3 : Vec F S192x2 .f32) (x4 : Vec F S2 .f32) : Vec F S512x2 .f32 :=
  View.canon [⟨r3_5, k3_pay1 (View.ld x0 r3_0) (View.ld x1 r3_1) (View.ld x2 r3_2) (View.ld x3 r3_3) (View.ld x4 r3_4)⟩]

/-- The one store covers the whole buffer. -/
theorem cover3_5 (p0 : Vec F S512x2 .f32) (y : S512x2.Idx) :
    ∃ pc ∈ ([⟨r3_5, p0⟩] : List (View.Piece (Elt F) S512x2 .f32)), y ∈ pc.1.set :=
  View.cover_of_tiled [⟨r3_5, p0⟩] S512x2.size (by rfl) y

/-- The launch's record: the arrays as the launch finds them; after the body at point `t` every input's buffer still holds
    its block and the output's buffer holds the body's store; nothing else is kept between points, nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

end Regions

/-! ## The buffers between the items of the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
/-- The same, read at the core's own references: what launch 0 finds. -/
abbrev V1 : (c : Dev nD) → (b : Ref sig .tc) → Buf (Elt F) ((c : Thread nD τ).loc b) := fun c b => W1 m ρ c b
/-- After launch 0: its arrays hold what its write-backs leave, every other buffer is as it was. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references: what launch 0 leaves. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations before launch 1. -/
abbrev W3 : Dev nD → Valuation τ sig (Elt F) := fun c => StableHlo.after hostOps1 (W2 m ρ c)
/-- The same, read at the core's own references: what launch 1 finds. -/
abbrev V3 : (c : Dev nD) → (b : Ref sig .tc) → Buf (Elt F) ((c : Thread nD τ).loc b) := fun c b => W3 m ρ c b
/-- After launch 1: its arrays hold what its write-backs leave, every other buffer is as it was. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's own references: what launch 1 leaves. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations before launch 2. -/
abbrev W5 : Dev nD → Valuation τ sig (Elt F) := fun c => StableHlo.after hostOps2 (W4 m ρ c)
/-- The same, read at the core's own references: what launch 2 finds. -/
abbrev V5 : (c : Dev nD) → (b : Ref sig .tc) → Buf (Elt F) ((c : Thread nD τ).loc b) := fun c b => W5 m ρ c b
/-- After launch 2: its arrays hold what its write-backs leave, every other buffer is as it was. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the core's own references: what launch 2 leaves. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations before launch 3. -/
abbrev W7 : Dev nD → Valuation τ sig (Elt F) := fun c => StableHlo.after hostOps3 (W6 m ρ c)
/-- The same, read at the core's own references: what launch 3 finds. -/
abbrev V7 : (c : Dev nD) → (b : Ref sig .tc) → Buf (Elt F) ((c : Thread nD τ).loc b) := fun c b => W7 m ρ c b
/-- After launch 3: its arrays hold what its write-backs leave, every other buffer is as it was. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the core's own references: what launch 3 leaves. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.KernelIdeal.Hand

end
-- ==== Proof.KI.Keep.lean ====
import proofs.«143938_j66159676227906_1_alg».proof.Proof.Gen.KernelIdeal.Regions
import proofs.«143938_j66159676227906_1_alg».proof.Proof.KI.Data

/-!
# What each item of the program leaves unchanged

A stretch of host operations changes only the buffers its operations write. A launch changes only its result's
buffer: an input's array is left as entered, and no other buffer is touched. So a buffer that no host operation
writes and that is no launch's result holds at the end what it held at launch; every argument is such a buffer.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A stretch of host operations -/

/-- The host operations before launch 0 change no buffer they do not write. -/
theorem W1_host (c : Dev nD) (b : Ref sig .tc) (h : b ∉ hostOps0_W) :
    W1 m ρ c (Proc.devRef .tc b) = W0 m ρ c (Proc.devRef .tc b) :=
  StableHlo.after_of_writes_sub hostOps0 _ hostOps0_writes h
/-- The host operations before launch 1 change no buffer they do not write. -/
theorem W3_host (c : Dev nD) (b : Ref sig .tc) (h : b ∉ hostOps1_W) :
    W3 m ρ c (Proc.devRef .tc b) = W2 m ρ c (Proc.devRef .tc b) :=
  StableHlo.after_of_writes_sub hostOps1 _ hostOps1_writes h
/-- The host operations before launch 2 change no buffer they do not write. -/
theorem W5_host (c : Dev nD) (b : Ref sig .tc) (h : b ∉ hostOps2_W) :
    W5 m ρ c (Proc.devRef .tc b) = W4 m ρ c (Proc.devRef .tc b) :=
  StableHlo.after_of_writes_sub hostOps2 _ hostOps2_writes h
/-- The host operations before launch 3 change no buffer they do not write. -/
theorem W7_host (c : Dev nD) (b : Ref sig .tc) (h : b ∉ hostOps3_W) :
    W7 m ρ c (Proc.devRef .tc b) = W6 m ρ c (Proc.devRef .tc b) :=
  StableHlo.after_of_writes_sub hostOps3 _ hostOps3_writes h

/-! ## A launch -/

/-- Every array of launch 0 other than its result is an input's. -/
theorem in_of_ne0 : ∀ w : Fin cfg0.W, Pipeline.arrRef spec0 w ≠ main_v10 → (cfg0.win w).isOut = false := by decide
/-- Launch 0 changes no buffer but its result's: an input's array is left as entered, any other buffer is not touched. -/
theorem W2_keep (c : Dev nD) (b : Ref sig .tc) (hb : b ≠ main_v10) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in_of_ne0 w hb) _).trans (A_eq0 (V1 m ρ) c w))
  · exact W2_of_ne m ρ c b fun w e => h ⟨w, e⟩

/-- Every array of launch 1 other than its result is an input's. -/
theorem in_of_ne1 : ∀ w : Fin cfg1.W, Pipeline.arrRef spec1 w ≠ main_v21 → (cfg1.win w).isOut = false := by decide
/-- Launch 1 changes no buffer but its result's: an input's array is left as entered, any other buffer is not touched. -/
theorem W4_keep (c : Dev nD) (b : Ref sig .tc) (hb : b ≠ main_v21) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in_of_ne1 w hb) _).trans (A_eq1 (V3 m ρ) c w))
  · exact W4_of_ne m ρ c b fun w e => h ⟨w, e⟩

/-- Every array of launch 2 other than its result is an input's. -/
theorem in_of_ne2 : ∀ w : Fin cfg2.W, Pipeline.arrRef spec2 w ≠ main_v32 → (cfg2.win w).isOut = false := by decide
/-- Launch 2 changes no buffer but its result's: an input's array is left as entered, any other buffer is not touched. -/
theorem W6_keep (c : Dev nD) (b : Ref sig .tc) (hb : b ≠ main_v32) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (in_of_ne2 w hb) _).trans (A_eq2 (V5 m ρ) c w))
  · exact W6_of_ne m ρ c b fun w e => h ⟨w, e⟩

/-- Every array of launch 3 other than its result is an input's. -/
theorem in_of_ne3 : ∀ w : Fin cfg3.W, Pipeline.arrRef spec3 w ≠ main_v43 → (cfg3.win w).isOut = false := by decide
/-- Launch 3 changes no buffer but its result's: an input's array is left as entered, any other buffer is not touched. -/
theorem W8_keep (c : Dev nD) (b : Ref sig .tc) (hb : b ≠ main_v43) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (in_of_ne3 w hb) _).trans (A_eq3 (V7 m ρ) c w))
  · exact W8_of_ne m ρ c b fun w e => h ⟨w, e⟩

/-! ## From launch to the end -/

/-- A buffer that no host operation writes and that is no launch's result holds at the end what it held at launch. -/
theorem W8_of_untouched (c : Dev nD) (b : Ref sig .tc)
    (h0 : b ∉ hostOps0_W) (h1 : b ∉ hostOps1_W) (h2 : b ∉ hostOps2_W) (h3 : b ∉ hostOps3_W)
    (o0 : b ≠ main_v10) (o1 : b ≠ main_v21) (o2 : b ≠ main_v32) (o3 : b ≠ main_v43) :
    W8 m ρ c (Proc.devRef .tc b) = m ((c : Thread nD τ).loc b) :=
  calc W8 m ρ c (Proc.devRef .tc b)
    _ = W7 m ρ c (Proc.devRef .tc b) := W8_keep m ρ c b o3
    _ = W6 m ρ c (Proc.devRef .tc b) := W7_host m ρ c b h3
    _ = W5 m ρ c (Proc.devRef .tc b) := W6_keep m ρ c b o2
    _ = W4 m ρ c (Proc.devRef .tc b) := W5_host m ρ c b h2
    _ = W3 m ρ c (Proc.devRef .tc b) := W4_keep m ρ c b o1
    _ = W2 m ρ c (Proc.devRef .tc b) := W3_host m ρ c b h1
    _ = W1 m ρ c (Proc.devRef .tc b) := W2_keep m ρ c b o0
    _ = W0 m ρ c (Proc.devRef .tc b) := W1_host m ρ c b h0
    _ = m ((c : Thread nD τ).loc b) := rfl

/-! ## Every argument ends as launched -/

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_untouched m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_untouched m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_untouched m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_untouched m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_untouched m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_untouched m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_untouched m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_untouched m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of_untouched m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_of_untouched m ρ c main_arg15 (by decide) (by decide) (by decide) (by decide) (by decide) (by decide) (by decide) (by decide)
theorem W8_main_arg16 (c : Dev nD) : W8 m ρ c (Proc.devRef .tc main_arg16) = m ((c : Thread nD τ).loc main_arg16) :=
  W8_of_untouched m ρ c main_arg16 (by decide) (by decide) (by decide) (by decide) (by decide) (by decide) (by decide) (by decide)
theorem W8_main_arg17 (c : Dev nD) : W8 m ρ c (Proc.devRef .tc main_arg17) = m ((c : Thread nD τ).loc main_arg17) :=
  W8_of_untouched m ρ c main_arg17 (by decide) (by decide) (by decide) (by decide) (by decide) (by decide) (by decide) (by decide)
theorem W8_main_arg18 (c : Dev nD) : W8 m ρ c (Proc.devRef .tc main_arg18) = m ((c : Thread nD τ).loc main_arg18) :=
  W8_of_untouched m ρ c main_arg18 (by decide) (by decide) (by decide) (by decide) (by decide) (by decide) (by decide) (by decide)
theorem W8_main_arg19 (c : Dev nD) : W8 m ρ c (Proc.devRef .tc main_arg19) = m ((c : Thread nD τ).loc main_arg19) :=
  W8_of_untouched m ρ c main_arg19 (by decide) (by decide) (by decide) (by decide) (by decide) (by decide) (by decide) (by decide)
theorem W8_main_arg20 (c : Dev nD) : W8 m ρ c (Proc.devRef .tc main_arg20) = m ((c : Thread nD τ).loc main_arg20) :=
  W8_of_untouched m ρ c main_arg20 (by decide) (by decide) (by decide) (by decide) (by decide) (by decide) (by decide) (by decide)
theorem W8_main_arg21 (c : Dev nD) : W8 m ρ c (Proc.devRef .tc main_arg21) = m ((c : Thread nD τ).loc main_arg21) :=
  W8_of_untouched m ρ c main_arg21 (by decide) (by decide) (by decide) (by decide) (by decide) (by decide) (by decide) (by decide)
theorem W8_main_arg22 (c : Dev nD) : W8 m ρ c (Proc.devRef .tc main_arg22) = m ((c : Thread nD τ).loc main_arg22) :=
  W8_of_untouched m ρ c main_arg22 (by decide) (by decide) (by decide) (by decide) (by decide) (by decide) (by decide) (by decide)
theorem W8_main_arg23 (c : Dev nD) : W8 m ρ c (Proc.devRef .tc main_arg23) = m ((c : Thread nD τ).loc main_arg23) :=
  W8_of_untouched m ρ c main_arg23 (by decide) (by decide) (by decide) (by decide) (by decide) (by decide) (by decide) (by decide)
theorem W8_main_arg24 (c : Dev nD) : W8 m ρ c (Proc.devRef .tc main_arg24) = m ((c : Thread nD τ).loc main_arg24) :=
  W8_of_untouched m ρ c main_arg24 (by decide) (by decide) (by decide) (by decide) (by decide) (by decide) (by decide) (by decide)
theorem W8_main_arg25 (c : Dev nD) : W8 m ρ c (Proc.devRef .tc main_arg25) = m ((c : Thread nD τ).loc main_arg25) :=
  W8_of_untouched m ρ c main_arg25 (by decide) (by decide) (by decide) (by decide) (by decide) (by decide) (by decide) (by decide)
theorem W8_main_arg26 (c : Dev nD) : W8 m ρ c (Proc.devRef .tc main_arg26) = m ((c : Thread nD τ).loc main_arg26) :=
  W8_of_untouched m ρ c main_arg26 (by decide) (by decide) (by decide) (by decide) (by decide) (by decide) (by decide) (by decide)
theorem W8_main_arg27 (c : Dev nD) : W8 m ρ c (Proc.devRef .tc main_arg27) = m ((c : Thread nD τ).loc main_arg27) :=
  W8_of_untouched m ρ c main_arg27 (by decide) (by decide) (by decide) (by decide) (by decide) (by decide) (by decide) (by decide)
theorem W8_main_arg28 (c : Dev nD) : W8 m ρ c (Proc.devRef .tc main_arg28) = m ((c : Thread nD τ).loc main_arg28) :=
  W8_of_untouched m ρ c main_arg28 (by decide) (by decide) (by decide) (by decide) (by decide) (by decide) (by decide) (by decide)
theorem W8_main_arg29 (c : Dev nD) : W8 m ρ c (Proc.devRef .tc main_arg29) = m ((c : Thread nD τ).loc main_arg29) :=
  W8_of_untouched m ρ c main_arg29 (by decide) (by decide) (by decide) (by decide) (by decide) (by decide) (by decide) (by decide)
theorem W8_main_arg30 (c : Dev nD) : W8 m ρ c (Proc.devRef .tc main_arg30) = m ((c : Thread nD τ).loc main_arg30) :=
  W8_of_untouched m ρ c main_arg30 (by decide) (by decide) (by decide) (by decide) (by decide) (by decide) (by decide) (by decide)
theorem W8_main_arg31 (c : Dev nD) : W8 m ρ c (Proc.devRef .tc main_arg31) = m ((c : Thread nD τ).loc main_arg31) :=
  W8_of_untouched m ρ c main_arg31 (by decide) (by decide) (by decide) (by decide) (by decide) (by decide) (by decide) (by decide)

end Cert.KernelIdeal.Hand

end
-- ==== Proof.KI.Region0.lean ====
import proofs.«143938_j66159676227906_1_alg».proof.Proof.KI.Data

/-!
# Launch 0: the body's effect on its staging buffers, and the body obligation

The body of launch 0 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body `cc0__mlp_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x9` and the output's anything; it ends with the inputs'
    unchanged and the output's at `out0_10` of the inputs. -/
theorem sound_kernel0 (c : Dev nD) (E : Set ℕ) (i : grid0.Coords)
    (a0 : Memref sig .tc .vmem S10000x13 .f32) (h0 : a0.IsWhole)
    (a1 : Memref sig .tc .vmem S10000x13 .f32) (h1 : a1.IsWhole)
    (a2 : Memref sig .tc .vmem S13x64 .f32) (h2 : a2.IsWhole)
    (a3 : Memref sig .tc .vmem S64 .f32) (h3 : a3.IsWhole)
    (a4 : Memref sig .tc .vmem S64 .f32) (h4 : a4.IsWhole)
    (a5 : Memref sig .tc .vmem S64 .f32) (h5 : a5.IsWhole)
    (a6 : Memref sig .tc .vmem S64 .f32) (h6 : a6.IsWhole)
    (a7 : Memref sig .tc .vmem S64 .f32) (h7 : a7.IsWhole)
    (a8 : Memref sig .tc .vmem S64x64 .f32) (h8 : a8.IsWhole)
    (a9 : Memref sig .tc .vmem S64 .f32) (h9 : a9.IsWhole)
    (a10 : Memref sig .tc .vmem S10000x64 .f32) (h10 : a10.IsWhole)
    (x0 : Vec F S10000x13 .f32) (x1 : Vec F S10000x13 .f32) (x2 : Vec F S13x64 .f32) (x3 : Vec F S64 .f32) (x4 : Vec F S64 .f32) (x5 : Vec F S64 .f32) (x6 : Vec F S64 .f32) (x7 : Vec F S64 .f32) (x8 : Vec F S64x64 .f32) (x9 : Vec F S64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5 x6 x7 x8 x9)) -∗ K ⟨⟩))
      ⊢ wp frame (wpE (defs₀ (F := F)) Variants.none c none) E (cc0__mlp_kernel i a0 h0 a1 h1 a2 h2 a3 h3 a4 h4 a5 h5 a6 h6 a7 h7 a8 h8 a9 h9 a10 h10) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation at a generic point -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region1.lean ====
import proofs.«143938_j66159676227906_1_alg».proof.Proof.KI.Data

/-!
# Launch 1: the body's effect on its staging buffers, and the body obligation

The body of launch 1 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the body `cc1__mlp_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x9` and the output's anything; it ends with the inputs'
    unchanged and the output's at `out1_10` of the inputs. -/
theorem sound_kernel1 (c : Dev nD) (E : Set ℕ) (i : grid1.Coords)
    (a0 : Memref sig .tc .vmem S10000x64 .f32) (h0 : a0.IsWhole)
    (a1 : Memref sig .tc .vmem S10000x64 .f32) (h1 : a1.IsWhole)
    (a2 : Memref sig .tc .vmem S64x64 .f32) (h2 : a2.IsWhole)
    (a3 : Memref sig .tc .vmem S64 .f32) (h3 : a3.IsWhole)
    (a4 : Memref sig .tc .vmem S64 .f32) (h4 : a4.IsWhole)
    (a5 : Memref sig .tc .vmem S64 .f32) (h5 : a5.IsWhole)
    (a6 : Memref sig .tc .vmem S64 .f32) (h6 : a6.IsWhole)
    (a7 : Memref sig .tc .vmem S64 .f32) (h7 : a7.IsWhole)
    (a8 : Memref sig .tc .vmem S64x64 .f32) (h8 : a8.IsWhole)
    (a9 : Memref sig .tc .vmem S64 .f32) (h9 : a9.IsWhole)
    (a10 : Memref sig .tc .vmem S10000x64 .f32) (h10 : a10.IsWhole)
    (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out1_10 x0 x1 x2 x3 x4 x5 x6 x7 x8 x9)) -∗ K ⟨⟩))
      ⊢ wp frame (wpE (defs₀ (F := F)) Variants.none c none) E (cc1__mlp_kernel i a0 h0 a1 h1 a2 h2 a3 h3 a4 h4 a5 h5 a6 h6 a7 h7 a8 h8 a9 h9 a10 h10) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation at a generic point -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Region2.lean ====
import proofs.«143938_j66159676227906_1_alg».proof.Proof.KI.Data

/-!
# Launch 2: the body's effect on its staging buffers, and the body obligation

The body of launch 2 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body `cc2__mlp_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x9` and the output's anything; it ends with the inputs'
    unchanged and the output's at `out2_10` of the inputs. -/
theorem sound_kernel2 (c : Dev nD) (E : Set ℕ) (i : grid2.Coords)
    (a0 : Memref sig .tc .vmem S10000x64 .f32) (h0 : a0.IsWhole)
    (a1 : Memref sig .tc .vmem S10000x64 .f32) (h1 : a1.IsWhole)
    (a2 : Memref sig .tc .vmem S64x64 .f32) (h2 : a2.IsWhole)
    (a3 : Memref sig .tc .vmem S64 .f32) (h3 : a3.IsWhole)
    (a4 : Memref sig .tc .vmem S64 .f32) (h4 : a4.IsWhole)
    (a5 : Memref sig .tc .vmem S64 .f32) (h5 : a5.IsWhole)
    (a6 : Memref sig .tc .vmem S64 .f32) (h6 : a6.IsWhole)
    (a7 : Memref sig .tc .vmem S64 .f32) (h7 : a7.IsWhole)
    (a8 : Memref sig .tc .vmem S64x64 .f32) (h8 : a8.IsWhole)
    (a9 : Memref sig .tc .vmem S64 .f32) (h9 : a9.IsWhole)
    (a10 : Memref sig .tc .vmem S10000x64 .f32) (h10 : a10.IsWhole)
    (x0 : Vec F S10000x64 .f32) (x1 : Vec F S10000x64 .f32) (x2 : Vec F S64x64 .f32) (x3 : Vec F S64 .f32) (x4 : Vec F S64 .f32) (x5 : Vec F S64 .f32) (x6 : Vec F S64 .f32) (x7 : Vec F S64 .f32) (x8 : Vec F S64x64 .f32) (x9 : Vec F S64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out2_10 x0 x1 x2 x3 x4 x5 x6 x7 x8 x9)) -∗ K ⟨⟩))
      ⊢ wp frame (wpE (defs₀ (F := F)) Variants.none c none) E (cc2__mlp_kernel i a0 h0 a1 h1 a2 h2 a3 h3 a4 h4 a5 h5 a6 h6 a7 h7 a8 h8 a9 h9 a10 h10) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation at a generic point -/

/-- What the body is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Region3.lean ====
import proofs.«143938_j66159676227906_1_alg».proof.Proof.KI.Data

/-!
# Launch 3: the body's effect on its staging buffers, and the body obligation

The body of launch 3 loads each input window whole, computes, and stores the result over the whole output window.
This module proves that effect once, for any contents of the input windows, and from it the obligation the launch
theorem asks of the body at every grid point: called with each input window's buffer at that point's block, it
returns with those buffers unchanged and the output window's buffer at the body's arithmetic on the blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the body `cc3__classifier_kernel` at the entry contents `V`

The body reads every input window whole, computes, and overwrites the output window whole. So after the body the
output window's buffer is one piece covering the whole rectangle, and the input windows' buffers are as found. -/

set_option maxHeartbeats 1000000 in
/-- The body on whole staging buffers: the inputs' hold `x0 … x4` and the output's anything; it ends with the inputs'
    unchanged and the output's at `out3_5` of the inputs. -/
theorem sound_kernel3 (c : Dev nD) (E : Set ℕ) (i : grid3.Coords)
    (a0 : Memref sig .tc .vmem S512x192 .f32) (h0 : a0.IsWhole)
    (a1 : Memref sig .tc .vmem S192x192 .f32) (h1 : a1.IsWhole)
    (a2 : Memref sig .tc .vmem S192 .f32) (h2 : a2.IsWhole)
    (a3 : Memref sig .tc .vmem S192x2 .f32) (h3 : a3.IsWhole)
    (a4 : Memref sig .tc .vmem S2 .f32) (h4 : a4.IsWhole)
    (a5 : Memref sig .tc .vmem S512x2 .f32) (h5 : a5.IsWhole)
    (x0 : Vec F S512x192 .f32) (x1 : Vec F S192x192 .f32) (x2 : Vec F S192 .f32) (x3 : Vec F S192x2 .f32) (x4 : Vec F S2 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3_5 x0 x1 x2 x3 x4)) -∗ K ⟨⟩))
      ⊢ wp frame (wpE (defs₀ (F := F)) Variants.none c none) E (cc3__classifier_kernel i a0 h0 a1 h1 a2 h2 a3 h3 a4 h4 a5 h5) K := by
  simp only [cc3__classifier_kernel_eq_skeleton]; unfold cc3__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

section Regions
variable (V : (c : Dev nD) → (b : Ref sig .tc) → Buf (Elt F) ((c : Thread nD τ).loc b))

/-! ## Each input window's buffer holds its block at every point

Whether or not the window was fetched at the point: when it was not, its block index has not moved since the
point before, whose block is therefore this point's, and the body left it in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is called with at point `t`, window by window. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in
/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Run.lean ====
import proofs.«143938_j66159676227906_1_alg».proof.Proof.KI.Keep
import proofs.«143938_j66159676227906_1_alg».proof.Proof.KI.Region0
import proofs.«143938_j66159676227906_1_alg».proof.Proof.KI.Region1
import proofs.«143938_j66159676227906_1_alg».proof.Proof.KI.Region2
import proofs.«143938_j66159676227906_1_alg».proof.Proof.KI.Region3

/-!
# The run of the whole program

The program is four launches, each after a stretch of host operations. This module follows the device's buffers
through all eight items: a host stretch takes every unscoped buffer from one valuation to the next, a launch takes
them from its entry valuation to the one in which its arrays hold what its write-backs leave. At the end every
unscoped buffer is read at the last valuation `W8`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launches' records, and what rides beside the buffers -/

/-- Every launch's record, each at its own entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last state without what is owed: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 as a segment: entered with every unscoped buffer at `W1`, left with them at `W2`. Its arrays are
    split out of the unscoped buffers on entry and put back at the exit contents; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `W3`, left with them at `W4`. Its arrays are
    split out of the unscoped buffers on entry and put back at the exit contents; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `W5`, left with them at `W6`. Its arrays are
    split out of the unscoped buffers on entry and put back at the exit contents; the generator register goes into the
    launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered with every unscoped buffer at `W7`, left with them at `W8`. Its arrays are
    split out of the unscoped buffers on entry and put back at the exit contents; the generator register goes into the
    launch's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its eight items, and the run -/

abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program is the run of its items. -/
theorem main_run (c : Dev nD) : main (F := F) c = Pipeline.Seg.run (items m ρ) :=
  main_segs adm (pdats m ρ) () 𝒱₀ L lv _ _ _ _ _ _ _ _ rfl rfl rfl rfl c

set_option backward.isDefEq.respectTransparency.types false in
/-- From any memory with zero counters, every weakly fair run of the program on the cores terminates without a fault,
    and in every final state each core's unscoped buffers hold the last valuation `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- An unscoped reference of the core is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Spec.lean ====
import Idealize.ShloMosaic.PureOps.Ideal
import Idealize.ShloMosaic.PureOps.Ideal.Laws
import Idealize.ShloMosaic.Lib.ValueIdx

/-!
# What the network computes, entry by entry, on the extended reals

A graph-isomorphism layer takes each node's feature row plus the sum of its in-neighbours' rows, applies a linear map,
a batch normalisation with fixed statistics, a rectifier, a second linear map and a rectifier. The classifier takes a
graph's pooled features through a linear map, a rectifier, a second linear map, and a row-wise log-softmax.
Every function below is the value at ONE entry, written with plain finite sums over the contracted axis; the float
words that occur (zero, the normalisation's epsilon, minus infinity) are kept as words so that neither program's
copy of them is ever evaluated.
-/

noncomputable section

namespace Cert.Gin

open Idealize.ShloMosaic Idealize.ShloMosaic.ValueIdx

/-- A matrix of extended reals with `r` rows and `c` columns. -/
abbrev Mat (r c : Nat) : Type := (⟨2, ![r, c]⟩ : Shape).Idx → EReal
/-- A row of extended reals of length `n`. -/
abbrev Row (n : Nat) : Type := (⟨1, ![n]⟩ : Shape).Idx → EReal

/-- The single-precision zero word's value. -/
def zeroW : EReal := Ideal.ofBits .f32 0x00000000#32
/-- The normalisation's epsilon: the single-precision word nearest to 1e-5. -/
def epsW : EReal := Ideal.ofBits .f32 0x3727C5AC#32
/-- The value the row maximum starts from: the single-precision word of minus infinity. -/
def negInfW : EReal := Ideal.ofBits .f32 0xFF800000#32

/-! ## One layer on 13 input features -/

/-- Hidden unit `k` of node `p`: `max(((Σ_d (x+agg)[p,d]·W1[d,k] + b1[k] − μ[k]) · rsqrt(v[k]+ε)) · g[k] + β[k], 0)`. -/
def hid13 (x agg : Mat 100000 13) (W1 : Mat 13 64) (b1 g be mu v : Row 64) (p : Fin 100000) (k : Fin 64) : EReal :=
  max ((((∑ d : Fin 13, (x (ix2 p d) + agg (ix2 p d)) * W1 (ix2 d k)) + b1 (ix1 k) - mu (ix1 k))
      * Ideal.rsqrt (v (ix1 k) + epsW)) * g (ix1 k) + be (ix1 k)) zeroW

/-- Output unit `q` of node `p`: `max(Σ_k hid[p,k]·W2[k,q] + b2[q], 0)`. -/
def mlp13At (x agg : Mat 100000 13) (W1 : Mat 13 64) (b1 g be mu v : Row 64) (W2 : Mat 64 64) (b2 : Row 64)
    (p : Fin 100000) (q : Fin 64) : EReal :=
  max ((∑ k : Fin 64, hid13 x agg W1 b1 g be mu v p k * W2 (ix2 k q)) + b2 (ix1 q)) zeroW

/-- The layer's whole output matrix. -/
def mlp13 (x agg : Mat 100000 13) (W1 : Mat 13 64) (b1 g be mu v : Row 64) (W2 : Mat 64 64) (b2 : Row 64) : Mat 100000 64 :=
  fun j => mlp13At x agg W1 b1 g be mu v W2 b2 (j 0) (j 1)

/-! ## One layer on 64 input features -/

/-- Hidden unit `k` of node `p`, 64 input features. -/
def hid64 (x agg : Mat 100000 64) (W1 : Mat 64 64) (b1 g be mu v : Row 64) (p : Fin 100000) (k : Fin 64) : EReal :=
  max ((((∑ d : Fin 64, (x (ix2 p d) + agg (ix2 p d)) * W1 (ix2 d k)) + b1 (ix1 k) - mu (ix1 k))
      * Ideal.rsqrt (v (ix1 k) + epsW)) * g (ix1 k) + be (ix1 k)) zeroW

/-- Output unit `q` of node `p`, 64 input features. -/
def mlp64At (x agg : Mat 100000 64) (W1 : Mat 64 64) (b1 g be mu v : Row 64) (W2 : Mat 64 64) (b2 : Row 64)
    (p : Fin 100000) (q : Fin 64) : EReal :=
  max ((∑ k : Fin 64, hid64 x agg W1 b1 g be mu v p k * W2 (ix2 k q)) + b2 (ix1 q)) zeroW

/-- The layer's whole output matrix, 64 input features. -/
def mlp64 (x agg : Mat 100000 64) (W1 : Mat 64 64) (b1 g be mu v : Row 64) (W2 : Mat 64 64) (b2 : Row 64) : Mat 100000 64 :=
  fun j => mlp64At x agg W1 b1 g be mu v W2 b2 (j 0) (j 1)

/-! ## The classifier -/

/-- Hidden unit `k` of graph `p`: `max(Σ_d h[p,d]·W1[d,k] + b1[k], 0)`. -/
def fc1 (h : Mat 512 192) (W1 : Mat 192 192) (b1 : Row 192) (p : Fin 512) (k : Fin 192) : EReal :=
  max ((∑ d : Fin 192, h (ix2 p d) * W1 (ix2 d k)) + b1 (ix1 k)) zeroW

/-- Class score `q` of graph `p`: `Σ_k fc1[p,k]·W2[k,q] + b2[q]`. -/
def logit (h : Mat 512 192) (W1 : Mat 192 192) (b1 : Row 192) (W2 : Mat 192 2) (b2 : Row 2) (p : Fin 512) (q : Fin 2) : EReal :=
  (∑ k : Fin 192, fc1 h W1 b1 p k * W2 (ix2 k q)) + b2 (ix1 q)

/-- The largest class score of graph `p`, folded from minus infinity. -/
def rowMax (h : Mat 512 192) (W1 : Mat 192 192) (b1 : Row 192) (W2 : Mat 192 2) (b2 : Row 2) (p : Fin 512) : EReal :=
  (Finset.univ : Finset (Fin 2)).fold max negInfW (fun q => logit h W1 b1 W2 b2 p q)

/-- A class score less the row's largest. -/
def shifted (h : Mat 512 192) (W1 : Mat 192 192) (b1 : Row 192) (W2 : Mat 192 2) (b2 : Row 2) (p : Fin 512) (q : Fin 2) : EReal :=
  logit h W1 b1 W2 b2 p q - rowMax h W1 b1 W2 b2 p

/-- The logarithm of the row's sum of exponentials of the shifted scores. -/
def logSumExp (h : Mat 512 192) (W1 : Mat 192 192) (b1 : Row 192) (W2 : Mat 192 2) (b2 : Row 2) (p : Fin 512) : EReal :=
  Ideal.log (∑ q : Fin 2, Ideal.exp (shifted h W1 b1 W2 b2 p q))

/-- The log-softmax of the class scores, entry `(p, q)`. -/
def clsAt (h : Mat 512 192) (W1 : Mat 192 192) (b1 : Row 192) (W2 : Mat 192 2) (b2 : Row 2) (p : Fin 512) (q : Fin 2) : EReal :=
  shifted h W1 b1 W2 b2 p q - logSumExp h W1 b1 W2 b2 p

/-- The classifier's whole output matrix. -/
def cls (h : Mat 512 192) (W1 : Mat 192 192) (b1 : Row 192) (W2 : Mat 192 2) (b2 : Row 2) : Mat 512 2 :=
  fun j => clsAt h W1 b1 W2 b2 (j 0) (j 1)

/-- Taking the rectifier twice more changes nothing. -/
theorem max_max_max (y z : EReal) : max (max (max y z) z) z = max y z := by
  rw [max_assoc, max_self, max_assoc, max_self]

end Cert.Gin

end
-- ==== Proof.SpecRows.lean ====
import proofs.«143938_j66159676227906_1_alg».proof.Proof.Spec

/-!
# One node's row at a time

A layer's output at node `p` depends only on row `p` of the node features and of the neighbour sums. The same
functions as in the whole-matrix specification are written here over ONE feature row, so that a block of rows and the
whole matrix can both be read through them.
-/

noncomputable section

namespace Cert.Gin

open Idealize.ShloMosaic Idealize.ShloMosaic.ValueIdx

/-- Hidden unit `k` from one node's 13 features `xr` and its neighbours' sum `ar`. -/
def hidRow13 (xr ar : Fin 13 → EReal) (W1 : Mat 13 64) (b1 g be mu v : Row 64) (k : Fin 64) : EReal :=
  max ((((∑ d : Fin 13, (xr d + ar d) * W1 (ix2 d k)) + b1 (ix1 k) - mu (ix1 k))
      * Ideal.rsqrt (v (ix1 k) + epsW)) * g (ix1 k) + be (ix1 k)) zeroW

/-- Hidden unit `k` from one node's 64 features `xr` and its neighbours' sum `ar`. -/
def hidRow64 (xr ar : Fin 64 → EReal) (W1 : Mat 64 64) (b1 g be mu v : Row 64) (k : Fin 64) : EReal :=
  max ((((∑ d : Fin 64, (xr d + ar d) * W1 (ix2 d k)) + b1 (ix1 k) - mu (ix1 k))
      * Ideal.rsqrt (v (ix1 k) + epsW)) * g (ix1 k) + be (ix1 k)) zeroW

/-- Output unit `q` from one node's hidden row. -/
def outRow (hr : Fin 64 → EReal) (W2 : Mat 64 64) (b2 : Row 64) (q : Fin 64) : EReal :=
  max ((∑ k : Fin 64, hr k * W2 (ix2 k q)) + b2 (ix1 q)) zeroW

/-- The whole-matrix layer at node `p` is the row function of row `p`. -/
theorem mlp13At_rows (x agg : Mat 100000 13) (W1 : Mat 13 64) (b1 g be mu v : Row 64) (W2 : Mat 64 64) (b2 : Row 64)
    (p : Fin 100000) (q : Fin 64) :
    mlp13At x agg W1 b1 g be mu v W2 b2 p q
      = outRow (fun k => hidRow13 (fun d => x (ix2 p d)) (fun d => agg (ix2 p d)) W1 b1 g be mu v k) W2 b2 q := rfl

/-- The same for 64 input features. -/
theorem mlp64At_rows (x agg : Mat 100000 64) (W1 : Mat 64 64) (b1 g be mu v : Row 64) (W2 : Mat 64 64) (b2 : Row 64)
    (p : Fin 100000) (q : Fin 64) :
    mlp64At x agg W1 b1 g be mu v W2 b2 p q
      = outRow (fun k => hidRow64 (fun d => x (ix2 p d)) (fun d => agg (ix2 p d)) W1 b1 g be mu v k) W2 b2 q := rfl

end Cert.Gin

end
-- ==== Proof.KI.PayLayout.lean ====
import proofs.«143938_j66159676227906_1_alg».proof.Proof.Gen.KernelIdeal.Skeleton
import proofs.«143938_j66159676227906_1_alg».proof.Proof.SpecRows
import Idealize.ShloMosaic.Lib.ValueIdx
import Idealize.ShloMosaic.Lib.ValueLayout
import Idealize.ShloMosaic.Lib.Pipeline.Value
import Idealize.ShloMosaic.PureOps.Ideal.Laws

/-!
# Matrix products and bias rows of the kernel bodies, read at one entry

Over exact arithmetic a matrix product into a zero accumulator is, at entry `(r, q)`, the plain sum over the contracted
axis of left-row-`r` times right-column-`q`; a length-`n` row first viewed as a one-row matrix and then repeated down the
rows is, at `(r, q)`, its entry `q`.
-/

noncomputable section

namespace Cert.KernelIdeal.PayValue

open Cert.KernelIdeal Cert.KernelIdeal.Gen
open Idealize.ShloMosaic Idealize.ShloMosaic.ValueIdx

/-- A row of length 64, viewed as a 1×64 matrix and repeated down 10000 rows, at entry `(r, q)`. -/
theorem biasRow64_at (b : S64.Idx → EReal) (r : Fin 10000) (q : Fin 64) :
    broadcastTo S10000x64 (shapeCast S1x64 b shapeCasts_S64_S1x64) broadcasts_S1x64_S10000x64 (ix2 r q) = b (ix1 q) := by
  rw [broadcastTo_1b_ab_apply, shapeCast_a_1a_apply]

/-- A row of length 192 repeated down 512 rows, at entry `(r, q)`. -/
theorem biasRow192_at (b : S192.Idx → EReal) (r : Fin 512) (q : Fin 192) :
    broadcastTo S512x192 (shapeCast S1x192 b shapeCasts_S192_S1x192) broadcasts_S1x192_S512x192 (ix2 r q) = b (ix1 q) := by
  rw [broadcastTo_1b_ab_apply, shapeCast_a_1a_apply]

/-- A row of length 2 repeated down 512 rows, at entry `(r, q)`. -/
theorem biasRow2_at (b : S2.Idx → EReal) (r : Fin 512) (q : Fin 2) :
    broadcastTo S512x2 (shapeCast S1x2 b shapeCasts_S2_S1x2) broadcasts_S1x2_S512x2 (ix2 r q) = b (ix1 q) := by
  rw [broadcastTo_1b_ab_apply, shapeCast_a_1a_apply]

/-- The 10000×13 by 13×64 product into a zero accumulator, at entry `(r, q)`: `Σ_d l[r,d] · w[d,q]`. -/
theorem mm13_at {φ₁ φ₂ : FTy} (l : FVec Ideal S10000x13 φ₁) (w : FVec Ideal S13x64 φ₂) (r : Fin 10000) (q : Fin 64) :
    matmul dot_S10000x13_S13x64_S10000x64_1_0_0_1_n_n none l w (constant S10000x64 .f32 0x00000000#32) (ix2 r q)
      = ∑ d : Fin 13, l (ix2 r d) * w (ix2 d q) := by
  refine (Ideal.matmul_constant_zero_apply dot_S10000x13_S13x64_S10000x64_1_0_0_1_n_n none l w (ix2 r q)).trans ?_
  rw [← Equiv.sum_comp (ValueIdx.contrEquiv1 dot_S10000x13_S13x64_S10000x64_1_0_0_1_n_n 13 rfl rfl).symm]
  refine Finset.sum_congr rfl fun k _ => ?_
  have hk := ValueIdx.contrEquiv1_symm_val dot_S10000x13_S13x64_S10000x64_1_0_0_1_n_n 13 rfl rfl k
  have el : dot_S10000x13_S13x64_S10000x64_1_0_0_1_n_n.lhsIdx (ix2 r q) ((ValueIdx.contrEquiv1 dot_S10000x13_S13x64_S10000x64_1_0_0_1_n_n 13 rfl rfl).symm k) = ix2 r k :=
    funext fun a => Fin.ext (by
      match a with
      | ⟨0, _⟩ =>
        show (dot_S10000x13_S13x64_S10000x64_1_0_0_1_n_n.lhsIdx (ix2 r q) _ 0).val = r.val
        unfold DotDims.lhsIdx
        rw [dif_neg (show ¬(0 : Fin S10000x13.rank) ∈ dot_S10000x13_S13x64_S10000x64_1_0_0_1_n_n.lhsBatch by decide),
          dif_pos (show (0 : Fin S10000x13.rank) ∈ dot_S10000x13_S13x64_S10000x64_1_0_0_1_n_n.lhsNonContracting by decide)]
        rfl
      | ⟨1, _⟩ => exact (dot_S10000x13_S13x64_S10000x64_1_0_0_1_n_n.lhsIdx_val_of_single rfl _ _).trans hk)
  have er : dot_S10000x13_S13x64_S10000x64_1_0_0_1_n_n.rhsIdx (ix2 r q) ((ValueIdx.contrEquiv1 dot_S10000x13_S13x64_S10000x64_1_0_0_1_n_n 13 rfl rfl).symm k) = ix2 k q :=
    funext fun a => Fin.ext (by
      match a with
      | ⟨0, _⟩ => exact (dot_S10000x13_S13x64_S10000x64_1_0_0_1_n_n.rhsIdx_val_of_single rfl _ _).trans hk
      | ⟨1, _⟩ =>
        show (dot_S10000x13_S13x64_S10000x64_1_0_0_1_n_n.rhsIdx (ix2 r q) _ 1).val = q.val
        unfold DotDims.rhsIdx
        rw [dif_neg (show ¬(1 : Fin S13x64.rank) ∈ dot_S10000x13_S13x64_S10000x64_1_0_0_1_n_n.rhsBatch by decide),
          dif_pos (show (1 : Fin S13x64.rank) ∈ dot_S10000x13_S13x64_S10000x64_1_0_0_1_n_n.rhsNonContracting by decide)]
        rfl)
  rw [el, er]

/-- The 10000×64 by 64×64 product into a zero accumulator, at entry `(r, q)`: `Σ_d l[r,d] · w[d,q]`. -/
theorem mm64_at {φ₁ φ₂ : FTy} (l : FVec Ideal S10000x64 φ₁) (w : FVec Ideal S64x64 φ₂) (r : Fin 10000) (q : Fin 64) :
    matmul dot_S10000x64_S64x64_S10000x64_1_0_0_1_n_n none l w (constant S10000x64 .f32 0x00000000#32) (ix2 r q)
      = ∑ d : Fin 64, l (ix2 r d) * w (ix2 d q) := by
  refine (Ideal.matmul_constant_zero_apply dot_S10000x64_S64x64_S10000x64_1_0_0_1_n_n none l w (ix2 r q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r q) ((ValueIdx.contrEquiv1 dot_S10000x64_S64x64_S10000x64_1_0_0_1_n_n 64 rfl rfl).symm k) = ix2 r k :=
    funext fun a => Fin.ext (by
      match a with
      | ⟨0, _⟩ =>
        show (dot_S10000x64_S64x64_S10000x64_1_0_0_1_n_n.lhsIdx (ix2 r q) _ 0).val = r.val
        unfold DotDims.lhsIdx
        rw [dif_neg (show ¬(0 : Fin S10000x64.rank) ∈ dot_S10000x64_S64x64_S10000x64_1_0_0_1_n_n.lhsBatch by decide),
          dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl _ _).trans hk)
  have er : dot_S10000x64_S64x64_S10000x64_1_0_0_1_n_n.rhsIdx (ix2 r q) ((ValueIdx.contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ =>
        show (dot_S10000x64_S64x64_S10000x64_1_0_0_1_n_n.rhsIdx (ix2 r q) _ 1).val = q.val
        unfold DotDims.rhsIdx
        rw [dif_neg (show ¬(1 : Fin S64x64.rank) ∈ dot_S10000x64_S64x64_S10000x64_1_0_0_1_n_n.rhsBatch by decide),
          dif_pos (show (1 : Fin S64x64.rank) ∈ dot_S10000x64_S64x64_S10000x64_1_0_0_1_n_n.rhsNonContracting by decide)]
        rfl)
  rw [el, er]

/-- The 512×192 by 192×192 product into a zero accumulator, at entry `(r, q)`: `Σ_d l[r,d] · w[d,q]`. -/
theorem mm192_at {φ₁ φ₂ : FTy} (l : FVec Ideal S512x192 φ₁) (w : FVec Ideal S192x192 φ₂) (r : Fin 512) (q : Fin 192) :
    matmul dot_S512x192_S192x192_S512x192_1_0_0_1_n_n none l w (constant S512x192 .f32 0x00000000#32) (ix2 r q)
      = ∑ d : Fin 192, l (ix2 r d) * w (ix2 d q) := by
  refine (Ideal.matmul_constant_zero_apply dot_S512x192_S192x192_S512x192_1_0_0_1_n_n none l w (ix2 r q)).trans ?_
  rw [← Equiv.sum_comp (ValueIdx.contrEquiv1 dot_S512x192_S192x192_S512x192_1_0_0_1_n_n 192 rfl rfl).symm]
  refine Finset.sum_congr rfl fun k _ => ?_
  have hk := ValueIdx.contrEquiv1_symm_val dot_S512x192_S192x192_S512x192_1_0_0_1_n_n 192 rfl rfl k
  have el : dot_S512x192_S192x192_S512x192_1_0_0_1_n_n.lhsIdx (ix2 r q) ((ValueIdx.contrEquiv1 dot_S512x192_S192x192_S512x192_1_0_0_1_n_n 192 rfl rfl).symm k) = ix2 r k :=
    funext fun a => Fin.ext (by
      match a with
      | ⟨0, _⟩ =>
        show (dot_S512x192_S192x192_S512x192_1_0_0_1_n_n.lhsIdx (ix2 r q) _ 0).val = r.val
        unfold DotDims.lhsIdx
        rw [dif_neg (show ¬(0 : Fin S512x192.rank) ∈ dot_S512x192_S192x192_S512x192_1_0_0_1_n_n.lhsBatch by decide),
          dif_pos (show (0 : Fin S512x192.rank) ∈ dot_S512x192_S192x192_S512x192_1_0_0_1_n_n.lhsNonContracting by decide)]
        rfl
      | ⟨1, _⟩ => exact (dot_S512x192_S192x192_S512x192_1_0_0_1_n_n.lhsIdx_val_of_single rfl _ _).trans hk)
  have er : dot_S512x192_S192x192_S512x192_1_0_0_1_n_n.rhsIdx (ix2 r q) ((ValueIdx.contrEquiv1 dot_S512x192_S192x192_S512x192_1_0_0_1_n_n 192 rfl rfl).symm k) = ix2 k q :=
    funext fun a => Fin.ext (by
      match a with
      | ⟨0, _⟩ => exact (dot_S512x192_S192x192_S512x192_1_0_0_1_n_n.rhsIdx_val_of_single rfl _ _).trans hk
      | ⟨1, _⟩ =>
        show (dot_S512x192_S192x192_S512x192_1_0_0_1_n_n.rhsIdx (ix2 r q) _ 1).val = q.val
        unfold DotDims.rhsIdx
        rw [dif_neg (show ¬(1 : Fin S192x192.rank) ∈ dot_S512x192_S192x192_S512x192_1_0_0_1_n_n.rhsBatch by decide),
          dif_pos (show (1 : Fin S192x192.rank) ∈ dot_S512x192_S192x192_S512x192_1_0_0_1_n_n.rhsNonContracting by decide)]
        rfl)
  rw [el, er]

/-- The 512×192 by 192×2 product into a zero accumulator, at entry `(r, q)`: `Σ_d l[r,d] · w[d,q]`. -/
theorem mm192x2_at {φ₁ φ₂ : FTy} (l : FVec Ideal S512x192 φ₁) (w : FVec Ideal S192x2 φ₂) (r : Fin 512) (q : Fin 2) :
    matmul dot_S512x192_S192x2_S512x2_1_0_0_1_n_n none l w (constant S512x2 .f32 0x00000000#32) (ix2 r q)
      = ∑ d : Fin 192, l (ix2 r d) * w (ix2 d q) := by
  refine (Ideal.matmul_constant_zero_apply dot_S512x192_S192x2_S512x2_1_0_0_1_n_n none l w (ix2 r q)).trans ?_
  rw [← Equiv.sum_comp (ValueIdx.contrEquiv1 dot_S512x192_S192x2_S512x2_1_0_0_1_n_n 192 rfl rfl).symm]
  refine Finset.sum_congr rfl fun k _ => ?_
  have hk := ValueIdx.contrEquiv1_symm_val dot_S512x192_S192x2_S512x2_1_0_0_1_n_n 192 rfl rfl k
  have el : dot_S512x192_S192x2_S512x2_1_0_0_1_n_n.lhsIdx (ix2 r q) ((ValueIdx.contrEquiv1 dot_S512x192_S192x2_S512x2_1_0_0_1_n_n 192 rfl rfl).symm k) = ix2 r k :=
    funext fun a => Fin.ext (by
      match a with
      | ⟨0, _⟩ =>
        show (dot_S512x192_S192x2_S512x2_1_0_0_1_n_n.lhsIdx (ix2 r q) _ 0).val = r.val
        unfold DotDims.lhsIdx
        rw [dif_neg (show ¬(0 : Fin S512x192.rank) ∈ dot_S512x192_S192x2_S512x2_1_0_0_1_n_n.lhsBatch by decide),
          dif_pos (show (0 : Fin S512x192.rank) ∈ dot_S512x192_S192x2_S512x2_1_0_0_1_n_n.lhsNonContracting by decide)]
        rfl
      | ⟨1, _⟩ => exact (dot_S512x192_S192x2_S512x2_1_0_0_1_n_n.lhsIdx_val_of_single rfl _ _).trans hk)
  have er : dot_S512x192_S192x2_S512x2_1_0_0_1_n_n.rhsIdx (ix2 r q) ((ValueIdx.contrEquiv1 dot_S512x192_S192x2_S512x2_1_0_0_1_n_n 192 rfl rfl).symm k) = ix2 k q :=
    funext fun a => Fin.ext (by
      match a with
      | ⟨0, _⟩ => exact (dot_S512x192_S192x2_S512x2_1_0_0_1_n_n.rhsIdx_val_of_single rfl _ _).trans hk
      | ⟨1, _⟩ =>
        show (dot_S512x192_S192x2_S512x2_1_0_0_1_n_n.rhsIdx (ix2 r q) _ 1).val = q.val
        unfold DotDims.rhsIdx
        rw [dif_neg (show ¬(1 : Fin S192x2.rank) ∈ dot_S512x192_S192x2_S512x2_1_0_0_1_n_n.rhsBatch by decide),
          dif_pos (show (1 : Fin S192x2.rank) ∈ dot_S512x192_S192x2_S512x2_1_0_0_1_n_n.rhsNonContracting by decide)]
        rfl)
  rw [el, er]

/-! ## Column forms: a length-`a` vector as an `a × 1` column, and a column repeated across `b` columns -/

/-- A length-`a` vector viewed as an `a × 1` column reads, at `(i, u)`, its entry `i`. -/
theorem shapeCast_a_a1_at {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` columns reads, at `(p, c)`, the column's entry `p`. -/
theorem broadcastTo_a1_ab_at {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity of the 512 rows, made a column and repeated across the two classes, at `(p, q)`. -/
theorem perRow_at (v : S512.Idx → EReal) (p : Fin 512) (q : Fin 2) :
    broadcastTo S512x2 (shapeCast S512x1 v shapeCasts_S512_S512x1) broadcasts_S512x1_S512x2 (ix2 p q) = v (ix1 p) := by
  rw [broadcastTo_a1_ab_at, shapeCast_a_a1_at]

/-! ## The two row reductions of the classifier -/

/-- The sum along a row of a 512 × 2 matrix, from the zero word. -/
theorem rowSum_at (src : FVec Ideal S512x2 .f32) (p : Fin 512) :
    multiReduction .add [1] S512 src 0x00000000#32 reduces_S512x2_S512 (.inl rfl) rfl (ix1 p) = ∑ q : Fin 2, src (ix2 p q) := by
  refine (Ideal.multiReduction_add_single src 0x00000000#32 reduces_S512x2_S512 (.inl rfl) rfl (ix1 p)).trans ?_
  refine Finset.sum_congr rfl fun k _ => congrArg src (funext fun a => ?_)
  match a with
  | ⟨0, _⟩ => rfl
  | ⟨1, _⟩ => rfl

/-- The maximum along a row of a 512 × 2 matrix, folded from the minus-infinity word. -/
theorem rowMax_at (src : FVec Ideal S512x2 .f32) (p : Fin 512) :
    multiReduction .maximumf [1] S512 src 0xFF800000#32 reduces_S512x2_S512 (.inl rfl) rfl (ix1 p)
      = (Finset.univ : Finset (Fin 2)).fold max (Ideal.ofBits .f32 0xFF800000#32) (fun q => src (ix2 p q)) := by
  refine (Ideal.multiReduction_maximumf_single src 0xFF800000#32 reduces_S512x2_S512 (.inl rfl) rfl (ix1 p)).trans ?_
  refine congrArg (fun f => (Finset.univ : Finset (Fin 2)).fold max (Ideal.ofBits .f32 0xFF800000#32) f) (funext fun k => congrArg src (funext fun a => ?_))
  match a with
  | ⟨0, _⟩ => rfl
  | ⟨1, _⟩ => rfl

/-! ## The three transcendental operations at one entry -/

theorem rsqrt_at {s : Shape} {φ : FTy} (v : FVec Ideal s φ) (i : s.Idx) : rsqrt v i = Ideal.rsqrt (v i) := rfl
theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl

end Cert.KernelIdeal.PayValue

end
-- ==== Proof.KI.Pay0.lean ====
import proofs.«143938_j66159676227906_1_alg».proof.Proof.Gen.KernelIdeal.Skeleton
import proofs.«143938_j66159676227906_1_alg».proof.Proof.SpecRows
import proofs.«143938_j66159676227906_1_alg».proof.Proof.KI.PayLayout
import Idealize.ShloMosaic.Lib.ValueIdx
import Idealize.ShloMosaic.Lib.ValueLayout
import Idealize.ShloMosaic.Lib.Pipeline.Value
import Idealize.ShloMosaic.PureOps.Ideal.Laws

/-!
# The first layer's body at one entry of its block

The body adds the node-feature block and the neighbour-sum block, multiplies by the first weight matrix, adds the bias,
normalises with the fixed mean and variance, rectifies, multiplies by the second weight matrix, adds its bias and
rectifies. At entry `(r, q)` of the block this is the row function of row `r` of the two input blocks.
-/

noncomputable section

namespace Cert.KernelIdeal.PayValue

open Cert.KernelIdeal Cert.KernelIdeal.Gen
open Idealize.ShloMosaic Idealize.ShloMosaic.ValueIdx

/-- The stored block of the first layer at entry `(r, q)`: the layer's row function of row `r` of the feature block `x0`
    and of the neighbour-sum block `x1`, with weights `x2`, `x8`, biases `x3`, `x9`, scale `x4`, shift `x5`, mean `x6`,
    variance `x7`. -/
theorem pay0_at (x0 x1 : Vec Ideal S10000x13 .f32) (x2 : Vec Ideal S13x64 .f32) (x3 x4 x5 x6 x7 : Vec Ideal S64 .f32)
    (x8 : Vec Ideal S64x64 .f32) (x9 : Vec Ideal S64 .f32) (r : Fin 10000) (q : Fin 64) :
    k0_pay1 (k0_pay2 x0 x1 x2 x3 x6 x7 x4 x5 x8 x9) (ix2 r q)
      = Gin.outRow (fun k => Gin.hidRow13 (fun d => x0 (ix2 r d)) (fun d => x1 (ix2 r d)) x2 x3 x4 x5 x6 x7 k) x8 x9 q := by
  unfold k0_pay1 k0_pay2 Gin.outRow Gin.hidRow13 Gin.zeroW Gin.epsW
  simp only [truncf_apply, maximumf_apply, addf_apply, subf_apply, mulf_apply, broadcast_apply, rsqrt_at, mm64_at, mm13_at, biasRow64_at,
    shapeCast_self]
  rfl

end Cert.KernelIdeal.PayValue

end
-- ==== Proof.KI.Final0.lean ====
import proofs.«143938_j66159676227906_1_alg».proof.Proof.KI.Data
import proofs.«143938_j66159676227906_1_alg».proof.Proof.KI.Pay0

/-!
# From the first layer's ten row blocks to its whole output matrix

Grid point `t` sees rows `10000·t … 10000·t + 9999` of the node features and of the neighbour sums, and the whole of every
weight, bias and statistic. What it writes back is therefore rows `10000·t …` of the layer's whole output matrix; the
ten blocks tile the matrix, so after the launch the output array IS that matrix.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- Where each operand's block sits at grid point `t`: the two row-blocked inputs and the output at row block `t`,
    every other operand at its one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 1) = 0 ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

theorem t_lt0 (t : Fin cfg0.N) : t.val < 10 := lt_of_lt_of_eq t.isLt N_0

/-- Entry `(r, d)` of operand 0's block at point `t` is entry `(10000·t + r, d)` of its array. -/
theorem iblk0_0_at (c : Dev nD) (t : Fin cfg0.N) (r : Fin 10000) (d : Fin 13) :
    iblk0 V c 0 t (ix2 r d) = V c main_arg0 (ix2 ⟨t.val * 10000 + r.val, by have := t_lt0 t; omega⟩ d) := by
  obtain ⟨e0a, e0b, e1a, e1b, e2a, e2b, e3, e4, e5, e6, e7, e8a, e8b, e9, e10a, e10b⟩ := idx0 t
  show V c main_arg0 (((cfg0.win 0).blk t).view.emb (ix2 r d)) = _
  refine congrArg (V c main_arg0) (funext fun a => Fin.ext ?_)
  match a with
  | ⟨0, _⟩ => show win0_0.index t (0 : Fin 2) * 10000 + 1 * r.val = t.val * 10000 + r.val; omega
  | ⟨1, _⟩ => show win0_0.index t (1 : Fin 2) * 13 + 1 * d.val = d.val; omega

/-- Entry `(r, d)` of operand 1's block at point `t` is entry `(10000·t + r, d)` of its array. -/
theorem iblk0_1_at (c : Dev nD) (t : Fin cfg0.N) (r : Fin 10000) (d : Fin 13) :
    iblk0 V c 1 t (ix2 r d) = V c main_v9 (ix2 ⟨t.val * 10000 + r.val, by have := t_lt0 t; omega⟩ d) := by
  obtain ⟨e0a, e0b, e1a, e1b, e2a, e2b, e3, e4, e5, e6, e7, e8a, e8b, e9, e10a, e10b⟩ := idx0 t
  show V c main_v9 (((cfg0.win 1).blk t).view.emb (ix2 r d)) = _
  refine congrArg (V c main_v9) (funext fun a => Fin.ext ?_)
  match a with
  | ⟨0, _⟩ => show win0_1.index t (0 : Fin 2) * 10000 + 1 * r.val = t.val * 10000 + r.val; omega
  | ⟨1, _⟩ => show win0_1.index t (1 : Fin 2) * 13 + 1 * d.val = d.val; omega

/-- Operand 2 has one block, the whole of its array. -/
theorem iblk0_2_eq (c : Dev nD) (t : Fin cfg0.N) : iblk0 V c 2 t = V c main_arg4 := by
  obtain ⟨e0a, e0b, e1a, e1b, e2a, e2b, e3, e4, e5, e6, e7, e8a, e8b, e9, e10a, e10b⟩ := idx0 t
  funext y
  show V c main_arg4 (((cfg0.win 2).blk t).view.emb y) = V c main_arg4 y
  refine congrArg (V c main_arg4) (funext fun a => Fin.ext ?_)
  match a with
  | ⟨0, _⟩ => show win0_2.index t (0 : Fin 2) * 13 + 1 * (y 0).val = (y 0).val; omega
  | ⟨1, _⟩ => show win0_2.index t (1 : Fin 2) * 64 + 1 * (y 1).val = (y 1).val; omega

/-- Operand 3 has one block, the whole of its array. -/
theorem iblk0_3_eq (c : Dev nD) (t : Fin cfg0.N) : iblk0 V c 3 t = V c main_arg5 := by
  obtain ⟨e0a, e0b, e1a, e1b, e2a, e2b, e3, e4, e5, e6, e7, e8a, e8b, e9, e10a, e10b⟩ := idx0 t
  funext y
  show V c main_arg5 (((cfg0.win 3).blk t).view.emb y) = V c main_arg5 y
  refine congrArg (V c main_arg5) (funext fun a => Fin.ext ?_)
  match a with
  | ⟨0, _⟩ => show win0_3.index t (0 : Fin 1) * 64 + 1 * (y 0).val = (y 0).val; omega

/-- Operand 4 has one block, the whole of its array. -/
theorem iblk0_4_eq (c : Dev nD) (t : Fin cfg0.N) : iblk0 V c 4 t = V c main_arg6 := by
  obtain ⟨e0a, e0b, e1a, e1b, e2a, e2b, e3, e4, e5, e6, e7, e8a, e8b, e9, e10a, e10b⟩ := idx0 t
  funext y
  show V c main_arg6 (((cfg0.win 4).blk t).view.emb y) = V c main_arg6 y
  refine congrArg (V c main_arg6) (funext fun a => Fin.ext ?_)
  match a with
  | ⟨0, _⟩ => show win0_4.index t (0 : Fin 1) * 64 + 1 * (y 0).val = (y 0).val; omega

/-- Operand 5 has one block, the whole of its array. -/
theorem iblk0_5_eq (c : Dev nD) (t : Fin cfg0.N) : iblk0 V c 5 t = V c main_arg7 := by
  obtain ⟨e0a, e0b, e1a, e1b, e2a, e2b, e3, e4, e5, e6, e7, e8a, e8b, e9, e10a, e10b⟩ := idx0 t
  funext y
  show V c main_arg7 (((cfg0.win 5).blk t).view.emb y) = V c main_arg7 y
  refine congrArg (V c main_arg7) (funext fun a => Fin.ext ?_)
  match a with
  | ⟨0, _⟩ => show win0_5.index t (0 : Fin 1) * 64 + 1 * (y 0).val = (y 0).val; omega

/-- Operand 6 has one block, the whole of its array. -/
theorem iblk0_6_eq (c : Dev nD) (t : Fin cfg0.N) : iblk0 V c 6 t = V c main_arg8 := by
  obtain ⟨e0a, e0b, e1a, e1b, e2a, e2b, e3, e4, e5, e6, e7, e8a, e8b, e9, e10a, e10b⟩ := idx0 t
  funext y
  show V c main_arg8 (((cfg0.win 6).blk t).view.emb y) = V c main_arg8 y
  refine congrArg (V c main_arg8) (funext fun a => Fin.ext ?_)
  match a with
  | ⟨0, _⟩ => show win0_6.index t (0 : Fin 1) * 64 + 1 * (y 0).val = (y 0).val; omega

/-- Operand 7 has one block, the whole of its array. -/
theorem iblk0_7_eq (c : Dev nD) (t : Fin cfg0.N) : iblk0 V c 7 t = V c main_arg9 := by
  obtain ⟨e0a, e0b, e1a, e1b, e2a, e2b, e3, e4, e5, e6, e7, e8a, e8b, e9, e10a, e10b⟩ := idx0 t
  funext y
  show V c main_arg9 (((cfg0.win 7).blk t).view.emb y) = V c main_arg9 y
  refine congrArg (V c main_arg9) (funext fun a => Fin.ext ?_)
  match a with
  | ⟨0, _⟩ => show win0_7.index t (0 : Fin 1) * 64 + 1 * (y 0).val = (y 0).val; omega

/-- Operand 8 has one block, the whole of its array. -/
theorem iblk0_8_eq (c : Dev nD) (t : Fin cfg0.N) : iblk0 V c 8 t = V c main_arg10 := by
  obtain ⟨e0a, e0b, e1a, e1b, e2a, e2b, e3, e4, e5, e6, e7, e8a, e8b, e9, e10a, e10b⟩ := idx0 t
  funext y
  show V c main_arg10 (((cfg0.win 8).blk t).view.emb y) = V c main_arg10 y
  refine congrArg (V c main_arg10) (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- Operand 9 has one block, the whole of its array. -/
theorem iblk0_9_eq (c : Dev nD) (t : Fin cfg0.N) : iblk0 V c 9 t = V c main_arg11 := by
  obtain ⟨e0a, e0b, e1a, e1b, e2a, e2b, e3, e4, e5, e6, e7, e8a, e8b, e9, e10a, e10b⟩ := idx0 t
  funext y
  show V c main_arg11 (((cfg0.win 9).blk t).view.emb y) = V c main_arg11 y
  refine congrArg (V c main_arg11) (funext fun a => Fin.ext ?_)
  match a with
  | ⟨0, _⟩ => show win0_9.index t (0 : Fin 1) * 64 + 1 * (y 0).val = (y 0).val; omega

set_option maxHeartbeats 1000000 in
/-- WHAT POINT `t` WRITES BACK: rows `10000·t …` of the layer's whole output matrix of the arrays as the launch finds them. -/
theorem flushed0_eq (c : Dev nD) (t : Fin cfg0.N) :
    (dat0 V c).flushed 10 t = ((cfg0.win 10).blk t).view.read (Elt Ideal) (Gin.mlp13 (V c main_arg0) (V c main_v9) (V c main_arg4) (V c main_arg5) (V c main_arg6) (V c main_arg7) (V c main_arg8) (V c main_arg9) (V c main_arg10) (V c main_arg11)) := by
  show (cfg0.win 10).cut (grid0.coords t) ((dat0 V c).after 10 t) = _
  rw [after0_10]
  unfold out0_10
  rw [View.canon_unit_zero hz2_0]
  simp only [View.ld_unit_zero (S := S10000x13) hz2_0, View.ld_unit_zero (S := S13x64) hz2_0, View.ld_unit_zero (S := S64) hz1_0, View.ld_unit_zero (S := S64x64) hz2_0]
  rw [iblk0_2_eq, iblk0_3_eq, iblk0_4_eq, iblk0_5_eq, iblk0_6_eq, iblk0_7_eq, iblk0_8_eq, iblk0_9_eq]
  obtain ⟨e0a, e0b, e1a, e1b, e2a, e2b, e3, e4, e5, e6, e7, e8a, e8b, e9, e10a, e10b⟩ := idx0 t
  funext j
  obtain ⟨r, q, rfl⟩ : ∃ (r : Fin 10000) (q : Fin 64), j = ix2 r q := ⟨j 0, j 1, eq_ix2 j⟩
  have hemb : ((cfg0.win 10).blk t).view.emb (ix2 r q) = ix2 ⟨t.val * 10000 + r.val, by have := t_lt0 t; omega⟩ q :=
    funext fun a => Fin.ext (by
      match a with
      | ⟨0, _⟩ => show win0_10.index t (0 : Fin 2) * 10000 + 1 * r.val = t.val * 10000 + r.val; omega
      | ⟨1, _⟩ => show win0_10.index t (1 : Fin 2) * 64 + 1 * q.val = q.val; omega)
  show k0_pay1 (k0_pay2 (iblk0 V c 0 t) (iblk0 V c 1 t) (V c main_arg4) (V c main_arg5) (V c main_arg8) (V c main_arg9)
      (V c main_arg6) (V c main_arg7) (V c main_arg10) (V c main_arg11)) (ix2 r q)
    = Gin.mlp13 (V c main_arg0) (V c main_v9) (V c main_arg4) (V c main_arg5) (V c main_arg6) (V c main_arg7) (V c main_arg8) (V c main_arg9) (V c main_arg10) (V c main_arg11) (((cfg0.win 10).blk t).view.emb (ix2 r q))
  rw [hemb]
  refine (PayValue.pay0_at (iblk0 V c 0 t) (iblk0 V c 1 t) (V c main_arg4) (V c main_arg5) (V c main_arg6) (V c main_arg7)
    (V c main_arg8) (V c main_arg9) (V c main_arg10) (V c main_arg11) r q).trans ?_
  show _ = Gin.mlp13At (V c main_arg0) (V c main_v9) (V c main_arg4) (V c main_arg5) (V c main_arg6) (V c main_arg7) (V c main_arg8) (V c main_arg9) (V c main_arg10) (V c main_arg11) ⟨t.val * 10000 + r.val, by have := t_lt0 t; omega⟩ q
  rw [Gin.mlp13At_rows]
  simp only [iblk0_0_at, iblk0_1_at]

/-- An entry of the output matrix is in point `t`'s block iff each coordinate is in the block's range on its axis. -/
theorem mem_blk0 (t : Fin cfg0.N) (i : S100000x64.Idx) :
    i ∈ ((cfg0.win 10).blk t).view.set ↔ ∀ a : Fin 2, win0_10.index t a * S10000x64.size a ≤ (i a).val
      ∧ (i a).val < win0_10.index t a * S10000x64.size a + S10000x64.size a := by
  show i ∈ ((View.whole main_v10).slice (win0_10.rect t)).set ↔ _
  rw [View.set_slice_whole, Rect.mem_set_unit]
  exact Iff.rfl

/-- The ten row blocks tile the output matrix: row `p` is in block `p / 10000`. -/
theorem cover0 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hN : (i 0).val / 10000 < cfg0.N := by show _ < grid0.N; rw [N_0]; omega
  refine ⟨⟨(i 0).val / 10000, hN⟩, flush0_10 _, ?_⟩
  rw [mem_blk0]
  obtain ⟨e0a, e0b, e1a, e1b, e2a, e2b, e3, e4, e5, e6, e7, e8a, e8b, e9, e10a, e10b⟩ := idx0 ⟨(i 0).val / 10000, hN⟩
  intro a
  match a with
  | ⟨0, _⟩ =>
    show win0_10.index ⟨(i 0).val / 10000, hN⟩ (0 : Fin 2) * 10000 ≤ (i 0).val
      ∧ (i 0).val < win0_10.index ⟨(i 0).val / 10000, hN⟩ (0 : Fin 2) * 10000 + 10000
    rw [e10a]; show (i 0).val / 10000 * 10000 ≤ (i 0).val ∧ (i 0).val < (i 0).val / 10000 * 10000 + 10000; omega
  | ⟨1, _⟩ =>
    show win0_10.index ⟨(i 0).val / 10000, hN⟩ (1 : Fin 2) * 64 ≤ (i 1).val
      ∧ (i 1).val < win0_10.index ⟨(i 0).val / 10000, hN⟩ (1 : Fin 2) * 64 + 64
    rw [e10b]; omega

/-- THE OUTPUT ARRAY after the launch is the layer's whole output matrix. -/
theorem final0 (c : Dev nD) : (dat0 V c).arrAt 10 cfg0.N = Gin.mlp13 (V c main_arg0) (V c main_v9) (V c main_arg4) (V c main_arg5) (V c main_arg6) (V c main_arg7) (V c main_arg8) (V c main_arg9) (V c main_arg10) (V c main_arg11) :=
  (dat0 V c).arrAt_eq_of_cover 10 _ (fun t _ => flushed0_eq V c t) (cover0)

end Cert.KernelIdeal.Hand

end
-- ==== Proof.KI.Pay1.lean ====
import proofs.«143938_j66159676227906_1_alg».proof.Proof.Gen.KernelIdeal.Skeleton
import proofs.«143938_j66159676227906_1_alg».proof.Proof.SpecRows
import proofs.«143938_j66159676227906_1_alg».proof.Proof.KI.PayLayout
import Idealize.ShloMosaic.Lib.ValueIdx
import Idealize.ShloMosaic.Lib.ValueLayout
import Idealize.ShloMosaic.Lib.Pipeline.Value
import Idealize.ShloMosaic.PureOps.Ideal.Laws

/-!
# The second layer's body at one entry of its block

The same chain as the first layer on 64 input features: the node-feature block plus the neighbour-sum block, a linear map,
the fixed normalisation, a rectifier, a second linear map with its bias, a rectifier. At entry `(r, q)` of the block this
is the row function of row `r` of the two input blocks.
-/

noncomputable section

namespace Cert.KernelIdeal.PayValue

open Cert.KernelIdeal Cert.KernelIdeal.Gen
open Idealize.ShloMosaic Idealize.ShloMosaic.ValueIdx

/-- The stored block of the second layer at entry `(r, q)`: the layer's row function of row `r` of the feature block `x0`
    and of the neighbour-sum block `x1`, with weights `x2`, `x8`, biases `x3`, `x9`, scale `x4`, shift `x5`, mean `x6`,
    variance `x7`. -/
theorem pay1_at (x0 x1 : Vec Ideal S10000x64 .f32) (x2 : Vec Ideal S64x64 .f32) (x3 x4 x5 x6 x7 : Vec Ideal S64 .f32)
    (x8 : Vec Ideal S64x64 .f32) (x9 : Vec Ideal S64 .f32) (r : Fin 10000) (q : Fin 64) :
    k1_pay1 (k1_pay2 x0 x1 x2 x3 x6 x7 x4 x5 x8) (k1_pay3 x9) (ix2 r q)
      = Gin.outRow (fun k => Gin.hidRow64 (fun d => x0 (ix2 r d)) (fun d => x1 (ix2 r d)) x2 x3 x4 x5 x6 x7 k) x8 x9 q := by
  unfold k1_pay1 k1_pay2 k1_pay3 Gin.outRow Gin.hidRow64 Gin.zeroW Gin.epsW
  simp only [truncf_apply, maximumf_apply, addf_apply, subf_apply, mulf_apply, broadcast_apply, rsqrt_at, mm64_at, biasRow64_at, shapeCast_self]
  rfl

end Cert.KernelIdeal.PayValue

end
-- ==== Proof.KI.Final1.lean ====
import proofs.«143938_j66159676227906_1_alg».proof.Proof.KI.Data
import proofs.«143938_j66159676227906_1_alg».proof.Proof.KI.Pay1

/-!
# From the second layer's ten row blocks to its whole output matrix

Grid point `t` sees rows `10000·t … 10000·t + 9999` of the node features and of the neighbour sums, and the whole of every
weight, bias and statistic. What it writes back is therefore rows `10000·t …` of the layer's whole output matrix; the
ten blocks tile the matrix, so after the launch the output array IS that matrix.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- Where each operand's block sits at grid point `t`: the two row-blocked inputs and the output at row block `t`,
    every other operand at its one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (0 : Fin 1) = 0 ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0 :=
  (by decide +kernel : ∀ t : Fin grid1.N, _)

theorem t_lt1 (t : Fin cfg1.N) : t.val < 10 := lt_of_lt_of_eq t.isLt N_1

/-- Entry `(r, d)` of operand 0's block at point `t` is entry `(10000·t + r, d)` of its array. -/
theorem iblk1_0_at (c : Dev nD) (t : Fin cfg1.N) (r : Fin 10000) (d : Fin 64) :
    iblk1 V c 0 t (ix2 r d) = V c main_v10 (ix2 ⟨t.val * 10000 + r.val, by have := t_lt1 t; omega⟩ d) := by
  obtain ⟨e0a, e0b, e1a, e1b, e2a, e2b, e3, e4, e5, e6, e7, e8a, e8b, e9, e10a, e10b⟩ := idx1 t
  show V c main_v10 (((cfg1.win 0).blk t).view.emb (ix2 r d)) = _
  refine congrArg (V c main_v10) (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * d.val = d.val; omega

/-- Entry `(r, d)` of operand 1's block at point `t` is entry `(10000·t + r, d)` of its array. -/
theorem iblk1_1_at (c : Dev nD) (t : Fin cfg1.N) (r : Fin 10000) (d : Fin 64) :
    iblk1 V c 1 t (ix2 r d) = V c main_v20 (ix2 ⟨t.val * 10000 + r.val, by have := t_lt1 t; omega⟩ d) := by
  obtain ⟨e0a, e0b, e1a, e1b, e2a, e2b, e3, e4, e5, e6, e7, e8a, e8b, e9, e10a, e10b⟩ := idx1 t
  show V c main_v20 (((cfg1.win 1).blk t).view.emb (ix2 r d)) = _
  refine congrArg (V c main_v20) (funext fun a => Fin.ext ?_)
  match a with
  | ⟨0, _⟩ => show win1_1.index t (0 : Fin 2) * 10000 + 1 * r.val = t.val * 10000 + r.val; omega
  | ⟨1, _⟩ => show win1_1.index t (1 : Fin 2) * 64 + 1 * d.val = d.val; omega

/-- Operand 2 has one block, the whole of its array. -/
theorem iblk1_2_eq (c : Dev nD) (t : Fin cfg1.N) : iblk1 V c 2 t = V c main_arg12 := by
  obtain ⟨e0a, e0b, e1a, e1b, e2a, e2b, e3, e4, e5, e6, e7, e8a, e8b, e9, e10a, e10b⟩ := idx1 t
  funext y
  show V c main_arg12 (((cfg1.win 2).blk t).view.emb y) = V c main_arg12 y
  refine congrArg (V c main_arg12) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Operand 3 has one block, the whole of its array. -/
theorem iblk1_3_eq (c : Dev nD) (t : Fin cfg1.N) : iblk1 V c 3 t = V c main_arg13 := by
  obtain ⟨e0a, e0b, e1a, e1b, e2a, e2b, e3, e4, e5, e6, e7, e8a, e8b, e9, e10a, e10b⟩ := idx1 t
  funext y
  show V c main_arg13 (((cfg1.win 3).blk t).view.emb y) = V c main_arg13 y
  refine congrArg (V c main_arg13) (funext fun a => Fin.ext ?_)
  match a with
  | ⟨0, _⟩ => show win1_3.index t (0 : Fin 1) * 64 + 1 * (y 0).val = (y 0).val; omega

/-- Operand 4 has one block, the whole of its array. -/
theorem iblk1_4_eq (c : Dev nD) (t : Fin cfg1.N) : iblk1 V c 4 t = V c main_arg14 := by
  obtain ⟨e0a, e0b, e1a, e1b, e2a, e2b, e3, e4, e5, e6, e7, e8a, e8b, e9, e10a, e10b⟩ := idx1 t
  funext y
  show V c main_arg14 (((cfg1.win 4).blk t).view.emb y) = V c main_arg14 y
  refine congrArg (V c main_arg14) (funext fun a => Fin.ext ?_)
  match a with
  | ⟨0, _⟩ => show win1_4.index t (0 : Fin 1) * 64 + 1 * (y 0).val = (y 0).val; omega

/-- Operand 5 has one block, the whole of its array. -/
theorem iblk1_5_eq (c : Dev nD) (t : Fin cfg1.N) : iblk1 V c 5 t = V c main_arg15 := by
  obtain ⟨e0a, e0b, e1a, e1b, e2a, e2b, e3, e4, e5, e6, e7, e8a, e8b, e9, e10a, e10b⟩ := idx1 t
  funext y
  show V c main_arg15 (((cfg1.win 5).blk t).view.emb y) = V c main_arg15 y
  refine congrArg (V c main_arg15) (funext fun a => Fin.ext ?_)
  match a with
  | ⟨0, _⟩ => show win1_5.index t (0 : Fin 1) * 64 + 1 * (y 0).val = (y 0).val; omega

/-- Operand 6 has one block, the whole of its array. -/
theorem iblk1_6_eq (c : Dev nD) (t : Fin cfg1.N) : iblk1 V c 6 t = V c main_arg16 := by
  obtain ⟨e0a, e0b, e1a, e1b, e2a, e2b, e3, e4, e5, e6, e7, e8a, e8b, e9, e10a, e10b⟩ := idx1 t
  funext y
  show V c main_arg16 (((cfg1.win 6).blk t).view.emb y) = V c main_arg16 y
  refine congrArg (V c main_arg16) (funext fun a => Fin.ext ?_)
  match a with
  | ⟨0, _⟩ => show win1_6.index t (0 : Fin 1) * 64 + 1 * (y 0).val = (y 0).val; omega

/-- Operand 7 has one block, the whole of its array. -/
theorem iblk1_7_eq (c : Dev nD) (t : Fin cfg1.N) : iblk1 V c 7 t = V c main_arg17 := by
  obtain ⟨e0a, e0b, e1a, e1b, e2a, e2b, e3, e4, e5, e6, e7, e8a, e8b, e9, e10a, e10b⟩ := idx1 t
  funext y
  show V c main_arg17 (((cfg1.win 7).blk t).view.emb y) = V c main_arg17 y
  refine congrArg (V c main_arg17) (funext fun a => Fin.ext ?_)
  match a with
  | ⟨0, _⟩ => show win1_7.index t (0 : Fin 1) * 64 + 1 * (y 0).val = (y 0).val; omega

/-- Operand 8 has one block, the whole of its array. -/
theorem iblk1_8_eq (c : Dev nD) (t : Fin cfg1.N) : iblk1 V c 8 t = V c main_arg18 := by
  obtain ⟨e0a, e0b, e1a, e1b, e2a, e2b, e3, e4, e5, e6, e7, e8a, e8b, e9, e10a, e10b⟩ := idx1 t
  funext y
  show V c main_arg18 (((cfg1.win 8).blk t).view.emb y) = V c main_arg18 y
  refine congrArg (V c main_arg18) (funext fun a => Fin.ext ?_)
  match a with
  | ⟨0, _⟩ => show win1_8.index t (0 : Fin 2) * 64 + 1 * (y 0).val = (y 0).val; omega
  | ⟨1, _⟩ => show win1_8.index t (1 : Fin 2) * 64 + 1 * (y 1).val = (y 1).val; omega

/-- Operand 9 has one block, the whole of its array. -/
theorem iblk1_9_eq (c : Dev nD) (t : Fin cfg1.N) : iblk1 V c 9 t = V c main_arg19 := by
  obtain ⟨e0a, e0b, e1a, e1b, e2a, e2b, e3, e4, e5, e6, e7, e8a, e8b, e9, e10a, e10b⟩ := idx1 t
  funext y
  show V c main_arg19 (((cfg1.win 9).blk t).view.emb y) = V c main_arg19 y
  refine congrArg (V c main_arg19) (funext fun a => Fin.ext ?_)
  match a with
  | ⟨0, _⟩ => show win1_9.index t (0 : Fin 1) * 64 + 1 * (y 0).val = (y 0).val; omega

set_option maxHeartbeats 1000000 in
/-- WHAT POINT `t` WRITES BACK: rows `10000·t …` of the layer's whole output matrix of the arrays as the launch finds them. -/
theorem flushed1_eq (c : Dev nD) (t : Fin cfg1.N) :
    (dat1 V c).flushed 10 t = ((cfg1.win 10).blk t).view.read (Elt Ideal) (Gin.mlp64 (V c main_v10) (V c main_v20) (V c main_arg12) (V c main_arg13) (V c main_arg14) (V c main_arg15) (V c main_arg16) (V c main_arg17) (V c main_arg18) (V c main_arg19)) := by
  show (cfg1.win 10).cut (grid1.coords t) ((dat1 V c).after 10 t) = _
  rw [after1_10]
  unfold out1_10
  rw [View.canon_unit_zero hz2_1]
  simp only [View.ld_unit_zero (S := S10000x64) hz2_1, View.ld_unit_zero (S := S64x64) hz2_1, View.ld_unit_zero (S := S64) hz1_1]
  rw [iblk1_2_eq, iblk1_3_eq, iblk1_4_eq, iblk1_5_eq, iblk1_6_eq, iblk1_7_eq, iblk1_8_eq, iblk1_9_eq]
  obtain ⟨e0a, e0b, e1a, e1b, e2a, e2b, e3, e4, e5, e6, e7, e8a, e8b, e9, e10a, e10b⟩ := idx1 t
  funext j
  obtain ⟨r, q, rfl⟩ : ∃ (r : Fin 10000) (q : Fin 64), j = ix2 r q := ⟨j 0, j 1, eq_ix2 j⟩
  have hemb : ((cfg1.win 10).blk t).view.emb (ix2 r q) = ix2 ⟨t.val * 10000 + r.val, by have := t_lt1 t; omega⟩ q :=
    funext fun a => Fin.ext (by
      match a with
      | ⟨0, _⟩ => show win1_10.index t (0 : Fin 2) * 10000 + 1 * r.val = t.val * 10000 + r.val; omega
      | ⟨1, _⟩ => show win1_10.index t (1 : Fin 2) * 64 + 1 * q.val = q.val; omega)
  show k1_pay1 (k1_pay2 (iblk1 V c 0 t) (iblk1 V c 1 t) (V c main_arg12) (V c main_arg13) (V c main_arg16) (V c main_arg17)
      (V c main_arg14) (V c main_arg15) (V c main_arg18)) (k1_pay3 (V c main_arg19)) (ix2 r q)
    = Gin.mlp64 (V c main_v10) (V c main_v20) (V c main_arg12) (V c main_arg13) (V c main_arg14) (V c main_arg15) (V c main_arg16) (V c main_arg17) (V c main_arg18) (V c main_arg19) (((cfg1.win 10).blk t).view.emb (ix2 r q))
  rw [hemb]
  refine (PayValue.pay1_at (iblk1 V c 0 t) (iblk1 V c 1 t) (V c main_arg12) (V c main_arg13) (V c main_arg14) (V c main_arg15)
    (V c main_arg16) (V c main_arg17) (V c main_arg18) (V c main_arg19) r q).trans ?_
  show _ = Gin.mlp64At (V c main_v10) (V c main_v20) (V c main_arg12) (V c main_arg13) (V c main_arg14) (V c main_arg15) (V c main_arg16) (V c main_arg17) (V c main_arg18) (V c main_arg19) ⟨t.val * 10000 + r.val, by have := t_lt1 t; omega⟩ q
  rw [Gin.mlp64At_rows]
  simp only [iblk1_0_at, iblk1_1_at]

/-- An entry of the output matrix is in point `t`'s block iff each coordinate is in the block's range on its axis. -/
theorem mem_blk1 (t : Fin cfg1.N) (i : S100000x64.Idx) :
    i ∈ ((cfg1.win 10).blk t).view.set ↔ ∀ a : Fin 2, win1_10.index t a * S10000x64.size a ≤ (i a).val
      ∧ (i a).val < win1_10.index t a * S10000x64.size a + S10000x64.size a := by
  show i ∈ ((View.whole main_v21).slice (win1_10.rect t)).set ↔ _
  rw [View.set_slice_whole, Rect.mem_set_unit]
  exact Iff.rfl

/-- The ten row blocks tile the output matrix: row `p` is in block `p / 10000`. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN : (i 0).val / 10000 < cfg1.N := by show _ < grid1.N; rw [N_1]; omega
  refine ⟨⟨(i 0).val / 10000, hN⟩, flush1_10 _, ?_⟩
  rw [mem_blk1]
  obtain ⟨e0a, e0b, e1a, e1b, e2a, e2b, e3, e4, e5, e6, e7, e8a, e8b, e9, e10a, e10b⟩ := idx1 ⟨(i 0).val / 10000, hN⟩
  intro a
  match a with
  | ⟨0, _⟩ =>
    show win1_10.index ⟨(i 0).val / 10000, hN⟩ (0 : Fin 2) * 10000 ≤ (i 0).val
      ∧ (i 0).val < win1_10.index ⟨(i 0).val / 10000, hN⟩ (0 : Fin 2) * 10000 + 10000
    rw [e10a]; show (i 0).val / 10000 * 10000 ≤ (i 0).val ∧ (i 0).val < (i 0).val / 10000 * 10000 + 10000; omega
  | ⟨1, _⟩ =>
    show win1_10.index ⟨(i 0).val / 10000, hN⟩ (1 : Fin 2) * 64 ≤ (i 1).val
      ∧ (i 1).val < win1_10.index ⟨(i 0).val / 10000, hN⟩ (1 : Fin 2) * 64 + 64
    rw [e10b]; omega

/-- THE OUTPUT ARRAY after the launch is the layer's whole output matrix. -/
theorem final1 (c : Dev nD) : (dat1 V c).arrAt 10 cfg1.N = Gin.mlp64 (V c main_v10) (V c main_v20) (V c main_arg12) (V c main_arg13) (V c main_arg14) (V c main_arg15) (V c main_arg16) (V c main_arg17) (V c main_arg18) (V c main_arg19) :=
  (dat1 V c).arrAt_eq_of_cover 10 _ (fun t _ => flushed1_eq V c t) (cover1)

end Cert.KernelIdeal.Hand

end
-- ==== Proof.KI.Pay2.lean ====
import proofs.«143938_j66159676227906_1_alg».proof.Proof.Gen.KernelIdeal.Skeleton
import proofs.«143938_j66159676227906_1_alg».proof.Proof.SpecRows
import proofs.«143938_j66159676227906_1_alg».proof.Proof.KI.PayLayout
import Idealize.ShloMosaic.Lib.ValueIdx
import Idealize.ShloMosaic.Lib.ValueLayout
import Idealize.ShloMosaic.Lib.Pipeline.Value
import Idealize.ShloMosaic.PureOps.Ideal.Laws

/-!
# The third layer's body at one entry of its block

The same chain as the first layer on 64 input features: the node-feature block plus the neighbour-sum block, a linear map,
the fixed normalisation, a rectifier, a second linear map with its bias, a rectifier. At entry `(r, q)` of the block this
is the row function of row `r` of the two input blocks.
-/

noncomputable section

namespace Cert.KernelIdeal.PayValue

open Cert.KernelIdeal Cert.KernelIdeal.Gen
open Idealize.ShloMosaic Idealize.ShloMosaic.ValueIdx

/-- The stored block of the third layer at entry `(r, q)`: the layer's row function of row `r` of the feature block `x0`
    and of the neighbour-sum block `x1`, with weights `x2`, `x8`, biases `x3`, `x9`, scale `x4`, shift `x5`, mean `x6`,
    variance `x7`. -/
theorem pay2_at (x0 x1 : Vec Ideal S10000x64 .f32) (x2 : Vec Ideal S64x64 .f32) (x3 x4 x5 x6 x7 : Vec Ideal S64 .f32)
    (x8 : Vec Ideal S64x64 .f32) (x9 : Vec Ideal S64 .f32) (r : Fin 10000) (q : Fin 64) :
    k2_pay1 (k2_pay2 x0 x1 x2 x3 x6 x7 x4 x5 x8) (k2_pay3 x9) (ix2 r q)
      = Gin.outRow (fun k => Gin.hidRow64 (fun d => x0 (ix2 r d)) (fun d => x1 (ix2 r d)) x2 x3 x4 x5 x6 x7 k) x8 x9 q := by
  unfold k2_pay1 k2_pay2 k2_pay3 Gin.outRow Gin.hidRow64 Gin.zeroW Gin.epsW
  simp only [truncf_apply, maximumf_apply, addf_apply, subf_apply, mulf_apply, broadcast_apply, rsqrt_at, mm64_at, biasRow64_at, shapeCast_self]
  rfl

end Cert.KernelIdeal.PayValue

end
-- ==== Proof.KI.Final2.lean ====
import proofs.«143938_j66159676227906_1_alg».proof.Proof.KI.Data
import proofs.«143938_j66159676227906_1_alg».proof.Proof.KI.Pay2

/-!
# From the third layer's ten row blocks to its whole output matrix

Grid point `t` sees rows `10000·t … 10000·t + 9999` of the node features and of the neighbour sums, and the whole of every
weight, bias and statistic. What it writes back is therefore rows `10000·t …` of the layer's whole output matrix; the
ten blocks tile the matrix, so after the launch the output array IS that matrix.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a; rfl

/-- Where each operand's block sits at grid point `t`: the two row-blocked inputs and the output at row block `t`,
    every other operand at its one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (0 : Fin 1) = 0 ∧ win2_7.index t (0 : Fin 1) = 0
    ∧ win2_8.index t (0 : Fin 2) = 0 ∧ win2_8.index t (1 : Fin 2) = 0
    ∧ win2_9.index t (0 : Fin 1) = 0
    ∧ win2_10.index t (0 : Fin 2) = t.val ∧ win2_10.index t (1 : Fin 2) = 0 :=
  (by decide +kernel : ∀ t : Fin grid2.N, _)

theorem t_lt2 (t : Fin cfg2.N) : t.val < 10 := lt_of_lt_of_eq t.isLt N_2

/-- Entry `(r, d)` of operand 0's block at point `t` is entry `(10000·t + r, d)` of its array. -/
theorem iblk2_0_at (c : Dev nD) (t : Fin cfg2.N) (r : Fin 10000) (d : Fin 64) :
    iblk2 V c 0 t (ix2 r d) = V c main_v21 (ix2 ⟨t.val * 10000 + r.val, by have := t_lt2 t; omega⟩ d) := by
  obtain ⟨e0a, e0b, e1a, e1b, e2a, e2b, e3, e4, e5, e6, e7, e8a, e8b, e9, e10a, e10b⟩ := idx2 t
  show V c main_v21 (((cfg2.win 0).blk t).view.emb (ix2 r d)) = _
  refine congrArg (V c main_v21) (funext fun a => Fin.ext ?_)
  match a with
  | ⟨0, _⟩ => show win2_0.index t (0 : Fin 2) * 10000 + 1 * r.val = t.val * 10000 + r.val; omega
  | ⟨1, _⟩ => show win2_0.index t (1 : Fin 2) * 64 + 1 * d.val = d.val; omega

/-- Entry `(r, d)` of operand 1's block at point `t` is entry `(10000·t + r, d)` of its array. -/
theorem iblk2_1_at (c : Dev nD) (t : Fin cfg2.N) (r : Fin 10000) (d : Fin 64) :
    iblk2 V c 1 t (ix2 r d) = V c main_v31 (ix2 ⟨t.val * 10000 + r.val, by have := t_lt2 t; omega⟩ d) := by
  obtain ⟨e0a, e0b, e1a, e1b, e2a, e2b, e3, e4, e5, e6, e7, e8a, e8b, e9, e10a, e10b⟩ := idx2 t
  show V c main_v31 (((cfg2.win 1).blk t).view.emb (ix2 r d)) = _
  refine congrArg (V c main_v31) (funext fun a => Fin.ext ?_)
  match a with
  | ⟨0, _⟩ => show win2_1.index t (0 : Fin 2) * 10000 + 1 * r.val = t.val * 10000 + r.val; omega
  | ⟨1, _⟩ => show win2_1.index t (1 : Fin 2) * 64 + 1 * d.val = d.val; omega

/-- Operand 2 has one block, the whole of its array. -/
theorem iblk2_2_eq (c : Dev nD) (t : Fin cfg2.N) : iblk2 V c 2 t = V c main_arg20 := by
  obtain ⟨e0a, e0b, e1a, e1b, e2a, e2b, e3, e4, e5, e6, e7, e8a, e8b, e9, e10a, e10b⟩ := idx2 t
  funext y
  show V c main_arg20 (((cfg2.win 2).blk t).view.emb y) = V c main_arg20 y
  refine congrArg (V c main_arg20) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Operand 3 has one block, the whole of its array. -/
theorem iblk2_3_eq (c : Dev nD) (t : Fin cfg2.N) : iblk2 V c 3 t = V c main_arg21 := by
  obtain ⟨e0a, e0b, e1a, e1b, e2a, e2b, e3, e4, e5, e6, e7, e8a, e8b, e9, e10a, e10b⟩ := idx2 t
  funext y
  show V c main_arg21 (((cfg2.win 3).blk t).view.emb y) = V c main_arg21 y
  refine congrArg (V c main_arg21) (funext fun a => Fin.ext ?_)
  match a with
  | ⟨0, _⟩ => show win2_3.index t (0 : Fin 1) * 64 + 1 * (y 0).val = (y 0).val; omega

/-- Operand 4 has one block, the whole of its array. -/
theorem iblk2_4_eq (c : Dev nD) (t : Fin cfg2.N) : iblk2 V c 4 t = V c main_arg22 := by
  obtain ⟨e0a, e0b, e1a, e1b, e2a, e2b, e3, e4, e5, e6, e7, e8a, e8b, e9, e10a, e10b⟩ := idx2 t
  funext y
  show V c main_arg22 (((cfg2.win 4).blk t).view.emb y) = V c main_arg22 y
  refine congrArg (V c main_arg22) (funext fun a => Fin.ext ?_)
  match a with
  | ⟨0, _⟩ => show win2_4.index t (0 : Fin 1) * 64 + 1 * (y 0).val = (y 0).val; omega

/-- Operand 5 has one block, the whole of its array. -/
theorem iblk2_5_eq (c : Dev nD) (t : Fin cfg2.N) : iblk2 V c 5 t = V c main_arg23 := by
  obtain ⟨e0a, e0b, e1a, e1b, e2a, e2b, e3, e4, e5, e6, e7, e8a, e8b, e9, e10a, e10b⟩ := idx2 t
  funext y
  show V c main_arg23 (((cfg2.win 5).blk t).view.emb y) = V c main_arg23 y
  refine congrArg (V c main_arg23) (funext fun a => Fin.ext ?_)
  match a with
  | ⟨0, _⟩ => show win2_5.index t (0 : Fin 1) * 64 + 1 * (y 0).val = (y 0).val; omega

/-- Operand 6 has one block, the whole of its array. -/
theorem iblk2_6_eq (c : Dev nD) (t : Fin cfg2.N) : iblk2 V c 6 t = V c main_arg24 := by
  obtain ⟨e0a, e0b, e1a, e1b, e2a, e2b, e3, e4, e5, e6, e7, e8a, e8b, e9, e10a, e10b⟩ := idx2 t
  funext y
  show V c main_arg24 (((cfg2.win 6).blk t).view.emb y) = V c main_arg24 y
  refine congrArg (V c main_arg24) (funext fun a => Fin.ext ?_)
  match a with
  | ⟨0, _⟩ => show win2_6.index t (0 : Fin 1) * 64 + 1 * (y 0).val = (y 0).val; omega

/-- Operand 7 has one block, the whole of its array. -/
theorem iblk2_7_eq (c : Dev nD) (t : Fin cfg2.N) : iblk2 V c 7 t = V c main_arg25 := by
  obtain ⟨e0a, e0b, e1a, e1b, e2a, e2b, e3, e4, e5, e6, e7, e8a, e8b, e9, e10a, e10b⟩ := idx2 t
  funext y
  show V c main_arg25 (((cfg2.win 7).blk t).view.emb y) = V c main_arg25 y
  refine congrArg (V c main_arg25) (funext fun a => Fin.ext ?_)
  match a with
  | ⟨0, _⟩ => show win2_7.index t (0 : Fin 1) * 64 + 1 * (y 0).val = (y 0).val; omega

/-- Operand 8 has one block, the whole of its array. -/
theorem iblk2_8_eq (c : Dev nD) (t : Fin cfg2.N) : iblk2 V c 8 t = V c main_arg26 := by
  obtain ⟨e0a, e0b, e1a, e1b, e2a, e2b, e3, e4, e5, e6, e7, e8a, e8b, e9, e10a, e10b⟩ := idx2 t
  funext y
  show V c main_arg26 (((cfg2.win 8).blk t).view.emb y) = V c main_arg26 y
  refine congrArg (V c main_arg26) (funext fun a => Fin.ext ?_)
  match a with
  | ⟨0, _⟩ => show win2_8.index t (0 : Fin 2) * 64 + 1 * (y 0).val = (y 0).val; omega
  | ⟨1, _⟩ => show win2_8.index t (1 : Fin 2) * 64 + 1 * (y 1).val = (y 1).val; omega

/-- Operand 9 has one block, the whole of its array. -/
theorem iblk2_9_eq (c : Dev nD) (t : Fin cfg2.N) : iblk2 V c 9 t = V c main_arg27 := by
  obtain ⟨e0a, e0b, e1a, e1b, e2a, e2b, e3, e4, e5, e6, e7, e8a, e8b, e9, e10a, e10b⟩ := idx2 t
  funext y
  show V c main_arg27 (((cfg2.win 9).blk t).view.emb y) = V c main_arg27 y
  refine congrArg (V c main_arg27) (funext fun a => Fin.ext ?_)
  match a with
  | ⟨0, _⟩ => show win2_9.index t (0 : Fin 1) * 64 + 1 * (y 0).val = (y 0).val; omega

set_option maxHeartbeats 1000000 in
/-- WHAT POINT `t` WRITES BACK: rows `10000·t …` of the layer's whole output matrix of the arrays as the launch finds them. -/
theorem flushed2_eq (c : Dev nD) (t : Fin cfg2.N) :
    (dat2 V c).flushed 10 t = ((cfg2.win 10).blk t).view.read (Elt Ideal) (Gin.mlp64 (V c main_v21) (V c main_v31) (V c main_arg20) (V c main_arg21) (V c main_arg22) (V c main_arg23) (V c main_arg24) (V c main_arg25) (V c main_arg26) (V c main_arg27)) := by
  show (cfg2.win 10).cut (grid2.coords t) ((dat2 V c).after 10 t) = _
  rw [after2_10]
  unfold out2_10
  rw [View.canon_unit_zero hz2_2]
  simp only [View.ld_unit_zero (S := S10000x64) hz2_2, View.ld_unit_zero (S := S64x64) hz2_2, View.ld_unit_zero (S := S64) hz1_2]
  rw [iblk2_2_eq, iblk2_3_eq, iblk2_4_eq, iblk2_5_eq, iblk2_6_eq, iblk2_7_eq, iblk2_8_eq, iblk2_9_eq]
  obtain ⟨e0a, e0b, e1a, e1b, e2a, e2b, e3, e4, e5, e6, e7, e8a, e8b, e9, e10a, e10b⟩ := idx2 t
  funext j
  obtain ⟨r, q, rfl⟩ : ∃ (r : Fin 10000) (q : Fin 64), j = ix2 r q := ⟨j 0, j 1, eq_ix2 j⟩
  have hemb : ((cfg2.win 10).blk t).view.emb (ix2 r q) = ix2 ⟨t.val * 10000 + r.val, by have := t_lt2 t; omega⟩ q :=
    funext fun a => Fin.ext (by
      match a with
      | ⟨0, _⟩ => show win2_10.index t (0 : Fin 2) * 10000 + 1 * r.val = t.val * 10000 + r.val; omega
      | ⟨1, _⟩ => show win2_10.index t (1 : Fin 2) * 64 + 1 * q.val = q.val; omega)
  show k2_pay1 (k2_pay2 (iblk2 V c 0 t) (iblk2 V c 1 t) (V c main_arg20) (V c main_arg21) (V c main_arg24) (V c main_arg25)
      (V c main_arg22) (V c main_arg23) (V c main_arg26)) (k2_pay3 (V c main_arg27)) (ix2 r q)
    = Gin.mlp64 (V c main_v21) (V c main_v31) (V c main_arg20) (V c main_arg21) (V c main_arg22) (V c main_arg23) (V c main_arg24) (V c main_arg25) (V c main_arg26) (V c main_arg27) (((cfg2.win 10).blk t).view.emb (ix2 r q))
  rw [hemb]
  refine (PayValue.pay2_at (iblk2 V c 0 t) (iblk2 V c 1 t) (V c main_arg20) (V c main_arg21) (V c main_arg22) (V c main_arg23)
    (V c main_arg24) (V c main_arg25) (V c main_arg26) (V c main_arg27) r q).trans ?_
  show _ = Gin.mlp64At (V c main_v21) (V c main_v31) (V c main_arg20) (V c main_arg21) (V c main_arg22) (V c main_arg23) (V c main_arg24) (V c main_arg25) (V c main_arg26) (V c main_arg27) ⟨t.val * 10000 + r.val, by have := t_lt2 t; omega⟩ q
  rw [Gin.mlp64At_rows]
  simp only [iblk2_0_at, iblk2_1_at]

/-- An entry of the output matrix is in point `t`'s block iff each coordinate is in the block's range on its axis. -/
theorem mem_blk2 (t : Fin cfg2.N) (i : S100000x64.Idx) :
    i ∈ ((cfg2.win 10).blk t).view.set ↔ ∀ a : Fin 2, win2_10.index t a * S10000x64.size a ≤ (i a).val
      ∧ (i a).val < win2_10.index t a * S10000x64.size a + S10000x64.size a := by
  show i ∈ ((View.whole main_v32).slice (win2_10.rect t)).set ↔ _
  rw [View.set_slice_whole, Rect.mem_set_unit]
  exact Iff.rfl

/-- The ten row blocks tile the output matrix: row `p` is in block `p / 10000`. -/
theorem cover2 (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  have hN : (i 0).val / 10000 < cfg2.N := by show _ < grid2.N; rw [N_2]; omega
  refine ⟨⟨(i 0).val / 10000, hN⟩, flush2_10 _, ?_⟩
  rw [mem_blk2]
  obtain ⟨e0a, e0b, e1a, e1b, e2a, e2b, e3, e4, e5, e6, e7, e8a, e8b, e9, e10a, e10b⟩ := idx2 ⟨(i 0).val / 10000, hN⟩
  intro a
  match a with
  | ⟨0, _⟩ =>
    show win2_10.index ⟨(i 0).val / 10000, hN⟩ (0 : Fin 2) * 10000 ≤ (i 0).val
      ∧ (i 0).val < win2_10.index ⟨(i 0).val / 10000, hN⟩ (0 : Fin 2) * 10000 + 10000
    rw [e10a]; show (i 0).val / 10000 * 10000 ≤ (i 0).val ∧ (i 0).val < (i 0).val / 10000 * 10000 + 10000; omega
  | ⟨1, _⟩ =>
    show win2_10.index ⟨(i 0).val / 10000, hN⟩ (1 : Fin 2) * 64 ≤ (i 1).val
      ∧ (i 1).val < win2_10.index ⟨(i 0).val / 10000, hN⟩ (1 : Fin 2) * 64 + 64
    rw [e10b]; omega

/-- THE OUTPUT ARRAY after the launch is the layer's whole output matrix. -/
theorem final2 (c : Dev nD) : (dat2 V c).arrAt 10 cfg2.N = Gin.mlp64 (V c main_v21) (V c main_v31) (V c main_arg20) (V c main_arg21) (V c main_arg22) (V c main_arg23) (V c main_arg24) (V c main_arg25) (V c main_arg26) (V c main_arg27) :=
  (dat2 V c).arrAt_eq_of_cover 10 _ (fun t _ => flushed2_eq V c t) (cover2)

end Cert.KernelIdeal.Hand

end
-- ==== Proof.KI.Pay3.lean ====
import proofs.«143938_j66159676227906_1_alg».proof.Proof.Gen.KernelIdeal.Skeleton
import proofs.«143938_j66159676227906_1_alg».proof.Proof.SpecRows
import proofs.«143938_j66159676227906_1_alg».proof.Proof.KI.PayLayout
import Idealize.ShloMosaic.Lib.ValueIdx
import Idealize.ShloMosaic.Lib.ValueLayout
import Idealize.ShloMosaic.Lib.Pipeline.Value
import Idealize.ShloMosaic.PureOps.Ideal.Laws

/-!
# The classifier's body at one entry

A linear map with its bias and a rectifier, a second linear map with its bias, then the row-wise log-softmax: subtract the
row's largest score, and subtract the logarithm of the row's sum of exponentials.
-/

noncomputable section

namespace Cert.KernelIdeal.PayValue

open Cert.KernelIdeal Cert.KernelIdeal.Gen
open Idealize.ShloMosaic Idealize.ShloMosaic.ValueIdx

/-- The row sum, whatever proofs of the side facts the term carries. -/
theorem rowSum_at' (src : FVec Ideal S512x2 .f32) (p : Fin 512) (h2 : FKind.Formats .f32)
    (h3 : (0x00000000#32 : BitVec FTy.f32.bits) = FKind.add.neutral .f32 h2) :
    multiReduction .add [1] S512 src 0x00000000#32 reduces_S512x2_S512 h2 h3 (ix1 p) = ∑ q : Fin 2, src (ix2 p q) :=
  rowSum_at src p

/-- The row maximum, whatever proofs of the side facts the term carries. -/
theorem rowMax_at' (src : FVec Ideal S512x2 .f32) (p : Fin 512) (h2 : FKind.Formats .f32)
    (h3 : (0xFF800000#32 : BitVec FTy.f32.bits) = FKind.maximumf.neutral .f32 h2) :
    multiReduction .maximumf [1] S512 src 0xFF800000#32 reduces_S512x2_S512 h2 h3 (ix1 p)
      = (Finset.univ : Finset (Fin 2)).fold max (Ideal.ofBits .f32 0xFF800000#32) (fun q => src (ix2 p q)) :=
  rowMax_at src p

/-- The classifier's stored block at entry `(p, q)` is the specification's log-softmax entry of the pooled features `x0`
    with weights `x1`, `x3` and biases `x2`, `x4`. -/
theorem pay3_at (x0 : Vec Ideal S512x192 .f32) (x1 : Vec Ideal S192x192 .f32) (x2 : Vec Ideal S192 .f32)
    (x3 : Vec Ideal S192x2 .f32) (x4 : Vec Ideal S2 .f32) (p : Fin 512) (q : Fin 2) :
    k3_pay1 x0 x1 x2 x3 x4 (ix2 p q) = Gin.clsAt x0 x1 x2 x3 x4 p q := by
  unfold k3_pay1 Gin.clsAt Gin.logSumExp Gin.shifted Gin.rowMax Gin.logit Gin.fc1 Gin.zeroW Gin.negInfW
  simp only [subf_apply, log_at, perRow_at, broadcastTo_a1_ab_at, shapeCast_a_a1_at]
  rw [rowSum_at]
  simp only [exp_at, subf_apply, perRow_at]
  rw [rowMax_at]
  simp only [truncf_apply, maximumf_apply, addf_apply, broadcast_apply, mm192_at, mm192x2_at, biasRow192_at, biasRow2_at,
    shapeCast_self]
  rfl

end Cert.KernelIdeal.PayValue

end
-- ==== Proof.KI.Final3.lean ====
import proofs.«143938_j66159676227906_1_alg».proof.Proof.KI.Data
import proofs.«143938_j66159676227906_1_alg».proof.Proof.KI.Pay3

/-!
# The classifier's one block is its whole output matrix

The classifier is launched at a single grid point that sees the whole of every operand, so what it writes back is the
whole matrix of log-probabilities.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a; rfl

/-- Every operand's one block is at block index zero on every axis. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-- Operand 0 has one block, the whole of its array. -/
theorem iblk3_0_eq (c : Dev nD) (t : Fin cfg3.N) : iblk3 V c 0 t = V c main_v42 := by
  obtain ⟨e0a, e0b, e1a, e1b, e2, e3a, e3b, e4, e5a, e5b⟩ := idx3 t
  funext y
  show V c main_v42 (((cfg3.win 0).blk t).view.emb y) = V c main_v42 y
  refine congrArg (V c main_v42) (funext fun a => Fin.ext ?_)
  match a with
  | ⟨0, _⟩ => show win3_0.index t (0 : Fin 2) * 512 + 1 * (y 0).val = (y 0).val; omega
  | ⟨1, _⟩ => show win3_0.index t (1 : Fin 2) * 192 + 1 * (y 1).val = (y 1).val; omega

/-- Operand 1 has one block, the whole of its array. -/
theorem iblk3_1_eq (c : Dev nD) (t : Fin cfg3.N) : iblk3 V c 1 t = V c main_arg28 := by
  obtain ⟨e0a, e0b, e1a, e1b, e2, e3a, e3b, e4, e5a, e5b⟩ := idx3 t
  funext y
  show V c main_arg28 (((cfg3.win 1).blk t).view.emb y) = V c main_arg28 y
  refine congrArg (V c main_arg28) (funext fun a => Fin.ext ?_)
  match a with
  | ⟨0, _⟩ => show win3_1.index t (0 : Fin 2) * 192 + 1 * (y 0).val = (y 0).val; omega
  | ⟨1, _⟩ => show win3_1.index t (1 : Fin 2) * 192 + 1 * (y 1).val = (y 1).val; omega

/-- Operand 2 has one block, the whole of its array. -/
theorem iblk3_2_eq (c : Dev nD) (t : Fin cfg3.N) : iblk3 V c 2 t = V c main_arg29 := by
  obtain ⟨e0a, e0b, e1a, e1b, e2, e3a, e3b, e4, e5a, e5b⟩ := idx3 t
  funext y
  show V c main_arg29 (((cfg3.win 2).blk t).view.emb y) = V c main_arg29 y
  refine congrArg (V c main_arg29) (funext fun a => Fin.ext ?_)
  match a with
  | ⟨0, _⟩ => show win3_2.index t (0 : Fin 1) * 192 + 1 * (y 0).val = (y 0).val; omega

/-- Operand 3 has one block, the whole of its array. -/
theorem iblk3_3_eq (c : Dev nD) (t : Fin cfg3.N) : iblk3 V c 3 t = V c main_arg30 := by
  obtain ⟨e0a, e0b, e1a, e1b, e2, e3a, e3b, e4, e5a, e5b⟩ := idx3 t
  funext y
  show V c main_arg30 (((cfg3.win 3).blk t).view.emb y) = V c main_arg30 y
  refine congrArg (V c main_arg30) (funext fun a => Fin.ext ?_)
  match a with
  | ⟨0, _⟩ => show win3_3.index t (0 : Fin 2) * 192 + 1 * (y 0).val = (y 0).val; omega
  | ⟨1, _⟩ => show win3_3.index t (1 : Fin 2) * 2 + 1 * (y 1).val = (y 1).val; omega

/-- Operand 4 has one block, the whole of its array. -/
theorem iblk3_4_eq (c : Dev nD) (t : Fin cfg3.N) : iblk3 V c 4 t = V c main_arg31 := by
  obtain ⟨e0a, e0b, e1a, e1b, e2, e3a, e3b, e4, e5a, e5b⟩ := idx3 t
  funext y
  show V c main_arg31 (((cfg3.win 4).blk t).view.emb y) = V c main_arg31 y
  refine congrArg (V c main_arg31) (funext fun a => Fin.ext ?_)
  match a with
  | ⟨0, _⟩ => show win3_4.index t (0 : Fin 1) * 2 + 1 * (y 0).val = (y 0).val; omega

set_option maxHeartbeats 1000000 in
/-- WHAT THE ONE POINT WRITES BACK: the whole matrix of log-probabilities of the arrays as the launch finds them. -/
theorem flushed3_eq (c : Dev nD) (t : Fin cfg3.N) :
    (dat3 V c).flushed 5 t = ((cfg3.win 5).blk t).view.read (Elt Ideal) (Gin.cls (V c main_v42) (V c main_arg28) (V c main_arg29) (V c main_arg30) (V c main_arg31)) := by
  show (cfg3.win 5).cut (grid3.coords t) ((dat3 V c).after 5 t) = _
  rw [after3_5]
  unfold out3_5
  rw [View.canon_unit_zero hz2_3]
  simp only [View.ld_unit_zero (S := S512x192) hz2_3, View.ld_unit_zero (S := S192x192) hz2_3, View.ld_unit_zero (S := S192) hz1_3, View.ld_unit_zero (S := S192x2) hz2_3, View.ld_unit_zero (S := S2) hz1_3]
  rw [iblk3_0_eq, iblk3_1_eq, iblk3_2_eq, iblk3_3_eq, iblk3_4_eq]
  obtain ⟨e0a, e0b, e1a, e1b, e2, e3a, e3b, e4, e5a, e5b⟩ := idx3 t
  funext j
  obtain ⟨p, q, rfl⟩ : ∃ (p : Fin 512) (q : Fin 2), j = ix2 p q := ⟨j 0, j 1, eq_ix2 j⟩
  have hemb : ((cfg3.win 5).blk t).view.emb (ix2 p q) = ix2 p q :=
    funext fun a => Fin.ext (by
      match a with
      | ⟨0, _⟩ => show win3_5.index t (0 : Fin 2) * 512 + 1 * p.val = p.val; omega
      | ⟨1, _⟩ => show win3_5.index t (1 : Fin 2) * 2 + 1 * q.val = q.val; omega)
  show k3_pay1 (V c main_v42) (V c main_arg28) (V c main_arg29) (V c main_arg30) (V c main_arg31) (ix2 p q) = Gin.cls (V c main_v42) (V c main_arg28) (V c main_arg29) (V c main_arg30) (V c main_arg31) (((cfg3.win 5).blk t).view.emb (ix2 p q))
  rw [hemb]
  exact PayValue.pay3_at (V c main_v42) (V c main_arg28) (V c main_arg29) (V c main_arg30) (V c main_arg31) p q

/-- An entry of the output matrix is in the point's block iff each coordinate is in the block's range on its axis. -/
theorem mem_blk3 (t : Fin cfg3.N) (i : S512x2.Idx) :
    i ∈ ((cfg3.win 5).blk t).view.set ↔ ∀ a : Fin 2, win3_5.index t a * S512x2.size a ≤ (i a).val
      ∧ (i a).val < win3_5.index t a * S512x2.size a + S512x2.size a := by
  show i ∈ ((View.whole main_v43).slice (win3_5.rect t)).set ↔ _
  rw [View.set_slice_whole, Rect.mem_set_unit]
  exact Iff.rfl

/-- The one block is the whole matrix. -/
theorem cover3 (i : S512x2.Idx) :
    ∃ t : Fin cfg3.N, (cfg3.win 5).flush t = true ∧ i ∈ ((cfg3.win 5).blk t).view.set := by
  have hi0 : (i 0).val < 512 := (i 0).isLt
  have hi1 : (i 1).val < 2 := (i 1).isLt
  refine ⟨t3_0, flush3_5 _, ?_⟩
  rw [mem_blk3]
  obtain ⟨e0a, e0b, e1a, e1b, e2, e3a, e3b, e4, e5a, e5b⟩ := idx3 t3_0
  intro a
  match a with
  | ⟨0, _⟩ =>
    show win3_5.index t3_0 (0 : Fin 2) * 512 ≤ (i 0).val ∧ (i 0).val < win3_5.index t3_0 (0 : Fin 2) * 512 + 512
    rw [e5a]; omega
  | ⟨1, _⟩ =>
    show win3_5.index t3_0 (1 : Fin 2) * 2 ≤ (i 1).val ∧ (i 1).val < win3_5.index t3_0 (1 : Fin 2) * 2 + 2
    rw [e5b]; omega

/-- THE OUTPUT ARRAY after the classifier's launch is the whole matrix of log-probabilities. -/
theorem final3 (c : Dev nD) : (dat3 V c).arrAt 5 cfg3.N = Gin.cls (V c main_v42) (V c main_arg28) (V c main_arg29) (V c main_arg30) (V c main_arg31) :=
  (dat3 V c).arrAt_eq_of_cover 5 _ (fun t _ => flushed3_eq V c t) (cover3)

end Cert.KernelIdeal.Hand

end
-- ==== Proof.KI.HostFns.lean ====
import proofs.«143938_j66159676227906_1_alg».proof.KernelIdeal
import proofs.«143938_j66159676227906_1_alg».proof.Proof.Gen.KernelIdeal
import proofs.«143938_j66159676227906_1_alg».proof.Proof.Spec

/-!
# The host operations between the launches, as functions

Between the launches the program runs plain tensor operations on the host: the neighbour sum of a feature matrix (gather
the source rows of every edge, with a negative source index wrapped once by the node count, and add each into its
destination row of a zero matrix), the per-graph pooling (add every node's row into its graph's row of a zero matrix),
and the concatenation of the three pooled matrices along the feature axis. They are named here and never opened: both
programs apply the same operations, so the two sides meet as equal arguments of equal functions.
-/

noncomputable section

namespace Cert.KernelIdeal.HostFns

open Cert.KernelIdeal Idealize.ShloMosaic
open Facts₀

variable [Facts₀]

/-- The contents of a buffer of shape `S` and element type `e` over exact arithmetic. -/
abbrev C (S : Shape) (e : EltTy) : Type := (⟨S, e⟩ : BufTy).Contents (Elt Ideal)

/-- The edges' source indices as a column, a negative index wrapped once by the node count. -/
def wrapSrc (src : C S3200000 .i32) : C S3200000x1 .i32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The neighbour sums of a 13-feature matrix. -/
def agg13 (x : C S100000x13 .f32) (src dst : C S3200000 .i32) : C S100000x13 .f32 :=
  Host.scatterAdd scatter_S100000x13_S3200000x1_S3200000x13_1_0_0_1
    (broadcastInDim S100000x13 ![] bcast_S_S100000x13 (constant (F := Ideal) S_ .f32 0x00000000#32))
    (broadcastInDim S3200000x1 ![0] bcast_S3200000_S3200000x1_0 dst)
    (Host.gather gather_S100000x13_S3200000x1_S3200000x13_1_0_n_n_0_1_113 x (wrapSrc src))

/-- The neighbour sums of a 64-feature matrix. -/
def agg64 (x : C S100000x64 .f32) (src dst : C S3200000 .i32) : C S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 x (wrapSrc src))

/-- The per-graph sums of the nodes' rows. -/
def pool (h : C S100000x64 .f32) (batch : C S100000 .i32) : C S512x64 .f32 :=
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 batch) h

/-- Three pooled matrices side by side. -/
def cat3 (p1 p2 p3 : C S512x64 .f32) : C S512x192 .f32 :=
  concatenate S512x192 1 [⟨S512x64, p1⟩, ⟨S512x64, p2⟩, ⟨S512x64, p3⟩] concatenates_S512x64_S512x64_S512x64_S512x192_d1

/-- The three layers' outputs and the network's result, from the 32 arguments. -/
def layer1 (a0 : C S100000x13 .f32) (a1 a2 : C S3200000 .i32) (a4 : C S13x64 .f32) (a5 a6 a7 a8 a9 : C S64 .f32)
    (a10 : C S64x64 .f32) (a11 : C S64 .f32) : C S100000x64 .f32 :=
  Cert.Gin.mlp13 a0 (agg13 a0 a1 a2) a4 a5 a6 a7 a8 a9 a10 a11

def layerN (h : C S100000x64 .f32) (a1 a2 : C S3200000 .i32) (w1 : C S64x64 .f32) (b1 g be mu v : C S64 .f32)
    (w2 : C S64x64 .f32) (b2 : C S64 .f32) : C S100000x64 .f32 :=
  Cert.Gin.mlp64 h (agg64 h a1 a2) w1 b1 g be mu v w2 b2

def readout (h1 h2 h3 : C S100000x64 .f32) (a3 : C S100000 .i32) (a28 : C S192x192 .f32) (a29 : C S192 .f32)
    (a30 : C S192x2 .f32) (a31 : C S2 .f32) : C S512x2 .f32 :=
  Cert.Gin.cls (cat3 (pool h1 a3) (pool h2 a3) (pool h3 a3)) a28 a29 a30 a31

end Cert.KernelIdeal.HostFns

end
-- ==== Proof.KI.Net.lean ====
import proofs.«143938_j66159676227906_1_alg».proof.Proof.KI.Keep
import proofs.«143938_j66159676227906_1_alg».proof.Proof.KI.Final0
import proofs.«143938_j66159676227906_1_alg».proof.Proof.KI.Final1
import proofs.«143938_j66159676227906_1_alg».proof.Proof.KI.Final2
import proofs.«143938_j66159676227906_1_alg».proof.Proof.KI.Final3
import proofs.«143938_j66159676227906_1_alg».proof.Proof.KI.HostFns
import Idealize.ShloMosaic.Lib.StableHlo.Run

/-!
# What every boundary of the program holds, as a function of the arguments

Walking the program's items in order: a stretch of host operations writes only its own results, a launch changes only
its output array, and an argument is written by nothing. So at each boundary an argument still holds its launch
contents, an earlier layer's output is still there, a stretch's result is its host function of what the boundary before
held, and a launch's output array is the layer's whole output matrix of what it found. Composing these from the launch
to the return gives the result array as the network's function of the 32 arguments.
-/

set_option maxRecDepth 16384

noncomputable section

namespace Cert.KernelIdeal.Hand

open Cert.KernelIdeal Cert.KernelIdeal.Gen Cert.KernelIdeal.HostFns
open Idealize.ShloMosaic Idealize.ShloMosaic.TcCoe Idealize.ShloMosaic.StableHlo Idealize.SL.Sem

variable (m : (ℓ : Loc nD τ sig) → Buf (Elt Ideal) ℓ) (ρ : Dev nD → PrngReg)

/-! ## A buffer nothing has written yet holds its launch contents -/

theorem w0_eq (c : Dev nD) (b : Ref sig .tc) : W0 m ρ c (Proc.devRef .tc b) = m ((c : Thread nD τ).loc b) := rfl

theorem od1 (c : Dev nD) (b : Ref sig .tc) (h0 : b ∉ hostOps0_W) :
    W1 m ρ c (Proc.devRef .tc b) = m ((c : Thread nD τ).loc b) := (W1_host m ρ c b h0).trans (w0_eq m ρ c b)
theorem ev2 (c : Dev nD) (b : Ref sig .tc) (h0 : b ∉ hostOps0_W) (o0 : b ≠ main_v10) :
    W2 m ρ c (Proc.devRef .tc b) = m ((c : Thread nD τ).loc b) := (W2_keep m ρ c b o0).trans (od1 m ρ c b h0)
theorem od3 (c : Dev nD) (b : Ref sig .tc) (h0 : b ∉ hostOps0_W) (h1 : b ∉ hostOps1_W) (o0 : b ≠ main_v10) :
    W3 m ρ c (Proc.devRef .tc b) = m ((c : Thread nD τ).loc b) := (W3_host m ρ c b h1).trans (ev2 m ρ c b h0 o0)
theorem ev4 (c : Dev nD) (b : Ref sig .tc) (h0 : b ∉ hostOps0_W) (h1 : b ∉ hostOps1_W) (o0 : b ≠ main_v10) (o1 : b ≠ main_v21) :
    W4 m ρ c (Proc.devRef .tc b) = m ((c : Thread nD τ).loc b) := (W4_keep m ρ c b o1).trans (od3 m ρ c b h0 h1 o0)
theorem od5 (c : Dev nD) (b : Ref sig .tc) (h0 : b ∉ hostOps0_W) (h1 : b ∉ hostOps1_W) (h2 : b ∉ hostOps2_W)
    (o0 : b ≠ main_v10) (o1 : b ≠ main_v21) :
    W5 m ρ c (Proc.devRef .tc b) = m ((c : Thread nD τ).loc b) := (W5_host m ρ c b h2).trans (ev4 m ρ c b h0 h1 o0 o1)
theorem ev6 (c : Dev nD) (b : Ref sig .tc) (h0 : b ∉ hostOps0_W) (h1 : b ∉ hostOps1_W) (h2 : b ∉ hostOps2_W)
    (o0 : b ≠ main_v10) (o1 : b ≠ main_v21) (o2 : b ≠ main_v32) :
    W6 m ρ c (Proc.devRef .tc b) = m ((c : Thread nD τ).loc b) := (W6_keep m ρ c b o2).trans (od5 m ρ c b h0 h1 h2 o0 o1)
theorem od7 (c : Dev nD) (b : Ref sig .tc) (h0 : b ∉ hostOps0_W) (h1 : b ∉ hostOps1_W) (h2 : b ∉ hostOps2_W) (h3 : b ∉ hostOps3_W)
    (o0 : b ≠ main_v10) (o1 : b ≠ main_v21) (o2 : b ≠ main_v32) :
    W7 m ρ c (Proc.devRef .tc b) = m ((c : Thread nD τ).loc b) := (W7_host m ρ c b h3).trans (ev6 m ρ c b h0 h1 h2 o0 o1 o2)

/-! ## The three layers' outputs, from the arguments -/

/-- The first layer's output matrix. -/
def H1 (c : Dev nD) : C S100000x64 .f32 := layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The second layer's output matrix. -/
def H2 (c : Dev nD) : C S100000x64 .f32 := layerN (H1 m c) (m ((c : Thread nD τ).loc main_arg1)) (m ((c : Thread nD τ).loc main_arg2)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
/-- The third layer's output matrix. -/
def H3 (c : Dev nD) : C S100000x64 .f32 := layerN (H2 m c) (m ((c : Thread nD τ).loc main_arg1)) (m ((c : Thread nD τ).loc main_arg2)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

/-! ## Launch 0 -/

/-- Before launch 0 the neighbour sums of the node features are in place. -/
theorem v9_eq (c : Dev nD) : W1 m ρ c (Proc.devRef .tc main_v9) = agg13 (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

/-- After launch 0 its output array holds the first layer's output. -/
theorem v10_eq (c : Dev nD) : W2 m ρ c (Proc.devRef .tc main_v10) = H1 m c := by
  refine (W2_arr m ρ c 10).trans ((final0 (V1 m ρ) c).trans ?_)
  show Cert.Gin.mlp13 (W1 m ρ c (Proc.devRef .tc main_arg0)) (W1 m ρ c (Proc.devRef .tc main_v9))
    (W1 m ρ c (Proc.devRef .tc main_arg4)) (W1 m ρ c (Proc.devRef .tc main_arg5)) (W1 m ρ c (Proc.devRef .tc main_arg6))
    (W1 m ρ c (Proc.devRef .tc main_arg7)) (W1 m ρ c (Proc.devRef .tc main_arg8)) (W1 m ρ c (Proc.devRef .tc main_arg9))
    (W1 m ρ c (Proc.devRef .tc main_arg10)) (W1 m ρ c (Proc.devRef .tc main_arg11)) = _
  rw [v9_eq, od1 m ρ c main_arg0 (by decide),
    od1 m ρ c main_arg4 (by decide),
    od1 m ρ c main_arg5 (by decide),
    od1 m ρ c main_arg6 (by decide),
    od1 m ρ c main_arg7 (by decide),
    od1 m ρ c main_arg8 (by decide),
    od1 m ρ c main_arg9 (by decide),
    od1 m ρ c main_arg10 (by decide),
    od1 m ρ c main_arg11 (by decide)]
  rfl

/-! ## Launch 1 -/

theorem v10_at3 (c : Dev nD) : W3 m ρ c (Proc.devRef .tc main_v10) = H1 m c :=
  (W3_host m ρ c main_v10 (by decide)).trans (v10_eq m ρ c)

theorem v20_eq (c : Dev nD) : W3 m ρ c (Proc.devRef .tc main_v20) = agg64 (H1 m c) (m ((c : Thread nD τ).loc main_arg1)) (m ((c : Thread nD τ).loc main_arg2)) := by
  show StableHlo.after hostOps1 (W2 m ρ c) (Proc.devRef .tc main_v20) = _
  after_results
  rw [v10_eq, ev2 m ρ c main_arg1 (by decide) (by decide), ev2 m ρ c main_arg2 (by decide) (by decide)]
  rfl

theorem v21_eq (c : Dev nD) : W4 m ρ c (Proc.devRef .tc main_v21) = H2 m c := by
  refine (W4_arr m ρ c 10).trans ((final1 (V3 m ρ) c).trans ?_)
  show Cert.Gin.mlp64 (W3 m ρ c (Proc.devRef .tc main_v10)) (W3 m ρ c (Proc.devRef .tc main_v20))
    (W3 m ρ c (Proc.devRef .tc main_arg12)) (W3 m ρ c (Proc.devRef .tc main_arg13)) (W3 m ρ c (Proc.devRef .tc main_arg14))
    (W3 m ρ c (Proc.devRef .tc main_arg15)) (W3 m ρ c (Proc.devRef .tc main_arg16)) (W3 m ρ c (Proc.devRef .tc main_arg17))
    (W3 m ρ c (Proc.devRef .tc main_arg18)) (W3 m ρ c (Proc.devRef .tc main_arg19)) = _
  rw [v10_at3, v20_eq, od3 m ρ c main_arg12 (by decide) (by decide) (by decide),
    od3 m ρ c main_arg13 (by decide) (by decide) (by decide),
    od3 m ρ c main_arg14 (by decide) (by decide) (by decide),
    od3 m ρ c main_arg15 (by decide) (by decide) (by decide),
    od3 m ρ c main_arg16 (by decide) (by decide) (by decide),
    od3 m ρ c main_arg17 (by decide) (by decide) (by decide),
    od3 m ρ c main_arg18 (by decide) (by decide) (by decide),
    od3 m ρ c main_arg19 (by decide) (by decide) (by decide)]
  rfl

/-! ## Launch 2 -/

theorem v21_at5 (c : Dev nD) : W5 m ρ c (Proc.devRef .tc main_v21) = H2 m c :=
  (W5_host m ρ c main_v21 (by decide)).trans (v21_eq m ρ c)

theorem v31_eq (c : Dev nD) : W5 m ρ c (Proc.devRef .tc main_v31) = agg64 (H2 m c) (m ((c : Thread nD τ).loc main_arg1)) (m ((c : Thread nD τ).loc main_arg2)) := by
  show StableHlo.after hostOps2 (W4 m ρ c) (Proc.devRef .tc main_v31) = _
  after_results
  rw [v21_eq, ev4 m ρ c main_arg1 (by decide) (by decide) (by decide) (by decide), ev4 m ρ c main_arg2 (by decide) (by decide) (by decide) (by decide)]
  rfl

theorem v32_eq (c : Dev nD) : W6 m ρ c (Proc.devRef .tc main_v32) = H3 m c := by
  refine (W6_arr m ρ c 10).trans ((final2 (V5 m ρ) c).trans ?_)
  show Cert.Gin.mlp64 (W5 m ρ c (Proc.devRef .tc main_v21)) (W5 m ρ c (Proc.devRef .tc main_v31))
    (W5 m ρ c (Proc.devRef .tc main_arg20)) (W5 m ρ c (Proc.devRef .tc main_arg21)) (W5 m ρ c (Proc.devRef .tc main_arg22))
    (W5 m ρ c (Proc.devRef .tc main_arg23)) (W5 m ρ c (Proc.devRef .tc main_arg24)) (W5 m ρ c (Proc.devRef .tc main_arg25))
    (W5 m ρ c (Proc.devRef .tc main_arg26)) (W5 m ρ c (Proc.devRef .tc main_arg27)) = _
  rw [v21_at5, v31_eq, od5 m ρ c main_arg20 (by decide) (by decide) (by decide) (by decide) (by decide),
    od5 m ρ c main_arg21 (by decide) (by decide) (by decide) (by decide) (by decide),
    od5 m ρ c main_arg22 (by decide) (by decide) (by decide) (by decide) (by decide),
    od5 m ρ c main_arg23 (by decide) (by decide) (by decide) (by decide) (by decide),
    od5 m ρ c main_arg24 (by decide) (by decide) (by decide) (by decide) (by decide),
    od5 m ρ c main_arg25 (by decide) (by decide) (by decide) (by decide) (by decide),
    od5 m ρ c main_arg26 (by decide) (by decide) (by decide) (by decide) (by decide),
    od5 m ρ c main_arg27 (by decide) (by decide) (by decide) (by decide) (by decide)]
  rfl

/-! ## The readout -/

/-- A three-operand host operation's result, each operand's contents read at its own buffer. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Read every remaining operation's result at its own buffer, and any other buffer as it was. -/
local macro "read_results" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)
      | (rw [nary_result_ne]; rotate_left; decide)))

theorem v10_at6 (c : Dev nD) : W6 m ρ c (Proc.devRef .tc main_v10) = H1 m c :=
  (W6_keep m ρ c main_v10 (by decide)).trans <| (W5_host m ρ c main_v10 (by decide)).trans <|
    (W4_keep m ρ c main_v10 (by decide)).trans (v10_at3 m ρ c)

theorem v21_at6 (c : Dev nD) : W6 m ρ c (Proc.devRef .tc main_v21) = H2 m c :=
  (W6_keep m ρ c main_v21 (by decide)).trans (v21_at5 m ρ c)

set_option maxHeartbeats 4000000 in
theorem v42_eq (c : Dev nD) :
    W7 m ρ c (Proc.devRef .tc main_v42) = cat3 (pool (H1 m c) (m ((c : Thread nD τ).loc main_arg3))) (pool (H2 m c) (m ((c : Thread nD τ).loc main_arg3))) (pool (H3 m c) (m ((c : Thread nD τ).loc main_arg3))) := by
  show StableHlo.after hostOps3 (W6 m ρ c) (Proc.devRef .tc main_v42) = _
  simp only [after_cons, after_nil]
  rw [nary3_result]
  read_results
  rw [v10_at6, v21_at6, v32_eq, ev6 m ρ c main_arg3 (by decide) (by decide) (by decide) (by decide) (by decide) (by decide)]
  rfl

/-- THE RESULT: after the last launch the result array holds the network's function of the 32 arguments. -/
theorem v43_eq (c : Dev nD) :
    W8 m ρ c (Proc.devRef .tc main_v43)
      = readout (H1 m c) (H2 m c) (H3 m c) (m ((c : Thread nD τ).loc main_arg3)) (m ((c : Thread nD τ).loc main_arg28)) (m ((c : Thread nD τ).loc main_arg29)) (m ((c : Thread nD τ).loc main_arg30)) (m ((c : Thread nD τ).loc main_arg31)) := by
  refine (W8_arr m ρ c 5).trans ((final3 (V7 m ρ) c).trans ?_)
  show Cert.Gin.cls (W7 m ρ c (Proc.devRef .tc main_v42)) (W7 m ρ c (Proc.devRef .tc main_arg28))
    (W7 m ρ c (Proc.devRef .tc main_arg29)) (W7 m ρ c (Proc.devRef .tc main_arg30)) (W7 m ρ c (Proc.devRef .tc main_arg31)) = _
  rw [v42_eq, od7 m ρ c main_arg28 (by decide) (by decide) (by decide) (by decide) (by decide) (by decide) (by decide),
    od7 m ρ c main_arg29 (by decide) (by decide) (by decide) (by decide) (by decide) (by decide) (by decide),
    od7 m ρ c main_arg30 (by decide) (by decide) (by decide) (by decide) (by decide) (by decide) (by decide),
    od7 m ρ c main_arg31 (by decide) (by decide) (by decide) (by decide) (by decide) (by decide) (by decide)]
  rfl

end Cert.KernelIdeal.Hand

end
-- ==== Proof.RefRun.lean ====
import proofs.«143938_j66159676227906_1_alg».proof.Proof.Gen.ReferenceIdeal.Run
import proofs.«143938_j66159676227906_1_alg».proof.Proof.Gen.ReferenceIdeal.Read

/-! The reference program's run — every weakly fair execution ends with the result at the composition of its operations —
    and the value each of its operations writes, read at one index. -/
-- ==== Proof.RefStages1.lean ====
import proofs.«143938_j66159676227906_1_alg».proof.Proof.RefRun
import proofs.«143938_j66159676227906_1_alg».proof.Proof.Spec

/-!
# The reference's first layer is the specification's, entry by entry

The reference computes a layer as whole-array operations: the node features plus the neighbour sums, a matrix product,
a bias row broadcast to every node, the running mean subtracted, the product with the reciprocal square root of
(running variance plus epsilon), the scale and the shift, a rectifier, a second matrix product and bias, and the
rectifier twice more. Read at one entry `(p, q)` each broadcast row is the row's entry, each matrix product a finite
sum over the contracted axis, and the whole is the specification's formula. The neighbour sums are left as they are:
an opaque array.
-/

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S100000x13, .f32⟩ : BufTy).Contents (Elt Ideal)) (x1 x2 : (⟨S3200000, .i32⟩ : BufTy).Contents (Elt Ideal)) (x4 : (⟨S13x64, .f32⟩ : BufTy).Contents (Elt Ideal)) (x5 x6 x7 x8 x9 : (⟨S64, .f32⟩ : BufTy).Contents (Elt Ideal)) (x10 : (⟨S64x64, .f32⟩ : BufTy).Contents (Elt Ideal)) (x11 : (⟨S64, .f32⟩ : BufTy).Contents (Elt Ideal))

/-! ## Layer 1: 13 input features -/

/-- The first linear map at `(p, k)`: the sum over the input feature `d` of (the node's feature plus its neighbours' sum) times the weight. -/
theorem lin1_1 (p : Fin 100000) (k : Fin 64) :
    val_main_v11 (F := Ideal) x0 x1 x2 x4 (ix2 p k) = ∑ d : Fin 13, (x0 (ix2 p d) + (val_main_v9 (F := Ideal) x0 x1 x2) (ix2 p d)) * x4 (ix2 d k) := by
  rw [val_main_v11_apply]
  refine Finset.sum_congr rfl fun d _ => ?_
  have el : lidx_main_v11 (ix2 p k) d = ix2 p d := funext fun a => by match a with | ⟨0, _⟩ => rfl | ⟨1, _⟩ => rfl
  have er : ridx_main_v11 (ix2 p k) d = ix2 d k := funext fun a => by match a with | ⟨0, _⟩ => rfl | ⟨1, _⟩ => rfl
  rw [el, er, val_main_v10_apply]
  rfl

/-- The first bias, broadcast to every node, read at `(p, k)` is its entry `k`. -/
theorem row_b1_1 (p : Fin 100000) (k : Fin 64) : val_main_v13 (F := Ideal) x5 (ix2 p k) = x5 (ix1 k) := by
  rw [val_main_v13_apply, val_main_v12_apply]
  exact congrArg x5 (funext fun a => by match a with | ⟨0, _⟩ => rfl)

/-- The running mean, broadcast to every node, read at `(p, k)` is its entry `k`. -/
theorem row_mu_1 (p : Fin 100000) (k : Fin 64) : val_main_v16 (F := Ideal) x8 (ix2 p k) = x8 (ix1 k) := by
  rw [val_main_v16_apply, val_main_v15_apply]
  exact congrArg x8 (funext fun a => by match a with | ⟨0, _⟩ => rfl)

/-- The normalisation's scale, broadcast to every node, read at `(p, k)` is its entry `k`. -/
theorem row_g_1 (p : Fin 100000) (k : Fin 64) : val_main_v25 (F := Ideal) x6 (ix2 p k) = x6 (ix1 k) := by
  rw [val_main_v25_apply, val_main_v24_apply]
  exact congrArg x6 (funext fun a => by match a with | ⟨0, _⟩ => rfl)

/-- The normalisation's shift, broadcast to every node, read at `(p, k)` is its entry `k`. -/
theorem row_be_1 (p : Fin 100000) (k : Fin 64) : val_main_v28 (F := Ideal) x7 (ix2 p k) = x7 (ix1 k) := by
  rw [val_main_v28_apply, val_main_v27_apply]
  exact congrArg x7 (funext fun a => by match a with | ⟨0, _⟩ => rfl)

/-- The second bias, broadcast to every node, read at `(p, q)` is its entry `q`. -/
theorem row_b2_1 (p : Fin 100000) (k : Fin 64) : val_main_v33 (F := Ideal) x11 (ix2 p k) = x11 (ix1 k) := by
  rw [val_main_v33_apply, val_main_v32_apply]
  exact congrArg x11 (funext fun a => by match a with | ⟨0, _⟩ => rfl)

/-- The reciprocal square root of (running variance plus epsilon), broadcast to every node, read at `(p, k)`. -/
theorem scale_1 (p : Fin 100000) (k : Fin 64) :
    val_main_v22 (F := Ideal) x9 (ix2 p k) = Ideal.rsqrt (x9 (ix1 k) + Cert.Gin.epsW) := by
  have e : idx_main_v21 (idx_main_v22 (ix2 p k)) = ix1 k := funext fun a => by match a with | ⟨0, _⟩ => rfl
  rw [val_main_v22_apply, val_main_v21_apply, e, val_main_v20_apply, val_main_v19_apply, val_main_v18_apply,
    val_main_cst_1_apply]
  rfl

/-- The first rectifier's zero, broadcast, is the zero word everywhere. -/
theorem zero_a_1 (p : Fin 100000) (k : Fin 64) : val_main_call0_v0 (F := Ideal) (ix2 p k) = Cert.Gin.zeroW := by
  rw [val_main_call0_v0_apply, val_main_call0_cst_apply]
  rfl

/-- The second rectifier's zero, broadcast, is the zero word everywhere. -/
theorem zero_b_1 (p : Fin 100000) (k : Fin 64) : val_main_call1_v0 (F := Ideal) (ix2 p k) = Cert.Gin.zeroW := by
  rw [val_main_call1_v0_apply, val_main_call1_cst_apply]
  rfl

/-- The third rectifier's zero, broadcast, is the zero word everywhere. -/
theorem zero_c_1 (p : Fin 100000) (k : Fin 64) : val_main_call2_v0 (F := Ideal) (ix2 p k) = Cert.Gin.zeroW := by
  rw [val_main_call2_v0_apply, val_main_call2_cst_apply]
  rfl

/-- The rectified, normalised first linear map at `(p, k)` is the specification's hidden unit. -/
theorem hid_1 (p : Fin 100000) (k : Fin 64) :
    val_main_v30 (F := Ideal) x0 x1 x2 x4 x5 x6 x7 x8 x9 (ix2 p k) = Cert.Gin.hid13 x0 (val_main_v9 (F := Ideal) x0 x1 x2) x4 x5 x6 x7 x8 x9 p k := by
  rw [val_main_v30_apply, val_main_v29_apply, val_main_v26_apply, val_main_v23_apply, val_main_v17_apply,
    val_main_v14_apply, lin1_1, row_b1_1, row_mu_1, scale_1, row_g_1, row_be_1, zero_a_1]
  rfl

/-- The second linear map at `(p, q)`: the sum over the hidden unit `k` of the hidden unit times the weight. -/
theorem lin2_1 (p : Fin 100000) (q : Fin 64) :
    val_main_v31 (F := Ideal) x0 x1 x2 x4 x5 x6 x7 x8 x9 x10 (ix2 p q)
      = ∑ k : Fin 64, Cert.Gin.hid13 x0 (val_main_v9 (F := Ideal) x0 x1 x2) x4 x5 x6 x7 x8 x9 p k * x10 (ix2 k q) := by
  rw [val_main_v31_apply]
  refine Finset.sum_congr rfl fun k _ => ?_
  have el : lidx_main_v31 (ix2 p q) k = ix2 p k := funext fun a => by match a with | ⟨0, _⟩ => rfl | ⟨1, _⟩ => rfl
  have er : ridx_main_v31 (ix2 p q) k = ix2 k q := funext fun a => by match a with | ⟨0, _⟩ => rfl | ⟨1, _⟩ => rfl
  rw [el, er, hid_1]

/-- The layer's output is the specification's: the second rectifier applied twice is the rectifier applied once
    (`max (max y z) z = max y z`). -/
theorem layer_1 :
    val_main_v36 (F := Ideal) x0 x1 x2 x4 x5 x6 x7 x8 x9 x10 x11 = Cert.Gin.mlp13 x0 (val_main_v9 (F := Ideal) x0 x1 x2) x4 x5 x6 x7 x8 x9 x10 x11 := by
  funext i
  obtain ⟨p, q, rfl⟩ : ∃ (p : Fin 100000) (q : Fin 64), i = ix2 p q := ⟨i 0, i 1, eq_ix2 i⟩
  rw [val_main_v36_apply, val_main_v35_apply, val_main_v34_apply, lin2_1, row_b2_1, zero_b_1, zero_c_1]
  simp only [Ideal.maximumf_def, Ideal.addf_def]
  rw [max_assoc, max_self]
  rfl

end Cert.ReferenceIdeal.RefValue

end
-- ==== Proof.RefStages2.lean ====
import proofs.«143938_j66159676227906_1_alg».proof.Proof.RefRun
import proofs.«143938_j66159676227906_1_alg».proof.Proof.Spec

/-!
# The reference's second layer is the specification's, entry by entry

The same whole-array operations as the first layer, on 64 input features: the first layer's output plus the neighbour sums, a matrix
product, a bias row, the running mean subtracted, the product with the reciprocal square root of (running variance
plus epsilon), the scale and the shift, a rectifier, a second matrix product and bias, and the rectifier twice more.
Read at one entry `(p, q)` each broadcast row is the row's entry and each matrix product a finite sum over the
contracted axis. The layer's input and the neighbour sums are left as they are: opaque arrays.
-/

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S100000x13, .f32⟩ : BufTy).Contents (Elt Ideal)) (x1 x2 : (⟨S3200000, .i32⟩ : BufTy).Contents (Elt Ideal)) (x4 : (⟨S13x64, .f32⟩ : BufTy).Contents (Elt Ideal)) (x5 x6 x7 x8 x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 x14 x15 x16 x17 : (⟨S64, .f32⟩ : BufTy).Contents (Elt Ideal)) (x18 : (⟨S64x64, .f32⟩ : BufTy).Contents (Elt Ideal)) (x19 : (⟨S64, .f32⟩ : BufTy).Contents (Elt Ideal))

/-! ## Layer 2: 64 input features -/

/-- The first linear map at `(p, k)`: the sum over the input feature `d` of (the node's feature plus its neighbours' sum) times the weight. -/
theorem lin1_2 (p : Fin 100000) (k : Fin 64) :
    val_main_v48 (F := Ideal) x0 x1 x2 x4 x5 x6 x7 x8 x9 x10 x11 x12 (ix2 p k) = ∑ d : Fin 64, ((val_main_v36 (F := Ideal) x0 x1 x2 x4 x5 x6 x7 x8 x9 x10 x11) (ix2 p d) + (val_main_v46 (F := Ideal) x0 x1 x2 x4 x5 x6 x7 x8 x9 x10 x11) (ix2 p d)) * x12 (ix2 d k) := by
  rw [val_main_v48_apply]
  refine Finset.sum_congr rfl fun d _ => ?_
  have el : lidx_main_v48 (ix2 p k) d = ix2 p d := funext fun a => by match a with | ⟨0, _⟩ => rfl | ⟨1, _⟩ => rfl
  have er : ridx_main_v48 (ix2 p k) d = ix2 d k := funext fun a => by match a with | ⟨0, _⟩ => rfl | ⟨1, _⟩ => rfl
  rw [el, er, val_main_v47_apply]
  rfl

/-- The first bias, broadcast to every node, read at `(p, k)` is its entry `k`. -/
theorem row_b1_2 (p : Fin 100000) (k : Fin 64) : val_main_v50 (F := Ideal) x13 (ix2 p k) = x13 (ix1 k) := by
  rw [val_main_v50_apply, val_main_v49_apply]
  exact congrArg x13 (funext fun a => by match a with | ⟨0, _⟩ => rfl)

/-- The running mean, broadcast to every node, read at `(p, k)` is its entry `k`. -/
theorem row_mu_2 (p : Fin 100000) (k : Fin 64) : val_main_v53 (F := Ideal) x16 (ix2 p k) = x16 (ix1 k) := by
  rw [val_main_v53_apply, val_main_v52_apply]
  exact congrArg x16 (funext fun a => by match a with | ⟨0, _⟩ => rfl)

/-- The normalisation's scale, broadcast to every node, read at `(p, k)` is its entry `k`. -/
theorem row_g_2 (p : Fin 100000) (k : Fin 64) : val_main_v62 (F := Ideal) x14 (ix2 p k) = x14 (ix1 k) := by
  rw [val_main_v62_apply, val_main_v61_apply]
  exact congrArg x14 (funext fun a => by match a with | ⟨0, _⟩ => rfl)

/-- The normalisation's shift, broadcast to every node, read at `(p, k)` is its entry `k`. -/
theorem row_be_2 (p : Fin 100000) (k : Fin 64) : val_main_v65 (F := Ideal) x15 (ix2 p k) = x15 (ix1 k) := by
  rw [val_main_v65_apply, val_main_v64_apply]
  exact congrArg x15 (funext fun a => by match a with | ⟨0, _⟩ => rfl)

/-- The second bias, broadcast to every node, read at `(p, q)` is its entry `q`. -/
theorem row_b2_2 (p : Fin 100000) (k : Fin 64) : val_main_v70 (F := Ideal) x19 (ix2 p k) = x19 (ix1 k) := by
  rw [val_main_v70_apply, val_main_v69_apply]
  exact congrArg x19 (funext fun a => by match a with | ⟨0, _⟩ => rfl)

/-- The reciprocal square root of (running variance plus epsilon), broadcast to every node, read at `(p, k)`. -/
theorem scale_2 (p : Fin 100000) (k : Fin 64) :
    val_main_v59 (F := Ideal) x17 (ix2 p k) = Ideal.rsqrt (x17 (ix1 k) + Cert.Gin.epsW) := by
  have e : idx_main_v58 (idx_main_v59 (ix2 p k)) = ix1 k := funext fun a => by match a with | ⟨0, _⟩ => rfl
  rw [val_main_v59_apply, val_main_v58_apply, e, val_main_v57_apply, val_main_v56_apply, val_main_v55_apply,
    val_main_cst_5_apply]
  rfl

/-- The first rectifier's zero, broadcast, is the zero word everywhere. -/
theorem zero_a_2 (p : Fin 100000) (k : Fin 64) : val_main_call3_v0 (F := Ideal) (ix2 p k) = Cert.Gin.zeroW := by
  rw [val_main_call3_v0_apply, val_main_call3_cst_apply]
  rfl

/-- The second rectifier's zero, broadcast, is the zero word everywhere. -/
theorem zero_b_2 (p : Fin 100000) (k : Fin 64) : val_main_call4_v0 (F := Ideal) (ix2 p k) = Cert.Gin.zeroW := by
  rw [val_main_call4_v0_apply, val_main_call4_cst_apply]
  rfl

/-- The third rectifier's zero, broadcast, is the zero word everywhere. -/
theorem zero_c_2 (p : Fin 100000) (k : Fin 64) : val_main_call5_v0 (F := Ideal) (ix2 p k) = Cert.Gin.zeroW := by
  rw [val_main_call5_v0_apply, val_main_call5_cst_apply]
  rfl

/-- The rectified, normalised first linear map at `(p, k)` is the specification's hidden unit. -/
theorem hid_2 (p : Fin 100000) (k : Fin 64) :
    val_main_v67 (F := Ideal) x0 x1 x2 x4 x5 x6 x7 x8 x9 x10 x11 x12 x13 x14 x15 x16 x17 (ix2 p k) = Cert.Gin.hid64 (val_main_v36 (F := Ideal) x0 x1 x2 x4 x5 x6 x7 x8 x9 x10 x11) (val_main_v46 (F := Ideal) x0 x1 x2 x4 x5 x6 x7 x8 x9 x10 x11) x12 x13 x14 x15 x16 x17 p k := by
  rw [val_main_v67_apply, val_main_v66_apply, val_main_v63_apply, val_main_v60_apply, val_main_v54_apply,
    val_main_v51_apply, lin1_2, row_b1_2, row_mu_2, scale_2, row_g_2, row_be_2, zero_a_2]
  rfl

/-- The second linear map at `(p, q)`: the sum over the hidden unit `k` of the hidden unit times the weight. -/
theorem lin2_2 (p : Fin 100000) (q : Fin 64) :
    val_main_v68 (F := Ideal) x0 x1 x2 x4 x5 x6 x7 x8 x9 x10 x11 x12 x13 x14 x15 x16 x17 x18 (ix2 p q)
      = ∑ k : Fin 64, Cert.Gin.hid64 (val_main_v36 (F := Ideal) x0 x1 x2 x4 x5 x6 x7 x8 x9 x10 x11) (val_main_v46 (F := Ideal) x0 x1 x2 x4 x5 x6 x7 x8 x9 x10 x11) x12 x13 x14 x15 x16 x17 p k * x18 (ix2 k q) := by
  rw [val_main_v68_apply]
  refine Finset.sum_congr rfl fun k _ => ?_
  have el : lidx_main_v68 (ix2 p q) k = ix2 p k := funext fun a => by match a with | ⟨0, _⟩ => rfl | ⟨1, _⟩ => rfl
  have er : ridx_main_v68 (ix2 p q) k = ix2 k q := funext fun a => by match a with | ⟨0, _⟩ => rfl | ⟨1, _⟩ => rfl
  rw [el, er, hid_2]

/-- The layer's output is the specification's: the second rectifier applied twice is the rectifier applied once
    (`max (max y z) z = max y z`). -/
theorem layer_2 :
    val_main_v73 (F := Ideal) x0 x1 x2 x4 x5 x6 x7 x8 x9 x10 x11 x12 x13 x14 x15 x16 x17 x18 x19 = Cert.Gin.mlp64 (val_main_v36 (F := Ideal) x0 x1 x2 x4 x5 x6 x7 x8 x9 x10 x11) (val_main_v46 (F := Ideal) x0 x1 x2 x4 x5 x6 x7 x8 x9 x10 x11) x12 x13 x14 x15 x16 x17 x18 x19 := by
  funext i
  obtain ⟨p, q, rfl⟩ : ∃ (p : Fin 100000) (q : Fin 64), i = ix2 p q := ⟨i 0, i 1, eq_ix2 i⟩
  rw [val_main_v73_apply, val_main_v72_apply, val_main_v71_apply, lin2_2, row_b2_2, zero_b_2, zero_c_2]
  simp only [Ideal.maximumf_def, Ideal.addf_def]
  rw [max_assoc, max_self]
  rfl

end Cert.ReferenceIdeal.RefValue

end
-- ==== Proof.RefStages3.lean ====
import proofs.«143938_j66159676227906_1_alg».proof.Proof.RefRun
import proofs.«143938_j66159676227906_1_alg».proof.Proof.Spec

/-!
# The reference's third layer is the specification's, entry by entry

The same whole-array operations as the first layer, on 64 input features: the second layer's output plus the neighbour sums, a matrix
product, a bias row, the running mean subtracted, the product with the reciprocal square root of (running variance
plus epsilon), the scale and the shift, a rectifier, a second matrix product and bias, and the rectifier twice more.
Read at one entry `(p, q)` each broadcast row is the row's entry and each matrix product a finite sum over the
contracted axis. The layer's input and the neighbour sums are left as they are: opaque arrays.
-/

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S100000x13, .f32⟩ : BufTy).Contents (Elt Ideal)) (x1 x2 : (⟨S3200000, .i32⟩ : BufTy).Contents (Elt Ideal)) (x4 : (⟨S13x64, .f32⟩ : BufTy).Contents (Elt Ideal)) (x5 x6 x7 x8 x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 x14 x15 x16 x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 x22 x23 x24 x25 : (⟨S64, .f32⟩ : BufTy).Contents (Elt Ideal)) (x26 : (⟨S64x64, .f32⟩ : BufTy).Contents (Elt Ideal)) (x27 : (⟨S64, .f32⟩ : BufTy).Contents (Elt Ideal))

/-! ## Layer 3: 64 input features -/

/-- The first linear map at `(p, k)`: the sum over the input feature `d` of (the node's feature plus its neighbours' sum) times the weight. -/
theorem lin1_3 (p : Fin 100000) (k : Fin 64) :
    val_main_v85 (F := Ideal) x0 x1 x2 x4 x5 x6 x7 x8 x9 x10 x11 x12 x13 x14 x15 x16 x17 x18 x19 x20 (ix2 p k) = ∑ d : Fin 64, ((val_main_v73 (F := Ideal) x0 x1 x2 x4 x5 x6 x7 x8 x9 x10 x11 x12 x13 x14 x15 x16 x17 x18 x19) (ix2 p d) + (val_main_v83 (F := Ideal) x0 x1 x2 x4 x5 x6 x7 x8 x9 x10 x11 x12 x13 x14 x15 x16 x17 x18 x19) (ix2 p d)) * x20 (ix2 d k) := by
  rw [val_main_v85_apply]
  refine Finset.sum_congr rfl fun d _ => ?_
  have el : lidx_main_v85 (ix2 p k) d = ix2 p d := funext fun a => by match a with | ⟨0, _⟩ => rfl | ⟨1, _⟩ => rfl
  have er : ridx_main_v85 (ix2 p k) d = ix2 d k := funext fun a => by match a with | ⟨0, _⟩ => rfl | ⟨1, _⟩ => rfl
  rw [el, er, val_main_v84_apply]
  rfl

/-- The first bias, broadcast to every node, read at `(p, k)` is its entry `k`. -/
theorem row_b1_3 (p : Fin 100000) (k : Fin 64) : val_main_v87 (F := Ideal) x21 (ix2 p k) = x21 (ix1 k) := by
  rw [val_main_v87_apply, val_main_v86_apply]
  exact congrArg x21 (funext fun a => by match a with | ⟨0, _⟩ => rfl)

/-- The running mean, broadcast to every node, read at `(p, k)` is its entry `k`. -/
theorem row_mu_3 (p : Fin 100000) (k : Fin 64) : val_main_v90 (F := Ideal) x24 (ix2 p k) = x24 (ix1 k) := by
  rw [val_main_v90_apply, val_main_v89_apply]
  exact congrArg x24 (funext fun a => by match a with | ⟨0, _⟩ => rfl)

/-- The normalisation's scale, broadcast to every node, read at `(p, k)` is its entry `k`. -/
theorem row_g_3 (p : Fin 100000) (k : Fin 64) : val_main_v99 (F := Ideal) x22 (ix2 p k) = x22 (ix1 k) := by
  rw [val_main_v99_apply, val_main_v98_apply]
  exact congrArg x22 (funext fun a => by match a with | ⟨0, _⟩ => rfl)

/-- The normalisation's shift, broadcast to every node, read at `(p, k)` is its entry `k`. -/
theorem row_be_3 (p : Fin 100000) (k : Fin 64) : val_main_v102 (F := Ideal) x23 (ix2 p k) = x23 (ix1 k) := by
  rw [val_main_v102_apply, val_main_v101_apply]
  exact congrArg x23 (funext fun a => by match a with | ⟨0, _⟩ => rfl)

/-- The second bias, broadcast to every node, read at `(p, q)` is its entry `q`. -/
theorem row_b2_3 (p : Fin 100000) (k : Fin 64) : val_main_v107 (F := Ideal) x27 (ix2 p k) = x27 (ix1 k) := by
  rw [val_main_v107_apply, val_main_v106_apply]
  exact congrArg x27 (funext fun a => by match a with | ⟨0, _⟩ => rfl)

/-- The reciprocal square root of (running variance plus epsilon), broadcast to every node, read at `(p, k)`. -/
theorem scale_3 (p : Fin 100000) (k : Fin 64) :
    val_main_v96 (F := Ideal) x25 (ix2 p k) = Ideal.rsqrt (x25 (ix1 k) + Cert.Gin.epsW) := by
  have e : idx_main_v95 (idx_main_v96 (ix2 p k)) = ix1 k := funext fun a => by match a with | ⟨0, _⟩ => rfl
  rw [val_main_v96_apply, val_main_v95_apply, e, val_main_v94_apply, val_main_v93_apply, val_main_v92_apply,
    val_main_cst_9_apply]
  rfl

/-- The first rectifier's zero, broadcast, is the zero word everywhere. -/
theorem zero_a_3 (p : Fin 100000) (k : Fin 64) : val_main_call6_v0 (F := Ideal) (ix2 p k) = Cert.Gin.zeroW := by
  rw [val_main_call6_v0_apply, val_main_call6_cst_apply]
  rfl

/-- The second rectifier's zero, broadcast, is the zero word everywhere. -/
theorem zero_b_3 (p : Fin 100000) (k : Fin 64) : val_main_call7_v0 (F := Ideal) (ix2 p k) = Cert.Gin.zeroW := by
  rw [val_main_call7_v0_apply, val_main_call7_cst_apply]
  rfl

/-- The third rectifier's zero, broadcast, is the zero word everywhere. -/
theorem zero_c_3 (p : Fin 100000) (k : Fin 64) : val_main_call8_v0 (F := Ideal) (ix2 p k) = Cert.Gin.zeroW := by
  rw [val_main_call8_v0_apply, val_main_call8_cst_apply]
  rfl

/-- The rectified, normalised first linear map at `(p, k)` is the specification's hidden unit. -/
theorem hid_3 (p : Fin 100000) (k : Fin 64) :
    val_main_v104 (F := Ideal) x0 x1 x2 x4 x5 x6 x7 x8 x9 x10 x11 x12 x13 x14 x15 x16 x17 x18 x19 x20 x21 x22 x23 x24 x25 (ix2 p k) = Cert.Gin.hid64 (val_main_v73 (F := Ideal) x0 x1 x2 x4 x5 x6 x7 x8 x9 x10 x11 x12 x13 x14 x15 x16 x17 x18 x19) (val_main_v83 (F := Ideal) x0 x1 x2 x4 x5 x6 x7 x8 x9 x10 x11 x12 x13 x14 x15 x16 x17 x18 x19) x20 x21 x22 x23 x24 x25 p k := by
  rw [val_main_v104_apply, val_main_v103_apply, val_main_v100_apply, val_main_v97_apply, val_main_v91_apply,
    val_main_v88_apply, lin1_3, row_b1_3, row_mu_3, scale_3, row_g_3, row_be_3, zero_a_3]
  rfl

/-- The second linear map at `(p, q)`: the sum over the hidden unit `k` of the hidden unit times the weight. -/
theorem lin2_3 (p : Fin 100000) (q : Fin 64) :
    val_main_v105 (F := Ideal) x0 x1 x2 x4 x5 x6 x7 x8 x9 x10 x11 x12 x13 x14 x15 x16 x17 x18 x19 x20 x21 x22 x23 x24 x25 x26 (ix2 p q)
      = ∑ k : Fin 64, Cert.Gin.hid64 (val_main_v73 (F := Ideal) x0 x1 x2 x4 x5 x6 x7 x8 x9 x10 x11 x12 x13 x14 x15 x16 x17 x18 x19) (val_main_v83 (F := Ideal) x0 x1 x2 x4 x5 x6 x7 x8 x9 x10 x11 x12 x13 x14 x15 x16 x17 x18 x19) x20 x21 x22 x23 x24 x25 p k * x26 (ix2 k q) := by
  rw [val_main_v105_apply]
  refine Finset.sum_congr rfl fun k _ => ?_
  have el : lidx_main_v105 (ix2 p q) k = ix2 p k := funext fun a => by match a with | ⟨0, _⟩ => rfl | ⟨1, _⟩ => rfl
  have er : ridx_main_v105 (ix2 p q) k = ix2 k q := funext fun a => by match a with | ⟨0, _⟩ => rfl | ⟨1, _⟩ => rfl
  rw [el, er, hid_3]

/-- The layer's output is the specification's: the second rectifier applied twice is the rectifier applied once
    (`max (max y z) z = max y z`). -/
theorem layer_3 :
    val_main_v110 (F := Ideal) x0 x1 x2 x4 x5 x6 x7 x8 x9 x10 x11 x12 x13 x14 x15 x16 x17 x18 x19 x20 x21 x22 x23 x24 x25 x26 x27 = Cert.Gin.mlp64 (val_main_v73 (F := Ideal) x0 x1 x2 x4 x5 x6 x7 x8 x9 x10 x11 x12 x13 x14 x15 x16 x17 x18 x19) (val_main_v83 (F := Ideal) x0 x1 x2 x4 x5 x6 x7 x8 x9 x10 x11 x12 x13 x14 x15 x16 x17 x18 x19) x20 x21 x22 x23 x24 x25 x26 x27 := by
  funext i
  obtain ⟨p, q, rfl⟩ : ∃ (p : Fin 100000) (q : Fin 64), i = ix2 p q := ⟨i 0, i 1, eq_ix2 i⟩
  rw [val_main_v110_apply, val_main_v109_apply, val_main_v108_apply, lin2_3, row_b2_3, zero_b_3, zero_c_3]
  simp only [Ideal.maximumf_def, Ideal.addf_def]
  rw [max_assoc, max_self]
  rfl

end Cert.ReferenceIdeal.RefValue

end
-- ==== Proof.RefStages4.lean ====
import proofs.«143938_j66159676227906_1_alg».proof.Proof.RefRun
import proofs.«143938_j66159676227906_1_alg».proof.Proof.Spec

/-!
# The reference's classifier and log-softmax are the specification's, entry by entry

The pooled features go through a matrix product and a bias row, a rectifier, a second matrix product and bias row;
then the row-wise log-softmax: the row's largest score folded from minus infinity (the further maximum with minus
infinity changes nothing, since a fold from a value is at least that value), the scores less that maximum, their
exponentials summed from zero, the logarithm of the sum, and the difference. The pooled features are left as they
are: an opaque array.
-/

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S100000x13, .f32⟩ : BufTy).Contents (Elt Ideal)) (x1 x2 : (⟨S3200000, .i32⟩ : BufTy).Contents (Elt Ideal)) (x3 : (⟨S100000, .i32⟩ : BufTy).Contents (Elt Ideal)) (x4 : (⟨S13x64, .f32⟩ : BufTy).Contents (Elt Ideal)) (x5 x6 x7 x8 x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 x14 x15 x16 x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 x22 x23 x24 x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S192x192, .f32⟩ : BufTy).Contents (Elt Ideal)) (x29 : (⟨S192, .f32⟩ : BufTy).Contents (Elt Ideal)) (x30 : (⟨S192x2, .f32⟩ : BufTy).Contents (Elt Ideal)) (x31 : (⟨S2, .f32⟩ : BufTy).Contents (Elt Ideal))

/-! ## The two linear maps -/

/-- The first linear map at `(p, k)`: the sum over the pooled feature `d` of the feature times the weight. -/
theorem fc1_lin (p : Fin 512) (k : Fin 192) :
    val_main_v121 (F := Ideal) x0 x1 x2 x3 x4 x5 x6 x7 x8 x9 x10 x11 x12 x13 x14 x15 x16 x17 x18 x19 x20 x21 x22 x23 x24 x25 x26 x27 x28 (ix2 p k) = ∑ d : Fin 192, (val_main_v120 (F := Ideal) x0 x1 x2 x3 x4 x5 x6 x7 x8 x9 x10 x11 x12 x13 x14 x15 x16 x17 x18 x19 x20 x21 x22 x23 x24 x25 x26 x27) (ix2 p d) * x28 (ix2 d k) := by
  rw [val_main_v121_apply]
  refine Finset.sum_congr rfl fun d _ => ?_
  have el : lidx_main_v121 (ix2 p k) d = ix2 p d := funext fun a => by match a with | ⟨0, _⟩ => rfl | ⟨1, _⟩ => rfl
  have er : ridx_main_v121 (ix2 p k) d = ix2 d k := funext fun a => by match a with | ⟨0, _⟩ => rfl | ⟨1, _⟩ => rfl
  rw [el, er]

/-- The first bias, broadcast to every graph, read at `(p, k)` is its entry `k`. -/
theorem row_c1 (p : Fin 512) (k : Fin 192) : val_main_v123 (F := Ideal) x29 (ix2 p k) = x29 (ix1 k) := by
  rw [val_main_v123_apply, val_main_v122_apply]
  exact congrArg x29 (funext fun a => by match a with | ⟨0, _⟩ => rfl)

/-- The rectifier's zero, broadcast, is the zero word everywhere. -/
theorem zero_d (p : Fin 512) (k : Fin 192) : val_main_call9_v0 (F := Ideal) (ix2 p k) = Cert.Gin.zeroW := by
  rw [val_main_call9_v0_apply, val_main_call9_cst_apply]
  rfl

/-- The rectified first linear map at `(p, k)` is the specification's hidden unit. -/
theorem fc1_eq (p : Fin 512) (k : Fin 192) :
    val_main_v125 (F := Ideal) x0 x1 x2 x3 x4 x5 x6 x7 x8 x9 x10 x11 x12 x13 x14 x15 x16 x17 x18 x19 x20 x21 x22 x23 x24 x25 x26 x27 x28 x29 (ix2 p k) = Cert.Gin.fc1 (val_main_v120 (F := Ideal) x0 x1 x2 x3 x4 x5 x6 x7 x8 x9 x10 x11 x12 x13 x14 x15 x16 x17 x18 x19 x20 x21 x22 x23 x24 x25 x26 x27) x28 x29 p k := by
  rw [val_main_v125_apply, val_main_v124_apply, fc1_lin, row_c1, zero_d]
  rfl

/-- The second linear map at `(p, q)`: the sum over the hidden unit `k` of the hidden unit times the weight. -/
theorem logit_lin (p : Fin 512) (q : Fin 2) :
    val_main_v126 (F := Ideal) x0 x1 x2 x3 x4 x5 x6 x7 x8 x9 x10 x11 x12 x13 x14 x15 x16 x17 x18 x19 x20 x21 x22 x23 x24 x25 x26 x27 x28 x29 x30 (ix2 p q) = ∑ k : Fin 192, Cert.Gin.fc1 (val_main_v120 (F := Ideal) x0 x1 x2 x3 x4 x5 x6 x7 x8 x9 x10 x11 x12 x13 x14 x15 x16 x17 x18 x19 x20 x21 x22 x23 x24 x25 x26 x27) x28 x29 p k * x30 (ix2 k q) := by
  rw [val_main_v126_apply]
  refine Finset.sum_congr rfl fun k _ => ?_
  have el : lidx_main_v126 (ix2 p q) k = ix2 p k := funext fun a => by match a with | ⟨0, _⟩ => rfl | ⟨1, _⟩ => rfl
  have er : ridx_main_v126 (ix2 p q) k = ix2 k q := funext fun a => by match a with | ⟨0, _⟩ => rfl | ⟨1, _⟩ => rfl
  rw [el, er, fc1_eq]

/-- The second bias, broadcast to every graph, read at `(p, q)` is its entry `q`. -/
theorem row_c2 (p : Fin 512) (q : Fin 2) : val_main_v128 (F := Ideal) x31 (ix2 p q) = x31 (ix1 q) := by
  rw [val_main_v128_apply, val_main_v127_apply]
  exact congrArg x31 (funext fun a => by match a with | ⟨0, _⟩ => rfl)

/-- The class score at `(p, q)` is the specification's. -/
theorem logit_eq (p : Fin 512) (q : Fin 2) :
    val_main_v129 (F := Ideal) x0 x1 x2 x3 x4 x5 x6 x7 x8 x9 x10 x11 x12 x13 x14 x15 x16 x17 x18 x19 x20 x21 x22 x23 x24 x25 x26 x27 x28 x29 x30 x31 (ix2 p q) = Cert.Gin.logit (val_main_v120 (F := Ideal) x0 x1 x2 x3 x4 x5 x6 x7 x8 x9 x10 x11 x12 x13 x14 x15 x16 x17 x18 x19 x20 x21 x22 x23 x24 x25 x26 x27) x28 x29 x30 x31 p q := by
  rw [val_main_v129_apply, logit_lin, row_c2]
  rfl

/-! ## The row maximum -/

/-- A graph's index with the class coordinate `k` put back is `(p, k)`. -/
theorem lift_classes (h : S512x2.Reduces [1] S512) (p : Fin 512) (k : Fin (S512x2.size 1)) :
    h.lift (ix1 p) k = ix2 p (⟨k.val, k.isLt⟩ : Fin 2) := by
  funext c; apply Fin.ext
  match c with
  | ⟨0, _⟩ => rfl
  | ⟨1, _⟩ => rfl

/-- A maximum-reduce over the two classes, at graph `p`, is the fold of `max` over the two scores from the initial value. -/
theorem hostMax_classes (x : FVec Ideal S512x2 .f32) (init : FVec Ideal S_ .f32)
    (h' : S512x2.ReducesTo [1] S512) (h : S512x2.Reduces [1] S512) (hu : 0 < S_.numel) (p : Fin 512) :
    Host.reduce (FloatOps.maximumf (F := Ideal) (φ := .f32)) x init h' hu (ix1 p)
      = (Finset.univ : Finset (Fin 2)).fold max (init (Shape.Idx.first hu)) (fun q => x (ix2 p q)) := by
  rw [Host.reduce_eq_fold_single (FloatOps.maximumf (F := Ideal) (φ := .f32)) x _ h' h hu]
  have hf : (x ∘ h.lift (ix1 p)) = fun q : Fin 2 => x (ix2 p q) := funext fun k => congrArg x (lift_classes h p k)
  exact congrArg (fun f => Finset.fold max (init (Shape.Idx.first hu)) f (Finset.univ : Finset (Fin 2))) hf

/-- The maximum-reduce of the class scores from minus infinity, at graph `p`, is the fold of `max` over the two
    specified scores from minus infinity. -/
theorem reduce_eq (p : Fin 512) :
    val_main_call10_v0 (F := Ideal) x0 x1 x2 x3 x4 x5 x6 x7 x8 x9 x10 x11 x12 x13 x14 x15 x16 x17 x18 x19 x20 x21 x22 x23 x24 x25 x26 x27 x28 x29 x30 x31 (ix1 p)
      = (Finset.univ : Finset (Fin 2)).fold max Cert.Gin.negInfW (fun q => Cert.Gin.logit (val_main_v120 (F := Ideal) x0 x1 x2 x3 x4 x5 x6 x7 x8 x9 x10 x11 x12 x13 x14 x15 x16 x17 x18 x19 x20 x21 x22 x23 x24 x25 x26 x27) x28 x29 x30 x31 p q) := by
  refine (hostMax_classes (val_main_v129 (F := Ideal) x0 x1 x2 x3 x4 x5 x6 x7 x8 x9 x10 x11 x12 x13 x14 x15 x16 x17 x18 x19 x20 x21 x22 x23 x24 x25 x26 x27 x28 x29 x30 x31) (val_main_call10_cst (F := Ideal)) reducesTo_S512x2_S512_d1 (by decide) h_S_ p).trans ?_
  exact congrArg (fun f => Finset.fold max Cert.Gin.negInfW f (Finset.univ : Finset (Fin 2)))
    (funext fun q => by rw [logit_eq])

/-- The row's largest score: the maximum-reduce from minus infinity, and the further maximum with minus infinity, which
    changes nothing because a fold of `max` from a value is at least that value. -/
theorem rowmax_eq (p : Fin 512) :
    val_main_call10_v2 (F := Ideal) x0 x1 x2 x3 x4 x5 x6 x7 x8 x9 x10 x11 x12 x13 x14 x15 x16 x17 x18 x19 x20 x21 x22 x23 x24 x25 x26 x27 x28 x29 x30 x31 (ix1 p) = Cert.Gin.rowMax (val_main_v120 (F := Ideal) x0 x1 x2 x3 x4 x5 x6 x7 x8 x9 x10 x11 x12 x13 x14 x15 x16 x17 x18 x19 x20 x21 x22 x23 x24 x25 x26 x27) x28 x29 x30 x31 p := by
  rw [val_main_call10_v2_apply, val_main_call10_v1_apply, val_main_call10_cst_0_apply, reduce_eq]
  exact max_eq_right ((Finset.le_fold_max _).mpr (Or.inl le_rfl))

/-! ## The log-softmax -/

/-- A score less its row's largest, at `(p, q)`. -/
theorem shifted_eq (p : Fin 512) (q : Fin 2) :
    val_main_call10_v5 (F := Ideal) x0 x1 x2 x3 x4 x5 x6 x7 x8 x9 x10 x11 x12 x13 x14 x15 x16 x17 x18 x19 x20 x21 x22 x23 x24 x25 x26 x27 x28 x29 x30 x31 (ix2 p q) = Cert.Gin.shifted (val_main_v120 (F := Ideal) x0 x1 x2 x3 x4 x5 x6 x7 x8 x9 x10 x11 x12 x13 x14 x15 x16 x17 x18 x19 x20 x21 x22 x23 x24 x25 x26 x27) x28 x29 x30 x31 p q := by
  have e : idx_main_call10_v3 (idx_main_call10_v4 (ix2 p q)) = ix1 p := funext fun a => by match a with | ⟨0, _⟩ => rfl
  rw [val_main_call10_v5_apply, val_main_call10_v4_apply, val_main_call10_v3_apply, e, rowmax_eq, logit_eq]
  rfl

/-- The row's sum of exponentials, summed from the zero word, is the plain sum over the two classes. -/
theorem sumexp_eq (p : Fin 512) :
    val_main_call10_v7 (F := Ideal) x0 x1 x2 x3 x4 x5 x6 x7 x8 x9 x10 x11 x12 x13 x14 x15 x16 x17 x18 x19 x20 x21 x22 x23 x24 x25 x26 x27 x28 x29 x30 x31 (ix1 p) = ∑ q : Fin 2, Ideal.exp (Cert.Gin.shifted (val_main_v120 (F := Ideal) x0 x1 x2 x3 x4 x5 x6 x7 x8 x9 x10 x11 x12 x13 x14 x15 x16 x17 x18 x19 x20 x21 x22 x23 x24 x25 x26 x27) x28 x29 x30 x31 p q) := by
  rw [val_main_call10_v7_apply, val_main_call10_cst_1_apply, Ideal.ofBits_def, Ideal.ofBits_zero_f32, zero_add]
  refine Finset.sum_congr rfl fun k _ => ?_
  have hk : idx_main_call10_v7 (ix1 p) k = ix2 p k := funext fun a => by match a with | ⟨0, _⟩ => rfl | ⟨1, _⟩ => rfl
  rw [hk, val_main_call10_v6_apply, shifted_eq]
  exact Ideal.hostUnary_exp_def _

/-- The logarithm of the row's sum of exponentials, broadcast over the classes, at `(p, q)`. -/
theorem lse_eq (p : Fin 512) (q : Fin 2) :
    val_main_call10_v10 (F := Ideal) x0 x1 x2 x3 x4 x5 x6 x7 x8 x9 x10 x11 x12 x13 x14 x15 x16 x17 x18 x19 x20 x21 x22 x23 x24 x25 x26 x27 x28 x29 x30 x31 (ix2 p q) = Cert.Gin.logSumExp (val_main_v120 (F := Ideal) x0 x1 x2 x3 x4 x5 x6 x7 x8 x9 x10 x11 x12 x13 x14 x15 x16 x17 x18 x19 x20 x21 x22 x23 x24 x25 x26 x27) x28 x29 x30 x31 p := by
  have e : idx_main_call10_v8 (idx_main_call10_v10 (ix2 p q)) = ix1 p := funext fun a => by match a with | ⟨0, _⟩ => rfl
  rw [val_main_call10_v10_apply, val_main_call10_v9_apply, val_main_call10_v8_apply, e, sumexp_eq]
  exact Ideal.hostUnary_log_def _

/-- The reference's result is the specification's classifier output. -/
theorem classifier :
    val_main_v130 (F := Ideal) x0 x1 x2 x3 x4 x5 x6 x7 x8 x9 x10 x11 x12 x13 x14 x15 x16 x17 x18 x19 x20 x21 x22 x23 x24 x25 x26 x27 x28 x29 x30 x31 = Cert.Gin.cls (val_main_v120 (F := Ideal) x0 x1 x2 x3 x4 x5 x6 x7 x8 x9 x10 x11 x12 x13 x14 x15 x16 x17 x18 x19 x20 x21 x22 x23 x24 x25 x26 x27) x28 x29 x30 x31 := by
  funext i
  obtain ⟨p, q, rfl⟩ : ∃ (p : Fin 512) (q : Fin 2), i = ix2 p q := ⟨i 0, i 1, eq_ix2 i⟩
  rw [val_main_v130_apply, shifted_eq, lse_eq]
  rfl

end Cert.ReferenceIdeal.RefValue

end
-- ==== Proof.RefStages.lean ====
import proofs.«143938_j66159676227906_1_alg».proof.Proof.RefStages1
import proofs.«143938_j66159676227906_1_alg».proof.Proof.RefStages2
import proofs.«143938_j66159676227906_1_alg».proof.Proof.RefStages3
import proofs.«143938_j66159676227906_1_alg».proof.Proof.RefStages4

/-!
# The reference, stage by stage, is the specification

Each of the reference's three layers is the specification's layer function of the layer's
input and of the neighbour sums (`layer_1`, `layer_2`, `layer_3`), and its classifier with the row-wise log-softmax
is the specification's classifier function of the pooled features (`classifier`). The neighbour sums, the pooled
sums and their concatenation are not opened: they stay the same functions of the same arrays on both sides.
-/
-- ==== Proof.RI.HostFns.lean ====
import proofs.«143938_j66159676227906_1_alg».proof.ReferenceIdeal
import proofs.«143938_j66159676227906_1_alg».proof.Proof.Gen.ReferenceIdeal
import proofs.«143938_j66159676227906_1_alg».proof.Proof.Spec

/-!
# The host operations between the launches, as functions

Between the launches the program runs plain tensor operations on the host: the neighbour sum of a feature matrix (gather
the source rows of every edge, with a negative source index wrapped once by the node count, and add each into its
destination row of a zero matrix), the per-graph pooling (add every node's row into its graph's row of a zero matrix),
and the concatenation of the three pooled matrices along the feature axis. They are named here and never opened: both
programs apply the same operations, so the two sides meet as equal arguments of equal functions.
-/

noncomputable section

namespace Cert.ReferenceIdeal.HostFns

open Cert.ReferenceIdeal Idealize.ShloMosaic
open Facts₀

variable [Facts₀]

/-- The contents of a buffer of shape `S` and element type `e` over exact arithmetic. -/
abbrev C (S : Shape) (e : EltTy) : Type := (⟨S, e⟩ : BufTy).Contents (Elt Ideal)

/-- The edges' source indices as a column, a negative index wrapped once by the node count. -/
def wrapSrc (src : C S3200000 .i32) : C S3200000x1 .i32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The neighbour sums of a 13-feature matrix. -/
def agg13 (x : C S100000x13 .f32) (src dst : C S3200000 .i32) : C S100000x13 .f32 :=
  Host.scatterAdd scatter_S100000x13_S3200000x1_S3200000x13_1_0_0_1
    (broadcastInDim S100000x13 ![] bcast_S_S100000x13 (constant (F := Ideal) S_ .f32 0x00000000#32))
    (broadcastInDim S3200000x1 ![0] bcast_S3200000_S3200000x1_0 dst)
    (Host.gather gather_S100000x13_S3200000x1_S3200000x13_1_0_n_n_0_1_113 x (wrapSrc src))

/-- The neighbour sums of a 64-feature matrix. -/
def agg64 (x : C S100000x64 .f32) (src dst : C S3200000 .i32) : C S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 x (wrapSrc src))

/-- The per-graph sums of the nodes' rows. -/
def pool (h : C S100000x64 .f32) (batch : C S100000 .i32) : C S512x64 .f32 :=
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 batch) h

/-- Three pooled matrices side by side. -/
def cat3 (p1 p2 p3 : C S512x64 .f32) : C S512x192 .f32 :=
  concatenate S512x192 1 [⟨S512x64, p1⟩, ⟨S512x64, p2⟩, ⟨S512x64, p3⟩] concatenates_S512x64_S512x64_S512x64_S512x192_d1

/-- The three layers' outputs and the network's result, from the 32 arguments. -/
def layer1 (a0 : C S100000x13 .f32) (a1 a2 : C S3200000 .i32) (a4 : C S13x64 .f32) (a5 a6 a7 a8 a9 : C S64 .f32)
    (a10 : C S64x64 .f32) (a11 : C S64 .f32) : C S100000x64 .f32 :=
  Cert.Gin.mlp13 a0 (agg13 a0 a1 a2) a4 a5 a6 a7 a8 a9 a10 a11

def layerN (h : C S100000x64 .f32) (a1 a2 : C S3200000 .i32) (w1 : C S64x64 .f32) (b1 g be mu v : C S64 .f32)
    (w2 : C S64x64 .f32) (b2 : C S64 .f32) : C S100000x64 .f32 :=
  Cert.Gin.mlp64 h (agg64 h a1 a2) w1 b1 g be mu v w2 b2

def readout (h1 h2 h3 : C S100000x64 .f32) (a3 : C S100000 .i32) (a28 : C S192x192 .f32) (a29 : C S192 .f32)
    (a30 : C S192x2 .f32) (a31 : C S2 .f32) : C S512x2 .f32 :=
  Cert.Gin.cls (cat3 (pool h1 a3) (pool h2 a3) (pool h3 a3)) a28 a29 a30 a31

end Cert.ReferenceIdeal.HostFns

end
-- ==== Proof.RefResult.lean ====
import proofs.«143938_j66159676227906_1_alg».proof.Proof.RefStages
import proofs.«143938_j66159676227906_1_alg».proof.Proof.RI.HostFns

/-!
# The reference's result as one function of its arguments

Between the layers the reference gathers and adds rows (the neighbour sums), adds node rows per graph (the pooling) and
puts the three pooled matrices side by side. Those operations are the named host functions, term for term, so with
the three layers and the classifier read entry by entry the reference's result is the host functions and the
specification's layer and classifier functions composed. The run of the reference, which ends with its result at
the operations' composed term and its arguments unchanged, is restated with that composition.
-/

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S100000x13, .f32⟩ : BufTy).Contents (Elt Ideal)) (x1 x2 : (⟨S3200000, .i32⟩ : BufTy).Contents (Elt Ideal)) (x3 : (⟨S100000, .i32⟩ : BufTy).Contents (Elt Ideal)) (x4 : (⟨S13x64, .f32⟩ : BufTy).Contents (Elt Ideal)) (x5 x6 x7 x8 x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 x14 x15 x16 x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64x64, .f32⟩ : BufTy).Contents (Elt Ideal)) (x21 x22 x23 x24 x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S192x192, .f32⟩ : BufTy).Contents (Elt Ideal)) (x29 : (⟨S192, .f32⟩ : BufTy).Contents (Elt Ideal)) (x30 : (⟨S192x2, .f32⟩ : BufTy).Contents (Elt Ideal)) (x31 : (⟨S2, .f32⟩ : BufTy).Contents (Elt Ideal))

/-! ## The host operations between the layers are the named host functions -/

/-- The first layer's neighbour sums. -/
theorem agg_1 : val_main_v9 (F := Ideal) x0 x1 x2 = HostFns.agg13 x0 x1 x2 := by
  unfold val_main_v9 val_main_v8 val_main_v7 val_main_cst val_main_v6 val_main_v5 val_main_v4 val_main_v3 val_main_v2 val_main_c_0
    val_main_v1 val_main_v0 val_main_c HostFns.agg13 HostFns.wrapSrc
  rfl

/-- The second layer's neighbour sums, of the first layer's output. -/
theorem agg_2 : val_main_v46 (F := Ideal) x0 x1 x2 x4 x5 x6 x7 x8 x9 x10 x11 = HostFns.agg64 (val_main_v36 (F := Ideal) x0 x1 x2 x4 x5 x6 x7 x8 x9 x10 x11) x1 x2 := by
  unfold val_main_v46 val_main_v45 val_main_v44 val_main_cst_4 val_main_v43 val_main_v42 val_main_v41 val_main_v40 val_main_v39
    val_main_c_3 val_main_v38 val_main_v37 val_main_c_2 HostFns.agg64 HostFns.wrapSrc
  generalize val_main_v36 (F := Ideal) x0 x1 x2 x4 x5 x6 x7 x8 x9 x10 x11 = h
  rfl

/-- The third layer's neighbour sums, of the second layer's output. -/
theorem agg_3 : val_main_v83 (F := Ideal) x0 x1 x2 x4 x5 x6 x7 x8 x9 x10 x11 x12 x13 x14 x15 x16 x17 x18 x19 = HostFns.agg64 (val_main_v73 (F := Ideal) x0 x1 x2 x4 x5 x6 x7 x8 x9 x10 x11 x12 x13 x14 x15 x16 x17 x18 x19) x1 x2 := by
  unfold val_main_v83 val_main_v82 val_main_v81 val_main_cst_8 val_main_v80 val_main_v79 val_main_v78 val_main_v77 val_main_v76
    val_main_c_7 val_main_v75 val_main_v74 val_main_c_6 HostFns.agg64 HostFns.wrapSrc
  generalize val_main_v73 (F := Ideal) x0 x1 x2 x4 x5 x6 x7 x8 x9 x10 x11 x12 x13 x14 x15 x16 x17 x18 x19 = h
  rfl

/-- The first layer's output pooled per graph. -/
theorem pool_1 : val_main_v113 (F := Ideal) x0 x1 x2 x3 x4 x5 x6 x7 x8 x9 x10 x11 = HostFns.pool (val_main_v36 (F := Ideal) x0 x1 x2 x4 x5 x6 x7 x8 x9 x10 x11) x3 := by
  unfold val_main_v113 val_main_v112 val_main_v111 val_main_cst_10 HostFns.pool
  generalize val_main_v36 (F := Ideal) x0 x1 x2 x4 x5 x6 x7 x8 x9 x10 x11 = h
  rfl

/-- The second layer's output pooled per graph. -/
theorem pool_2 : val_main_v116 (F := Ideal) x0 x1 x2 x3 x4 x5 x6 x7 x8 x9 x10 x11 x12 x13 x14 x15 x16 x17 x18 x19 = HostFns.pool (val_main_v73 (F := Ideal) x0 x1 x2 x4 x5 x6 x7 x8 x9 x10 x11 x12 x13 x14 x15 x16 x17 x18 x19) x3 := by
  unfold val_main_v116 val_main_v115 val_main_v114 val_main_cst_11 HostFns.pool
  generalize val_main_v73 (F := Ideal) x0 x1 x2 x4 x5 x6 x7 x8 x9 x10 x11 x12 x13 x14 x15 x16 x17 x18 x19 = h
  rfl

/-- The third layer's output pooled per graph. -/
theorem pool_3 : val_main_v119 (F := Ideal) x0 x1 x2 x3 x4 x5 x6 x7 x8 x9 x10 x11 x12 x13 x14 x15 x16 x17 x18 x19 x20 x21 x22 x23 x24 x25 x26 x27 = HostFns.pool (val_main_v110 (F := Ideal) x0 x1 x2 x4 x5 x6 x7 x8 x9 x10 x11 x12 x13 x14 x15 x16 x17 x18 x19 x20 x21 x22 x23 x24 x25 x26 x27) x3 := by
  unfold val_main_v119 val_main_v118 val_main_v117 val_main_cst_12 HostFns.pool
  generalize val_main_v110 (F := Ideal) x0 x1 x2 x4 x5 x6 x7 x8 x9 x10 x11 x12 x13 x14 x15 x16 x17 x18 x19 x20 x21 x22 x23 x24 x25 x26 x27 = h
  rfl

/-- The three pooled matrices side by side. -/
theorem cat_eq : val_main_v120 (F := Ideal) x0 x1 x2 x3 x4 x5 x6 x7 x8 x9 x10 x11 x12 x13 x14 x15 x16 x17 x18 x19 x20 x21 x22 x23 x24 x25 x26 x27 = HostFns.cat3 (val_main_v113 (F := Ideal) x0 x1 x2 x3 x4 x5 x6 x7 x8 x9 x10 x11) (val_main_v116 (F := Ideal) x0 x1 x2 x3 x4 x5 x6 x7 x8 x9 x10 x11 x12 x13 x14 x15 x16 x17 x18 x19) (val_main_v119 (F := Ideal) x0 x1 x2 x3 x4 x5 x6 x7 x8 x9 x10 x11 x12 x13 x14 x15 x16 x17 x18 x19 x20 x21 x22 x23 x24 x25 x26 x27) := by
  unfold val_main_v120 HostFns.cat3
  rfl

/-! ## The layers' outputs and the result -/

/-- The first layer's output. -/
theorem out_1 : val_main_v36 (F := Ideal) x0 x1 x2 x4 x5 x6 x7 x8 x9 x10 x11 = HostFns.layer1 x0 x1 x2 x4 x5 x6 x7 x8 x9 x10 x11 := by
  rw [layer_1, agg_1]
  rfl

/-- The second layer's output. -/
theorem out_2 : val_main_v73 (F := Ideal) x0 x1 x2 x4 x5 x6 x7 x8 x9 x10 x11 x12 x13 x14 x15 x16 x17 x18 x19 = HostFns.layerN (HostFns.layer1 x0 x1 x2 x4 x5 x6 x7 x8 x9 x10 x11) x1 x2 x12 x13 x14 x15 x16 x17 x18 x19 := by
  rw [layer_2, agg_2, out_1]
  rfl

/-- The third layer's output. -/
theorem out_3 : val_main_v110 (F := Ideal) x0 x1 x2 x4 x5 x6 x7 x8 x9 x10 x11 x12 x13 x14 x15 x16 x17 x18 x19 x20 x21 x22 x23 x24 x25 x26 x27 = HostFns.layerN (HostFns.layerN (HostFns.layer1 x0 x1 x2 x4 x5 x6 x7 x8 x9 x10 x11) x1 x2 x12 x13 x14 x15 x16 x17 x18 x19) x1 x2 x20 x21 x22 x23 x24 x25 x26 x27 := by
  rw [layer_3, agg_3, out_2]
  rfl

/-- The reference's result is the classifier of the three pooled layer outputs side by side. -/
theorem result_eq :
    val_main_v130 (F := Ideal) x0 x1 x2 x3 x4 x5 x6 x7 x8 x9 x10 x11 x12 x13 x14 x15 x16 x17 x18 x19 x20 x21 x22 x23 x24 x25 x26 x27 x28 x29 x30 x31
      = HostFns.readout (HostFns.layer1 x0 x1 x2 x4 x5 x6 x7 x8 x9 x10 x11) (HostFns.layerN (HostFns.layer1 x0 x1 x2 x4 x5 x6 x7 x8 x9 x10 x11) x1 x2 x12 x13 x14 x15 x16 x17 x18 x19) (HostFns.layerN (HostFns.layerN (HostFns.layer1 x0 x1 x2 x4 x5 x6 x7 x8 x9 x10 x11) x1 x2 x12 x13 x14 x15 x16 x17 x18 x19) x1 x2 x20 x21 x22 x23 x24 x25 x26 x27) x3 x28 x29 x30 x31 := by
  rw [classifier, cat_eq, pool_1, pool_2, pool_3, out_3, out_2, out_1]
  rfl

/-! ## The run, restated -/

/-- Every weakly fair run of the reference terminates without a fault with its result at the composed function of
    the arguments' contents at the start, and the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v130)
        = HostFns.readout (HostFns.layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (HostFns.layerN (HostFns.layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) (m ((c.tc : Thread nD τ).loc main_arg2)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))) (HostFns.layerN (HostFns.layerN (HostFns.layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg1)) (m ((c.tc : Thread nD τ).loc main_arg2)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))) (m ((c.tc : Thread nD τ).loc main_arg1)) (m ((c.tc : Thread nD τ).loc main_arg2)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) (m ((c.tc : Thread nD τ).loc main_arg3)) (m ((c.tc : Thread nD τ).loc main_arg28)) (m ((c.tc : Thread nD τ).loc main_arg29)) (m ((c.tc : Thread nD τ).loc main_arg30)) (m ((c.tc : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun r h c => ⟨(h c).1.trans (by rw [val_main_v130_eq, result_eq]), (h c).2⟩)
    (Cert.ReferenceIdeal.Value.run (F := Ideal) m ρ)

end Cert.ReferenceIdeal.RefValue

end
-- ==== Proof.Bridge.lean ====
import proofs.«143938_j66159676227906_1_alg».proof.Proof.KI.HostFns
import proofs.«143938_j66159676227906_1_alg».proof.Proof.RI.HostFns

/-!
# The two programs' host functions are the same functions

The kernel's program and the reference print the same host operations — the same gathers, scatter-adds, broadcasts and
concatenation, with the same dimension records — each in its own namespace. Unfolding the names on both sides leaves the
same terms.
-/

noncomputable section

namespace Cert.Bridge

open Idealize.ShloMosaic

variable [hK : Cert.KernelIdeal.Facts₀] [hR : Cert.ReferenceIdeal.Facts₀]

theorem agg13_eq (x : Cert.KernelIdeal.HostFns.C Cert.KernelIdeal.S100000x13 .f32)
    (src dst : Cert.KernelIdeal.HostFns.C Cert.KernelIdeal.S3200000 .i32) :
    Cert.KernelIdeal.HostFns.agg13 x src dst = Cert.ReferenceIdeal.HostFns.agg13 x src dst := rfl

theorem agg64_eq (x : Cert.KernelIdeal.HostFns.C Cert.KernelIdeal.S100000x64 .f32)
    (src dst : Cert.KernelIdeal.HostFns.C Cert.KernelIdeal.S3200000 .i32) :
    Cert.KernelIdeal.HostFns.agg64 x src dst = Cert.ReferenceIdeal.HostFns.agg64 x src dst := rfl

theorem pool_eq (h : Cert.KernelIdeal.HostFns.C Cert.KernelIdeal.S100000x64 .f32)
    (b : Cert.KernelIdeal.HostFns.C Cert.KernelIdeal.S100000 .i32) :
    Cert.KernelIdeal.HostFns.pool h b = Cert.ReferenceIdeal.HostFns.pool h b := rfl

theorem cat3_eq (p1 p2 p3 : Cert.KernelIdeal.HostFns.C Cert.KernelIdeal.S512x64 .f32) :
    Cert.KernelIdeal.HostFns.cat3 p1 p2 p3 = Cert.ReferenceIdeal.HostFns.cat3 p1 p2 p3 := rfl

theorem layer1_eq (a0 : Cert.KernelIdeal.HostFns.C Cert.KernelIdeal.S100000x13 .f32)
    (a1 a2 : Cert.KernelIdeal.HostFns.C Cert.KernelIdeal.S3200000 .i32)
    (a4 : Cert.KernelIdeal.HostFns.C Cert.KernelIdeal.S13x64 .f32)
    (a5 a6 a7 a8 a9 : Cert.KernelIdeal.HostFns.C Cert.KernelIdeal.S64 .f32)
    (a10 : Cert.KernelIdeal.HostFns.C Cert.KernelIdeal.S64x64 .f32)
    (a11 : Cert.KernelIdeal.HostFns.C Cert.KernelIdeal.S64 .f32) :
    Cert.KernelIdeal.HostFns.layer1 a0 a1 a2 a4 a5 a6 a7 a8 a9 a10 a11
      = Cert.ReferenceIdeal.HostFns.layer1 a0 a1 a2 a4 a5 a6 a7 a8 a9 a10 a11 := by
  unfold Cert.KernelIdeal.HostFns.layer1 Cert.ReferenceIdeal.HostFns.layer1
  rw [agg13_eq]

theorem layerN_eq (h : Cert.KernelIdeal.HostFns.C Cert.KernelIdeal.S100000x64 .f32)
    (a1 a2 : Cert.KernelIdeal.HostFns.C Cert.KernelIdeal.S3200000 .i32)
    (w1 : Cert.KernelIdeal.HostFns.C Cert.KernelIdeal.S64x64 .f32)
    (b1 g be mu v : Cert.KernelIdeal.HostFns.C Cert.KernelIdeal.S64 .f32)
    (w2 : Cert.KernelIdeal.HostFns.C Cert.KernelIdeal.S64x64 .f32)
    (b2 : Cert.KernelIdeal.HostFns.C Cert.KernelIdeal.S64 .f32) :
    Cert.KernelIdeal.HostFns.layerN h a1 a2 w1 b1 g be mu v w2 b2
      = Cert.ReferenceIdeal.HostFns.layerN h a1 a2 w1 b1 g be mu v w2 b2 := by
  unfold Cert.KernelIdeal.HostFns.layerN Cert.ReferenceIdeal.HostFns.layerN
  rw [agg64_eq]

theorem readout_eq (h1 h2 h3 : Cert.KernelIdeal.HostFns.C Cert.KernelIdeal.S100000x64 .f32)
    (a3 : Cert.KernelIdeal.HostFns.C Cert.KernelIdeal.S100000 .i32)
    (a28 : Cert.KernelIdeal.HostFns.C Cert.KernelIdeal.S192x192 .f32)
    (a29 : Cert.KernelIdeal.HostFns.C Cert.KernelIdeal.S192 .f32)
    (a30 : Cert.KernelIdeal.HostFns.C Cert.KernelIdeal.S192x2 .f32)
    (a31 : Cert.KernelIdeal.HostFns.C Cert.KernelIdeal.S2 .f32) :
    Cert.KernelIdeal.HostFns.readout h1 h2 h3 a3 a28 a29 a30 a31
      = Cert.ReferenceIdeal.HostFns.readout h1 h2 h3 a3 a28 a29 a30 a31 := by
  unfold Cert.KernelIdeal.HostFns.readout Cert.ReferenceIdeal.HostFns.readout
  rw [cat3_eq, pool_eq, pool_eq, pool_eq]

end Cert.Bridge

end
-- ==== Proof.Claims.lean ====
import proofs.«143938_j66159676227906_1_alg».proof.Defs
import proofs.«143938_j66159676227906_1_alg».proof.Proof.Gen.Kernel
import proofs.«143938_j66159676227906_1_alg».proof.Proof.Gen.KernelIdeal
import proofs.«143938_j66159676227906_1_alg».proof.Proof.Gen.ReferenceIdeal
import proofs.«143938_j66159676227906_1_alg».proof.Proof.Gen.Pre_finite_inputs
import proofs.«143938_j66159676227906_1_alg».proof.Proof.K.Run
import proofs.«143938_j66159676227906_1_alg».proof.Proof.KI.Run
import proofs.«143938_j66159676227906_1_alg».proof.Proof.KI.Net
import proofs.«143938_j66159676227906_1_alg».proof.Proof.RefResult
import proofs.«143938_j66159676227906_1_alg».proof.Proof.Bridge

/-!
# The five claims

The two kernel programs' frames are read off their runs: every unscoped buffer ends at the last boundary's contents, and an
argument's contents there are its launch contents. The reference's frame is its run with the result dropped. No operation
was rewritten by the idealization, so there is nothing to preserve. For the value claim both runs end with the result
array at the same function of the arguments: three graph-isomorphism layers over the shared neighbour sums, the shared
pooling and concatenation, and the classifier with its log-softmax.
-/

noncomputable section

namespace Cert.Proof.Claims

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W8_main_arg0 m ρ c),
      (h c _ (Cert.Kernel.Hand.mem_uc Cert.Kernel.main_arg1 (by decide))).trans (Cert.Kernel.Hand.W8_main_arg1 m ρ c),
      (h c _ (Cert.Kernel.Hand.mem_uc Cert.Kernel.main_arg2 (by decide))).trans (Cert.Kernel.Hand.W8_main_arg2 m ρ c),
      (h c _ (Cert.Kernel.Hand.mem_uc Cert.Kernel.main_arg3 (by decide))).trans (Cert.Kernel.Hand.W8_main_arg3 m ρ c),
      (h c _ (Cert.Kernel.Hand.mem_uc Cert.Kernel.main_arg4 (by decide))).trans (Cert.Kernel.Hand.W8_main_arg4 m ρ c),
      (h c _ (Cert.Kernel.Hand.mem_uc Cert.Kernel.main_arg5 (by decide))).trans (Cert.Kernel.Hand.W8_main_arg5 m ρ c),
      (h c _ (Cert.Kernel.Hand.mem_uc Cert.Kernel.main_arg6 (by decide))).trans (Cert.Kernel.Hand.W8_main_arg6 m ρ c),
      (h c _ (Cert.Kernel.Hand.mem_uc Cert.Kernel.main_arg7 (by decide))).trans (Cert.Kernel.Hand.W8_main_arg7 m ρ c),
      (h c _ (Cert.Kernel.Hand.mem_uc Cert.Kernel.main_arg8 (by decide))).trans (Cert.Kernel.Hand.W8_main_arg8 m ρ c),
      (h c _ (Cert.Kernel.Hand.mem_uc Cert.Kernel.main_arg9 (by decide))).trans (Cert.Kernel.Hand.W8_main_arg9 m ρ c),
      (h c _ (Cert.Kernel.Hand.mem_uc Cert.Kernel.main_arg10 (by decide))).trans (Cert.Kernel.Hand.W8_main_arg10 m ρ c),
      (h c _ (Cert.Kernel.Hand.mem_uc Cert.Kernel.main_arg11 (by decide))).trans (Cert.Kernel.Hand.W8_main_arg11 m ρ c),
      (h c _ (Cert.Kernel.Hand.mem_uc Cert.Kernel.main_arg12 (by decide))).trans (Cert.Kernel.Hand.W8_main_arg12 m ρ c),
      (h c _ (Cert.Kernel.Hand.mem_uc Cert.Kernel.main_arg13 (by decide))).trans (Cert.Kernel.Hand.W8_main_arg13 m ρ c),
      (h c _ (Cert.Kernel.Hand.mem_uc Cert.Kernel.main_arg14 (by decide))).trans (Cert.Kernel.Hand.W8_main_arg14 m ρ c),
      (h c _ (Cert.Kernel.Hand.mem_uc Cert.Kernel.main_arg15 (by decide))).trans (Cert.Kernel.Hand.W8_main_arg15 m ρ c),
      (h c _ (Cert.Kernel.Hand.mem_uc Cert.Kernel.main_arg16 (by decide))).trans (Cert.Kernel.Hand.W8_main_arg16 m ρ c),
      (h c _ (Cert.Kernel.Hand.mem_uc Cert.Kernel.main_arg17 (by decide))).trans (Cert.Kernel.Hand.W8_main_arg17 m ρ c),
      (h c _ (Cert.Kernel.Hand.mem_uc Cert.Kernel.main_arg18 (by decide))).trans (Cert.Kernel.Hand.W8_main_arg18 m ρ c),
      (h c _ (Cert.Kernel.Hand.mem_uc Cert.Kernel.main_arg19 (by decide))).trans (Cert.Kernel.Hand.W8_main_arg19 m ρ c),
      (h c _ (Cert.Kernel.Hand.mem_uc Cert.Kernel.main_arg20 (by decide))).trans (Cert.Kernel.Hand.W8_main_arg20 m ρ c),
      (h c _ (Cert.Kernel.Hand.mem_uc Cert.Kernel.main_arg21 (by decide))).trans (Cert.Kernel.Hand.W8_main_arg21 m ρ c),
      (h c _ (Cert.Kernel.Hand.mem_uc Cert.Kernel.main_arg22 (by decide))).trans (Cert.Kernel.Hand.W8_main_arg22 m ρ c),
      (h c _ (Cert.Kernel.Hand.mem_uc Cert.Kernel.main_arg23 (by decide))).trans (Cert.Kernel.Hand.W8_main_arg23 m ρ c),
      (h c _ (Cert.Kernel.Hand.mem_uc Cert.Kernel.main_arg24 (by decide))).trans (Cert.Kernel.Hand.W8_main_arg24 m ρ c),
      (h c _ (Cert.Kernel.Hand.mem_uc Cert.Kernel.main_arg25 (by decide))).trans (Cert.Kernel.Hand.W8_main_arg25 m ρ c),
      (h c _ (Cert.Kernel.Hand.mem_uc Cert.Kernel.main_arg26 (by decide))).trans (Cert.Kernel.Hand.W8_main_arg26 m ρ c),
      (h c _ (Cert.Kernel.Hand.mem_uc Cert.Kernel.main_arg27 (by decide))).trans (Cert.Kernel.Hand.W8_main_arg27 m ρ c),
      (h c _ (Cert.Kernel.Hand.mem_uc Cert.Kernel.main_arg28 (by decide))).trans (Cert.Kernel.Hand.W8_main_arg28 m ρ c),
      (h c _ (Cert.Kernel.Hand.mem_uc Cert.Kernel.main_arg29 (by decide))).trans (Cert.Kernel.Hand.W8_main_arg29 m ρ c),
      (h c _ (Cert.Kernel.Hand.mem_uc Cert.Kernel.main_arg30 (by decide))).trans (Cert.Kernel.Hand.W8_main_arg30 m ρ c),
      (h c _ (Cert.Kernel.Hand.mem_uc Cert.Kernel.main_arg31 (by decide))).trans (Cert.Kernel.Hand.W8_main_arg31 m ρ c)⟩)
    (Cert.Kernel.Hand.run_all (F := Bits) m ρ)

/-- The idealized kernel program runs and leaves its arguments as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c),
      (h c _ (Cert.KernelIdeal.Hand.mem_uc Cert.KernelIdeal.main_arg13 (by decide))).trans (Cert.KernelIdeal.Hand.W8_main_arg13 m ρ c),
      (h c _ (Cert.KernelIdeal.Hand.mem_uc Cert.KernelIdeal.main_arg14 (by decide))).trans (Cert.KernelIdeal.Hand.W8_main_arg14 m ρ c),
      (h c _ (Cert.KernelIdeal.Hand.mem_uc Cert.KernelIdeal.main_arg15 (by decide))).trans (Cert.KernelIdeal.Hand.W8_main_arg15 m ρ c),
      (h c _ (Cert.KernelIdeal.Hand.mem_uc Cert.KernelIdeal.main_arg16 (by decide))).trans (Cert.KernelIdeal.Hand.W8_main_arg16 m ρ c),
      (h c _ (Cert.KernelIdeal.Hand.mem_uc Cert.KernelIdeal.main_arg17 (by decide))).trans (Cert.KernelIdeal.Hand.W8_main_arg17 m ρ c),
      (h c _ (Cert.KernelIdeal.Hand.mem_uc Cert.KernelIdeal.main_arg18 (by decide))).trans (Cert.KernelIdeal.Hand.W8_main_arg18 m ρ c),
      (h c _ (Cert.KernelIdeal.Hand.mem_uc Cert.KernelIdeal.main_arg19 (by decide))).trans (Cert.KernelIdeal.Hand.W8_main_arg19 m ρ c),
      (h c _ (Cert.KernelIdeal.Hand.mem_uc Cert.KernelIdeal.main_arg20 (by decide))).trans (Cert.KernelIdeal.Hand.W8_main_arg20 m ρ c),
      (h c _ (Cert.KernelIdeal.Hand.mem_uc Cert.KernelIdeal.main_arg21 (by decide))).trans (Cert.KernelIdeal.Hand.W8_main_arg21 m ρ c),
      (h c _ (Cert.KernelIdeal.Hand.mem_uc Cert.KernelIdeal.main_arg22 (by decide))).trans (Cert.KernelIdeal.Hand.W8_main_arg22 m ρ c),
      (h c _ (Cert.KernelIdeal.Hand.mem_uc Cert.KernelIdeal.main_arg23 (by decide))).trans (Cert.KernelIdeal.Hand.W8_main_arg23 m ρ c),
      (h c _ (Cert.KernelIdeal.Hand.mem_uc Cert.KernelIdeal.main_arg24 (by decide))).trans (Cert.KernelIdeal.Hand.W8_main_arg24 m ρ c),
      (h c _ (Cert.KernelIdeal.Hand.mem_uc Cert.KernelIdeal.main_arg25 (by decide))).trans (Cert.KernelIdeal.Hand.W8_main_arg25 m ρ c),
      (h c _ (Cert.KernelIdeal.Hand.mem_uc Cert.KernelIdeal.main_arg26 (by decide))).trans (Cert.KernelIdeal.Hand.W8_main_arg26 m ρ c),
      (h c _ (Cert.KernelIdeal.Hand.mem_uc Cert.KernelIdeal.main_arg27 (by decide))).trans (Cert.KernelIdeal.Hand.W8_main_arg27 m ρ c),
      (h c _ (Cert.KernelIdeal.Hand.mem_uc Cert.KernelIdeal.main_arg28 (by decide))).trans (Cert.KernelIdeal.Hand.W8_main_arg28 m ρ c),
      (h c _ (Cert.KernelIdeal.Hand.mem_uc Cert.KernelIdeal.main_arg29 (by decide))).trans (Cert.KernelIdeal.Hand.W8_main_arg29 m ρ c),
      (h c _ (Cert.KernelIdeal.Hand.mem_uc Cert.KernelIdeal.main_arg30 (by decide))).trans (Cert.KernelIdeal.Hand.W8_main_arg30 m ρ c),
      (h c _ (Cert.KernelIdeal.Hand.mem_uc Cert.KernelIdeal.main_arg31 (by decide))).trans (Cert.KernelIdeal.Hand.W8_main_arg31 m ρ c)⟩)
    (Cert.KernelIdeal.Hand.run_all (F := Ideal) m ρ)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- From memories agreeing on the arguments both idealized programs end with the same result array: the network's
    function of the arguments, the host operations between the layers being the same functions in both. -/
theorem algebraic : Cert.algebraic_KernelIdeal_ReferenceIdeal := by
  intro m ρ m' ρ' _ hagree
  refine ⟨fun c => Cert.KernelIdeal.HostFns.readout (Cert.KernelIdeal.Hand.H1 m c) (Cert.KernelIdeal.Hand.H2 m c)
      (Cert.KernelIdeal.Hand.H3 m c) (m ((c : Thread Cert.KernelIdeal.nD Cert.KernelIdeal.τ).loc Cert.KernelIdeal.main_arg3))
      (m ((c : Thread Cert.KernelIdeal.nD Cert.KernelIdeal.τ).loc Cert.KernelIdeal.main_arg28))
      (m ((c : Thread Cert.KernelIdeal.nD Cert.KernelIdeal.τ).loc Cert.KernelIdeal.main_arg29))
      (m ((c : Thread Cert.KernelIdeal.nD Cert.KernelIdeal.τ).loc Cert.KernelIdeal.main_arg30))
      (m ((c : Thread Cert.KernelIdeal.nD Cert.KernelIdeal.τ).loc Cert.KernelIdeal.main_arg31)), ?_, ?_⟩
  · exact (θ_run Cert.KernelIdeal.defs _ _).mono (fun r h c =>
      ⟨(h c _ (Cert.KernelIdeal.Hand.mem_uc Cert.KernelIdeal.main_v43 (by decide))).trans (Cert.KernelIdeal.Hand.v43_eq m ρ c),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c),
      (h c _ (Cert.KernelIdeal.Hand.mem_uc Cert.KernelIdeal.main_arg13 (by decide))).trans (Cert.KernelIdeal.Hand.W8_main_arg13 m ρ c),
      (h c _ (Cert.KernelIdeal.Hand.mem_uc Cert.KernelIdeal.main_arg14 (by decide))).trans (Cert.KernelIdeal.Hand.W8_main_arg14 m ρ c),
      (h c _ (Cert.KernelIdeal.Hand.mem_uc Cert.KernelIdeal.main_arg15 (by decide))).trans (Cert.KernelIdeal.Hand.W8_main_arg15 m ρ c),
      (h c _ (Cert.KernelIdeal.Hand.mem_uc Cert.KernelIdeal.main_arg16 (by decide))).trans (Cert.KernelIdeal.Hand.W8_main_arg16 m ρ c),
      (h c _ (Cert.KernelIdeal.Hand.mem_uc Cert.KernelIdeal.main_arg17 (by decide))).trans (Cert.KernelIdeal.Hand.W8_main_arg17 m ρ c),
      (h c _ (Cert.KernelIdeal.Hand.mem_uc Cert.KernelIdeal.main_arg18 (by decide))).trans (Cert.KernelIdeal.Hand.W8_main_arg18 m ρ c),
      (h c _ (Cert.KernelIdeal.Hand.mem_uc Cert.KernelIdeal.main_arg19 (by decide))).trans (Cert.KernelIdeal.Hand.W8_main_arg19 m ρ c),
      (h c _ (Cert.KernelIdeal.Hand.mem_uc Cert.KernelIdeal.main_arg20 (by decide))).trans (Cert.KernelIdeal.Hand.W8_main_arg20 m ρ c),
      (h c _ (Cert.KernelIdeal.Hand.mem_uc Cert.KernelIdeal.main_arg21 (by decide))).trans (Cert.KernelIdeal.Hand.W8_main_arg21 m ρ c),
      (h c _ (Cert.KernelIdeal.Hand.mem_uc Cert.KernelIdeal.main_arg22 (by decide))).trans (Cert.KernelIdeal.Hand.W8_main_arg22 m ρ c),
      (h c _ (Cert.KernelIdeal.Hand.mem_uc Cert.KernelIdeal.main_arg23 (by decide))).trans (Cert.KernelIdeal.Hand.W8_main_arg23 m ρ c),
      (h c _ (Cert.KernelIdeal.Hand.mem_uc Cert.KernelIdeal.main_arg24 (by decide))).trans (Cert.KernelIdeal.Hand.W8_main_arg24 m ρ c),
      (h c _ (Cert.KernelIdeal.Hand.mem_uc Cert.KernelIdeal.main_arg25 (by decide))).trans (Cert.KernelIdeal.Hand.W8_main_arg25 m ρ c),
      (h c _ (Cert.KernelIdeal.Hand.mem_uc Cert.KernelIdeal.main_arg26 (by decide))).trans (Cert.KernelIdeal.Hand.W8_main_arg26 m ρ c),
      (h c _ (Cert.KernelIdeal.Hand.mem_uc Cert.KernelIdeal.main_arg27 (by decide))).trans (Cert.KernelIdeal.Hand.W8_main_arg27 m ρ c),
      (h c _ (Cert.KernelIdeal.Hand.mem_uc Cert.KernelIdeal.main_arg28 (by decide))).trans (Cert.KernelIdeal.Hand.W8_main_arg28 m ρ c),
      (h c _ (Cert.KernelIdeal.Hand.mem_uc Cert.KernelIdeal.main_arg29 (by decide))).trans (Cert.KernelIdeal.Hand.W8_main_arg29 m ρ c),
      (h c _ (Cert.KernelIdeal.Hand.mem_uc Cert.KernelIdeal.main_arg30 (by decide))).trans (Cert.KernelIdeal.Hand.W8_main_arg30 m ρ c),
      (h c _ (Cert.KernelIdeal.Hand.mem_uc Cert.KernelIdeal.main_arg31 (by decide))).trans (Cert.KernelIdeal.Hand.W8_main_arg31 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.RefValue.run_result m' ρ')
    obtain ⟨g0, g1, g2, g3, g4, g5, g6, g7, g8, g9, g10, g11, g12, g13, g14, g15, g16, g17, g18, g19, g20, g21, g22, g23, g24, g25, g26, g27, g28, g29, g30, g31⟩ := hagree c
    rw [g0, g1, g2, g3, g4, g5, g6, g7, g8, g9, g10, g11, g12, g13, g14, g15, g16, g17, g18, g19, g20, g21, g22, g23, g24, g25, g26, g27, g28, g29, g30, g31]
    unfold Cert.KernelIdeal.Hand.H3 Cert.KernelIdeal.Hand.H2 Cert.KernelIdeal.Hand.H1
    simp only [Cert.Bridge.readout_eq, Cert.Bridge.layerN_eq, Cert.Bridge.layer1_eq]

end Cert.Proof.Claims

end
-- ==== Proof.lean ====
/- The certificate of a three-layer graph-isomorphism network with a graph classifier: the tiled kernel program against the
   plain reference. Each of the four kernel launches is run block by block and its output array read as the layer's whole
   output matrix; the host operations between the launches (neighbour sums, pooling, concatenation) are the same in both
   programs; the reference's own run is read stage by stage against the same entry-by-entry specification. -/
import proofs.«143938_j66159676227906_1_alg».proof.Defs
import proofs.«143938_j66159676227906_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
